-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x256x512 : Shape := ⟨4, ![4, 64, 256, 512]⟩
abbrev S512x512 : Shape := ⟨2, ![512, 512]⟩
abbrev S512 : Shape := ⟨1, ![512]⟩
abbrev S_ : Shape := ⟨0, ![]⟩

class Facts : Prop where
  bcast_S_S4x64x256x512 : S_.BroadcastsInDim S4x64x256x512 (![] : Fin 0 → Fin S4x64x256x512.rank)
  reducesTo_S4x64x256x512_S_d0_1_2_3 : S4x64x256x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x512 .f32) (main_arg8 : FVec F S512 .f32) (main_arg9 : FVec F S512 .f32) (main_arg10 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512 .f32) (main_arg10 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x64x256x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512 .f32) (main_arg10 : FVec F S512 .f32) : IVec S_ 1 :=
  let main_v0 : FVec F S4x64x256x512 .f32 := Host.absf main_arg0
  let main_cst : FVec F S_ .f32 := constant S_ .f32 0x7F800000#32
  let main_v1 : FVec F S4x64x256x512 .f32 := broadcastInDim S4x64x256x512 ![] bcast_S_S4x64x256x512 main_cst
  let main_v2 : IVec S4x64x256x512 1 := cmpf .olt main_v0 main_v1
  let main_c : IVec S_ 1 := constantI S_ 1 1#1
  let main_v3 : IVec S_ 1 := (fun x v => Host.reduce IntOp.andi x v reducesTo_S4x64x256x512_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S4x64x256x512 : Shape := ⟨4, ![4, 64, 256, 512]⟩
abbrev S512x512 : Shape := ⟨2, ![512, 512]⟩
abbrev S512 : Shape := ⟨1, ![512]⟩
abbrev S512x1536 : Shape := ⟨2, ![512, 1536]⟩
abbrev S1536 : Shape := ⟨1, ![1536]⟩
abbrev S1x64x8x512 : Shape := ⟨4, ![1, 64, 8, 512]⟩
abbrev S64x8x512 : Shape := ⟨3, ![64, 8, 512]⟩
abbrev S1x1536 : Shape := ⟨2, ![1, 1536]⟩
abbrev S64x8x8x64 : Shape := ⟨4, ![64, 8, 8, 64]⟩
abbrev S64x8x1x64 : Shape := ⟨4, ![64, 8, 1, 64]⟩
abbrev S64x8x64 : Shape := ⟨3, ![64, 8, 64]⟩
abbrev S8x64x64 : Shape := ⟨3, ![8, 64, 64]⟩
abbrev S8x64 : Shape := ⟨2, ![8, 64]⟩
abbrev S8x64x1 : Shape := ⟨3, ![8, 64, 1]⟩
abbrev S1x512 : Shape := ⟨2, ![1, 512]⟩
abbrev S512x1 : Shape := ⟨2, ![512, 1]⟩

abbrev nBuf : Space → Nat
  | .hbm => 20
  | .vmem => 10
  | .smem => 0
  | _ => 0

abbrev bufTy : (tb : Table) → Fin (tcTables nBuf tb) → BufTy
  | .hbm, ⟨0, _⟩ => ⟨S4x64x256x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x1536, .f32⟩
  | .hbm, ⟨15, _⟩ => ⟨S512x1536, .bf16⟩
  | .hbm, ⟨16, _⟩ => ⟨S1536, .f32⟩
  | .hbm, ⟨17, _⟩ => ⟨S512x512, .f32⟩
  | .hbm, ⟨18, _⟩ => ⟨S512x512, .bf16⟩
  | .hbm, ⟨19, _⟩ => ⟨S4x64x256x512, .f32⟩
  | .local _ .vmem, ⟨0, _⟩ => ⟨S1x64x8x512, .f32⟩
  | .local _ .vmem, ⟨1, _⟩ => ⟨S1x64x8x512, .f32⟩
  | .local _ .vmem, ⟨2, _⟩ => ⟨S512x1536, .bf16⟩
  | .local _ .vmem, ⟨3, _⟩ => ⟨S1536, .f32⟩
  | .local _ .vmem, ⟨4, _⟩ => ⟨S512x512, .bf16⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S1x64x8x512, .f32⟩
  | .local _ .vmem, ⟨9, _⟩ => ⟨S1x64x8x512, .f32⟩
  | _, _ => ⟨S4x64x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  transposes_S512x512_S512x512_1_0 : S512x512.Transposes [1, 0] S512x512
  concatenates_S512x512_S512x512_S512x512_S512x1536_d1 : Shape.Concatenates [S512x512, S512x512, S512x512] S512x1536 1
  bitsLt_bf16_f32 : FTy.bits .bf16 < FTy.bits .f32
  concatenates_S512_S512_S512_S1536_d0 : Shape.Concatenates [S512, S512, S512] S1536 0
  inb_S1x64x8x512_S1x64x8x512_0_0_0_0 : ∀ a, (![0, 0, 0, 0] : Fin 4 → Nat) a + S1x64x8x512.size a ≤ S1x64x8x512.size a
  h_S1x64x8x512 : 0 < S1x64x8x512.numel
  shapeCasts_S1x64x8x512_S64x8x512 : S1x64x8x512.ShapeCasts S64x8x512
  shapeCasts_S64x8x512_S512x512 : S64x8x512.ShapeCasts S512x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1536 : S1536.ShapeCasts S1536
  shapeCasts_S1536_S1x1536 : S1536.ShapeCasts S1x1536
  broadcasts_S1x1536_S512x1536 : S1x1536.Broadcasts S512x1536
  slices_S512x1536_o0_0_S512x512 : S512x1536.Slices ![0, 0] S512x512
  shapeCasts_S512x512_S64x8x8x64 : S512x512.ShapeCasts S64x8x8x64
  slices_S512x1536_o0_512_S512x512 : S512x1536.Slices ![0, 512] S512x512
  slices_S512x1536_o0_1024_S512x512 : S512x1536.Slices ![0, 1024] S512x512
  slices_S64x8x8x64_o0_0_0_0_S64x8x1x64 : S64x8x8x64.Slices ![0, 0, 0, 0] S64x8x1x64
  shapeCasts_S64x8x1x64_S64x8x64 : S64x8x1x64.ShapeCasts S64x8x64
  transposes_S64x8x64_p1_0_2_S8x64x64 : S64x8x64.Transposes [1, 0, 2] S8x64x64
  iota_S8x64x64_d1_w32 : S8x64x64.Iotas .tc 32 [1]
  iota_S8x64x64_d2_w32 : S8x64x64.Iotas .tc 32 [2]
  reduces_S8x64x64_S8x64 : S8x64x64.Reduces [2] S8x64
  shapeCasts_S8x64_S8x64x1 : S8x64.ShapeCasts S8x64x1
  broadcasts_S8x64x1_S8x64x64 : S8x64x1.Broadcasts S8x64x64
  transposes_S8x64x64_p1_0_2_S64x8x64 : S8x64x64.Transposes [1, 0, 2] S64x8x64
  slices_S64x8x8x64_o0_0_1_0_S64x8x1x64 : S64x8x8x64.Slices ![0, 0, 1, 0] S64x8x1x64
  slices_S64x8x8x64_o0_0_2_0_S64x8x1x64 : S64x8x8x64.Slices ![0, 0, 2, 0] S64x8x1x64
  slices_S64x8x8x64_o0_0_3_0_S64x8x1x64 : S64x8x8x64.Slices ![0, 0, 3, 0] S64x8x1x64
  slices_S64x8x8x64_o0_0_4_0_S64x8x1x64 : S64x8x8x64.Slices ![0, 0, 4, 0] S64x8x1x64
  slices_S64x8x8x64_o0_0_5_0_S64x8x1x64 : S64x8x8x64.Slices ![0, 0, 5, 0] S64x8x1x64
  slices_S64x8x8x64_o0_0_6_0_S64x8x1x64 : S64x8x8x64.Slices ![0, 0, 6, 0] S64x8x1x64
  slices_S64x8x8x64_o0_0_7_0_S64x8x1x64 : S64x8x8x64.Slices ![0, 0, 7, 0] S64x8x1x64
  concatenates_S64x8x64_S64x8x64_S64x8x64_S64x8x64_S64x8x64_S64x8x64_S64x8x64_S64x8x64_S64x8x512_d2 : Shape.Concatenates [S64x8x64, S64x8x64, S64x8x64, S64x8x64, S64x8x64, S64x8x64, S64x8x64, S64x8x64] S64x8x512 2
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  shapeCasts_S512x512_S64x8x512 : S512x512.ShapeCasts S64x8x512
  shapeCasts_S64x8x512_S1x64x8x512 : S64x8x512.ShapeCasts S1x64x8x512
  dot_S512x512_S512x1536_S512x1536_1_0_0_1_n_n_wf : DotDims.WF S512x512 S512x1536 S512x1536 [1] [0] [0] [1] [] []
  dot_S8x64x64_S8x64x64_S8x64x64_2_2_1_1_0_0_wf : DotDims.WF S8x64x64 S8x64x64 S8x64x64 [2] [2] [1] [1] [0] [0]
  dot_S8x64x64_S8x64x64_S8x64x64_2_1_1_2_0_0_wf : DotDims.WF S8x64x64 S8x64x64 S8x64x64 [2] [1] [1] [2] [0] [0]
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x8x512.size a ≤ S4x64x256x512.size a
  hwx0_0 : ∀ i : grid0.Coords, EltTy.bits .f32 = 32 ∨ (Rect.block (s := S4x64x256x512) S1x64x8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x8x512.size a ≤ S4x64x256x512.size a
  hwx0_7 : ∀ i : grid0.Coords, EltTy.bits .f32 = 32 ∨ (Rect.block (s := S4x64x256x512) S1x64x8x512.size (cc0_transform_7 i) (hinb0_7 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S8x64x64_S8x64x64_S8x64x64_2_2_1_1_0_0 : DotDims S8x64x64 S8x64x64 S8x64x64 where
  lhsContracting := [2]
  rhsContracting := [2]
  lhsNonContracting := [1]
  rhsNonContracting := [1]
  lhsBatch := [0]
  rhsBatch := [0]
  wf := dot_S8x64x64_S8x64x64_S8x64x64_2_2_1_1_0_0_wf
def dot_S8x64x64_S8x64x64_S8x64x64_2_1_1_2_0_0 : DotDims S8x64x64 S8x64x64 S8x64x64 where
  lhsContracting := [2]
  rhsContracting := [1]
  lhsNonContracting := [1]
  rhsNonContracting := [2]
  lhsBatch := [0]
  rhsBatch := [0]
  wf := dot_S8x64x64_S8x64x64_S8x64x64_2_1_1_2_0_0_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x64x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x64x8x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x64x256x512 : Shape := ⟨4, ![4, 64, 256, 512]⟩
abbrev S512x512 : Shape := ⟨2, ![512, 512]⟩
abbrev S512 : Shape := ⟨1, ![512]⟩
abbrev S1x1x1x512 : Shape := ⟨4, ![1, 1, 1, 512]⟩
abbrev S4x64x256x8x64 : Shape := ⟨5, ![4, 64, 256, 8, 64]⟩
abbrev S4x256x8x64x64 : Shape := ⟨5, ![4, 256, 8, 64, 64]⟩
abbrev S_ : Shape := ⟨0, ![]⟩
abbrev S64x64 : Shape := ⟨2, ![64, 64]⟩
abbrev S4x256x8x64 : Shape := ⟨4, ![4, 256, 8, 64]⟩
abbrev S4x256x8x64x1 : Shape := ⟨5, ![4, 256, 8, 64, 1]⟩
abbrev S4x64x256 : Shape := ⟨3, ![4, 64, 256]⟩
abbrev S4x64x256x1 : Shape := ⟨4, ![4, 64, 256, 1]⟩

abbrev nBuf : Space → Nat
  | .hbm => 115
  | .vmem => 0
  | .smem => 0
  | _ => 0

abbrev bufTy : (tb : Table) → Fin (tcTables nBuf tb) → BufTy
  | .hbm, ⟨0, _⟩ => ⟨S4x64x256x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S4x64x256x512, .f32⟩
  | .hbm, ⟨12, _⟩ => ⟨S1x1x1x512, .f32⟩
  | .hbm, ⟨13, _⟩ => ⟨S4x64x256x512, .f32⟩
  | .hbm, ⟨14, _⟩ => ⟨S4x64x256x512, .f32⟩
  | .hbm, ⟨15, _⟩ => ⟨S4x64x256x8x64, .f32⟩
  | .hbm, ⟨16, _⟩ => ⟨S4x256x8x64x64, .f32⟩
  | .hbm, ⟨17, _⟩ => ⟨S4x64x256x512, .f32⟩
  | .hbm, ⟨18, _⟩ => ⟨S1x1x1x512, .f32⟩
  | .hbm, ⟨19, _⟩ => ⟨S4x64x256x512, .f32⟩
  | .hbm, ⟨20, _⟩ => ⟨S4x64x256x512, .f32⟩
  | .hbm, ⟨21, _⟩ => ⟨S4x64x256x8x64, .f32⟩
  | .hbm, ⟨22, _⟩ => ⟨S4x256x8x64x64, .f32⟩
  | .hbm, ⟨23, _⟩ => ⟨S4x64x256x512, .f32⟩
  | .hbm, ⟨24, _⟩ => ⟨S1x1x1x512, .f32⟩
  | .hbm, ⟨25, _⟩ => ⟨S4x64x256x512, .f32⟩
  | .hbm, ⟨26, _⟩ => ⟨S4x64x256x512, .f32⟩
  | .hbm, ⟨27, _⟩ => ⟨S4x64x256x8x64, .f32⟩
  | .hbm, ⟨28, _⟩ => ⟨S4x256x8x64x64, .f32⟩
  | .hbm, ⟨29, _⟩ => ⟨S4x256x8x64x64, .f32⟩
  | .hbm, ⟨30, _⟩ => ⟨S_, .f32⟩
  | .hbm, ⟨31, _⟩ => ⟨S4x256x8x64x64, .f32⟩
  | .hbm, ⟨32, _⟩ => ⟨S4x256x8x64x64, .f32⟩
  | .hbm, ⟨33, _⟩ => ⟨S_, .i1⟩
  | .hbm, ⟨34, _⟩ => ⟨S64x64, .i1⟩
  | .hbm, ⟨35, _⟩ => ⟨S64x64, .i32⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S64x64, .i32⟩
  | .hbm, ⟨40, _⟩ => ⟨S64x64, .i1⟩
  | .hbm, ⟨41, _⟩ => ⟨S_, .i1⟩
  | .hbm, ⟨42, _⟩ => ⟨S64x64, .i1⟩
  | .hbm, ⟨43, _⟩ => ⟨S64x64, .i1⟩
  | .hbm, ⟨44, _⟩ => ⟨S_, .f32⟩
  | .hbm, ⟨45, _⟩ => ⟨S_, .f32⟩
  | .hbm, ⟨46, _⟩ => ⟨S4x256x8x64x64, .i1⟩
  | .hbm, ⟨47, _⟩ => ⟨S4x256x8x64x64, .f32⟩
  | .hbm, ⟨48, _⟩ => ⟨S4x256x8x64x64, .f32⟩
  | .hbm, ⟨49, _⟩ => ⟨S_, .f32⟩
  | .hbm, ⟨50, _⟩ => ⟨S4x256x8x64, .f32⟩
  | .hbm, ⟨51, _⟩ => ⟨S_, .f32⟩
  | .hbm, ⟨52, _⟩ => ⟨S4x256x8x64, .f32⟩
  | .hbm, ⟨53, _⟩ => ⟨S4x256x8x64, .f32⟩
  | .hbm, ⟨54, _⟩ => ⟨S4x256x8x64x1, .f32⟩
  | .hbm, ⟨55, _⟩ => ⟨S4x256x8x64x64, .f32⟩
  | .hbm, ⟨56, _⟩ => ⟨S4x256x8x64x64, .f32⟩
  | .hbm, ⟨57, _⟩ => ⟨S4x256x8x64x64, .f32⟩
  | .hbm, ⟨58, _⟩ => ⟨S_, .f32⟩
  | .hbm, ⟨59, _⟩ => ⟨S4x256x8x64, .f32⟩
  | .hbm, ⟨60, _⟩ => ⟨S4x256x8x64x1, .f32⟩
  | .hbm, ⟨61, _⟩ => ⟨S4x256x8x64x64, .f32⟩
  | .hbm, ⟨62, _⟩ => ⟨S4x256x8x64x64, .f32⟩
  | .hbm, ⟨63, _⟩ => ⟨S4x256x8x64x64, .f32⟩
  | .hbm, ⟨64, _⟩ => ⟨S4x64x256x8x64, .f32⟩
  | .hbm, ⟨65, _⟩ => ⟨S4x64x256x512, .f32⟩
  | .hbm, ⟨66, _⟩ => ⟨S4x64x256x512, .f32⟩
  | .hbm, ⟨67, _⟩ => ⟨S1x1x1x512, .f32⟩
  | .hbm, ⟨68, _⟩ => ⟨S4x64x256x512, .f32⟩
  | .hbm, ⟨69, _⟩ => ⟨S4x64x256x512, .f32⟩
  | .hbm, ⟨70, _⟩ => ⟨S4x64x256x512, .f32⟩
  | .hbm, ⟨71, _⟩ => ⟨S_, .f32⟩
  | .hbm, ⟨72, _⟩ => ⟨S4x64x256, .f32⟩
  | .hbm, ⟨73, _⟩ => ⟨S4x64x256x1, .f32⟩
  | .hbm, ⟨74, _⟩ => ⟨S_, .f32⟩
  | .hbm, ⟨75, _⟩ => ⟨S4x64x256x1, .f32⟩
  | .hbm, ⟨76, _⟩ => ⟨S4x64x256x1, .f32⟩
  | .hbm, ⟨77, _⟩ => ⟨S_, .i32⟩
  | .hbm, ⟨78, _⟩ => ⟨S_, .f32⟩
  | .hbm, ⟨79, _⟩ => ⟨S4x64x256, .f32⟩
  | .hbm, ⟨80, _⟩ => ⟨S4x64x256x1, .f32⟩
  | .hbm, ⟨81, _⟩ => ⟨S_, .f32⟩
  | .hbm, ⟨82, _⟩ => ⟨S4x64x256x1, .f32⟩
  | .hbm, ⟨83, _⟩ => ⟨S4x64x256x1, .f32⟩
  | .hbm, ⟨84, _⟩ => ⟨S4x64x256x512, .f32⟩
  | .hbm, ⟨85, _⟩ => ⟨S4x64x256x512, .f32⟩
  | .hbm, ⟨86, _⟩ => ⟨S4x64x256x512, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S4x64x256, .f32⟩
  | .hbm, ⟨92, _⟩ => ⟨S4x64x256x1, .f32⟩
  | .hbm, ⟨93, _⟩ => ⟨S4x64x256x1, .f32⟩
  | .hbm, ⟨94, _⟩ => ⟨S4x64x256x1, .f32⟩
  | .hbm, ⟨95, _⟩ => ⟨S_, .f32⟩
  | .hbm, ⟨96, _⟩ => ⟨S_, .i1⟩
  | .hbm, ⟨97, _⟩ => ⟨S_, .f32⟩
  | .hbm, ⟨98, _⟩ => ⟨S_, .f32⟩
  | .hbm, ⟨99, _⟩ => ⟨S4x64x256x1, .f32⟩
  | .hbm, ⟨100, _⟩ => ⟨S4x64x256x1, .f32⟩
  | .hbm, ⟨101, _⟩ => ⟨S4x64x256x512, .f32⟩
  | .hbm, ⟨102, _⟩ => ⟨S4x64x256x512, .f32⟩
  | .hbm, ⟨103, _⟩ => ⟨S_, .f32⟩
  | .hbm, ⟨104, _⟩ => ⟨S4x64x256x1, .f32⟩
  | .hbm, ⟨105, _⟩ => ⟨S4x64x256x1, .f32⟩
  | .hbm, ⟨106, _⟩ => ⟨S4x64x256x1, .f32⟩
  | .hbm, ⟨107, _⟩ => ⟨S4x64x256x512, .f32⟩
  | .hbm, ⟨108, _⟩ => ⟨S4x64x256x512, .f32⟩
  | .hbm, ⟨109, _⟩ => ⟨S1x1x1x512, .f32⟩
  | .hbm, ⟨110, _⟩ => ⟨S4x64x256x512, .f32⟩
  | .hbm, ⟨111, _⟩ => ⟨S4x64x256x512, .f32⟩
  | .hbm, ⟨112, _⟩ => ⟨S1x1x1x512, .f32⟩
  | .hbm, ⟨113, _⟩ => ⟨S4x64x256x512, .f32⟩
  | .hbm, ⟨114, _⟩ => ⟨S4x64x256x512, .f32⟩
  | _, _ => ⟨S4x64x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_c_0 : Ref sig .tc := ⟨.hbm, 41, rfl⟩
abbrev main_call0_v5 : Ref sig .tc := ⟨.hbm, 42, rfl⟩
abbrev main_v22 : Ref sig .tc := ⟨.hbm, 43, rfl⟩
abbrev main_cst_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v23 : Ref sig .tc := ⟨.hbm, 48, rfl⟩
abbrev main_cst_1 : Ref sig .tc := ⟨.hbm, 49, rfl⟩
abbrev main_v24 : Ref sig .tc := ⟨.hbm, 50, rfl⟩
abbrev main_cst_2 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_3 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_4 : Ref sig .tc := ⟨.hbm, 71, rfl⟩
abbrev main_v43 : Ref sig .tc := ⟨.hbm, 72, rfl⟩
abbrev main_v44 : Ref sig .tc := ⟨.hbm, 73, rfl⟩
abbrev main_cst_5 : Ref sig .tc := ⟨.hbm, 74, rfl⟩
abbrev main_v45 : Ref sig .tc := ⟨.hbm, 75, rfl⟩
abbrev main_v46 : Ref sig .tc := ⟨.hbm, 76, rfl⟩
abbrev main_c_6 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_cst_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_cst_1 : Ref sig .tc := ⟨.hbm, 88, rfl⟩
abbrev main_call2_v8 : Ref sig .tc := ⟨.hbm, 89, rfl⟩
abbrev main_call2_cst_2 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_v12 : Ref sig .tc := ⟨.hbm, 94, rfl⟩
abbrev main_call2_cst_3 : Ref sig .tc := ⟨.hbm, 95, rfl⟩
abbrev main_call2_v13 : Ref sig .tc := ⟨.hbm, 96, rfl⟩
abbrev main_call2_cst_4 : Ref sig .tc := ⟨.hbm, 97, rfl⟩
abbrev main_call2_call0_v0 : Ref sig .tc := ⟨.hbm, 98, rfl⟩
abbrev main_call2_call0_v1 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_cst_7 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S4x64x256x512_0_1_2_3 : S1x1x1x512.BroadcastsInDim S4x64x256x512 (![0, 1, 2, 3] : Fin 4 → Fin S4x64x256x512.rank)
  shapeCasts_S4x64x256x512_S4x64x256x8x64 : S4x64x256x512.ShapeCasts S4x64x256x8x64
  transposes_S4x64x256x8x64_S4x256x8x64x64_0_2_3_1_4 : S4x64x256x8x64.Transposes [0, 2, 3, 1, 4] S4x256x8x64x64
  bcast_S_S4x256x8x64x64 : S_.BroadcastsInDim S4x256x8x64x64 (![] : Fin 0 → Fin S4x256x8x64x64.rank)
  bcast_S_S64x64 : S_.BroadcastsInDim S64x64 (![] : Fin 0 → Fin S64x64.rank)
  bcast_S64x64_S4x256x8x64x64_3_4 : S64x64.BroadcastsInDim S4x256x8x64x64 (![3, 4] : Fin 2 → Fin S4x256x8x64x64.rank)
  reducesTo_S4x256x8x64x64_S4x256x8x64_d4 : S4x256x8x64x64.ReducesTo [4] S4x256x8x64
  h_S_ : 0 < S_.numel
  bcast_S_S4x256x8x64 : S_.BroadcastsInDim S4x256x8x64 (![] : Fin 0 → Fin S4x256x8x64.rank)
  bcast_S4x256x8x64_S4x256x8x64x1_0_1_2_3 : S4x256x8x64.BroadcastsInDim S4x256x8x64x1 (![0, 1, 2, 3] : Fin 4 → Fin S4x256x8x64x1.rank)
  bcast_S4x256x8x64x1_S4x256x8x64x64_0_1_2_3_4 : S4x256x8x64x1.BroadcastsInDim S4x256x8x64x64 (![0, 1, 2, 3, 4] : Fin 5 → Fin S4x256x8x64x64.rank)
  transposes_S4x256x8x64x64_S4x64x256x8x64_0_3_1_2_4 : S4x256x8x64x64.Transposes [0, 3, 1, 2, 4] S4x64x256x8x64
  shapeCasts_S4x64x256x8x64_S4x64x256x512 : S4x64x256x8x64.ShapeCasts S4x64x256x512
  reducesTo_S4x64x256x512_S4x64x256_d3 : S4x64x256x512.ReducesTo [3] S4x64x256
  bcast_S4x64x256_S4x64x256x1_0_1_2 : S4x64x256.BroadcastsInDim S4x64x256x1 (![0, 1, 2] : Fin 3 → Fin S4x64x256x1.rank)
  bcast_S_S4x64x256x1 : S_.BroadcastsInDim S4x64x256x1 (![] : Fin 0 → Fin S4x64x256x1.rank)
  bcast_S4x64x256x1_S4x64x256x512_0_1_2_3 : S4x64x256x1.BroadcastsInDim S4x64x256x512 (![0, 1, 2, 3] : Fin 4 → Fin S4x64x256x512.rank)
  dot_S4x64x256x512_S512x512_S4x64x256x512_3_1_012_0_n_n_wf : DotDims.WF S4x64x256x512 S512x512 S4x64x256x512 [3] [1] [0, 1, 2] [0] [] []
  dot_S4x256x8x64x64_S4x256x8x64x64_S4x256x8x64x64_4_4_3_3_012_012_wf : DotDims.WF S4x256x8x64x64 S4x256x8x64x64 S4x256x8x64x64 [4] [4] [3] [3] [0, 1, 2] [0, 1, 2]
  dot_S4x256x8x64x64_S4x256x8x64x64_S4x256x8x64x64_4_3_3_4_012_012_wf : DotDims.WF S4x256x8x64x64 S4x256x8x64x64 S4x256x8x64x64 [4] [3] [3] [4] [0, 1, 2] [0, 1, 2]

variable [Facts₀]

def dot_S4x64x256x512_S512x512_S4x64x256x512_3_1_012_0_n_n : DotDims S4x64x256x512 S512x512 S4x64x256x512 where
  lhsContracting := [3]
  rhsContracting := [1]
  lhsNonContracting := [0, 1, 2]
  rhsNonContracting := [0]
  lhsBatch := []
  rhsBatch := []
  wf := dot_S4x64x256x512_S512x512_S4x64x256x512_3_1_012_0_n_n_wf
def dot_S4x256x8x64x64_S4x256x8x64x64_S4x256x8x64x64_4_4_3_3_012_012 : DotDims S4x256x8x64x64 S4x256x8x64x64 S4x256x8x64x64 where
  lhsContracting := [4]
  rhsContracting := [4]
  lhsNonContracting := [3]
  rhsNonContracting := [3]
  lhsBatch := [0, 1, 2]
  rhsBatch := [0, 1, 2]
  wf := dot_S4x256x8x64x64_S4x256x8x64x64_S4x256x8x64x64_4_4_3_3_012_012_wf
def dot_S4x256x8x64x64_S4x256x8x64x64_S4x256x8x64x64_4_3_3_4_012_012 : DotDims S4x256x8x64x64 S4x256x8x64x64 S4x256x8x64x64 where
  lhsContracting := [4]
  rhsContracting := [3]
  lhsNonContracting := [3]
  rhsNonContracting := [4]
  lhsBatch := [0, 1, 2]
  rhsBatch := [0, 1, 2]
  wf := dot_S4x256x8x64x64_S4x256x8x64x64_S4x256x8x64x64_4_3_3_4_012_012_wf

class Facts : Prop extends Facts₀ where

variable [Facts]
-- ==== Proof.BodyBits.lean ====
/-
  The kernel body's one store, as ONE pure function of the seven values its loads read.

  The body reads its seven input blocks whole — the activations x (one batch entry, all 64 positions, 8 of the
  256 columns, 512 features), the fused projection matrix [512, 1536] and bias [1536], the output projection
  matrix [512, 512] and bias [512], and the normalisation's scale and shift [512] — and writes one block of
  the result. `body` is the value it stores: the projections, eight heads of causally masked softmax
  attention, the heads laid side by side, the output projection, the residual sum and the layer
  normalisation, composed from the skeleton's named payloads in the order the printed parts hand them on.
-/
import proofs.«145929_j58798102282423_2_alg».proof.Proof.Gen.Kernel.Skeleton

noncomputable section

namespace Cert.Kernel.Hand

open Idealize.ShloMosaic Cert.Kernel Cert.Kernel.Gen

variable {F : FTy → Type} [FloatOps F]

/-- The stored value from the loaded ones: `x0` the activations' block, `x1`, `x2` the fused projection's
    matrix and bias, `x3`, `x4` the output projection's, `x5`, `x6` the normalisation's scale and shift. -/
def body (x0 : Vec F S1x64x8x512 .f32) (x1 : Vec F S512x1536 .bf16) (x2 : Vec F S1536 .f32)
    (x3 : Vec F S512x512 .bf16) (x4 : Vec F S512 .f32) (x5 : Vec F S512 .f32) (x6 : Vec F S512 .f32) :
    FVec F S1x64x8x512 .f32 :=
  k0_pay1
    (k0_pay29 (k0_pay2 x0)
      (k0_pay9 (k0_pay7 x0 x1 x2) (k0_pay8 x0 x1 x2))
      (k0_pay10 (k0_pay4 x0 x1 x2) (k0_pay5 x0 x1 x2) (k0_pay6 x0 x1 x2))
      (k0_pay12 (k0_pay5 x0 x1 x2) (k0_pay6 x0 x1 x2) (k0_pay11 (k0_pay4 x0 x1 x2)))
      (k0_pay16 (k0_pay13 (k0_pay6 x0 x1 x2)) (k0_pay14 (k0_pay4 x0 x1 x2) (k0_pay5 x0 x1 x2)) k0_pay15)
      (k0_pay20 (k0_pay17 (k0_pay6 x0 x1 x2)) (k0_pay18 (k0_pay4 x0 x1 x2) (k0_pay5 x0 x1 x2))
        (k0_pay19 (k0_pay4 x0 x1 x2) (k0_pay5 x0 x1 x2)) (Scalar.ofBits .f32 0x3F800000#32))
      (k0_pay21 (k0_pay4 x0 x1 x2) (k0_pay5 x0 x1 x2) (k0_pay6 x0 x1 x2))
      (k0_pay24 (k0_pay6 x0 x1 x2) (k0_pay22 (k0_pay4 x0 x1 x2)) (k0_pay23 (k0_pay5 x0 x1 x2)))
      (k0_pay25 (k0_pay6 x0 x1 x2))
      (k0_pay26 (k0_pay4 x0 x1 x2) (k0_pay5 x0 x1 x2))
      k0_pay27
      (k0_pay28 (k0_pay4 x0 x1 x2) (k0_pay5 x0 x1 x2))
      x3 x4)
    (k0_pay30 x5) x6

end Cert.Kernel.Hand

end
-- ==== Proof.FrameBits.lean ====
/-
  The frame of the kernel program: `main` runs its eight host operations and then its one pipelined region, every
  weakly fair execution terminates, and the eleven argument arrays end as they were launched.

  The region's body reads each of its seven input blocks whole, computes, and overwrites its one output block whole;
  so after the body at a grid point each input's staging buffer still holds its block and the output's holds `body` of
  the seven blocks. That is the proof data (`dats`) the pipeline library's frame theorem takes; the body's triple
  (`sound_kernel`) is a run through the body's nine loads and one store.
-/
import proofs.«145929_j58798102282423_2_alg».proof.Proof.Gen.Kernel.Launch
import proofs.«145929_j58798102282423_2_alg».proof.Proof.Gen.Kernel.Skeleton
import proofs.«145929_j58798102282423_2_alg».proof.Proof.Gen.Kernel.Points
import proofs.«145929_j58798102282423_2_alg».proof.Proof.BodyBits
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## `main` up to the region -/

/-- Core `c`'s buffers when the region is entered: the launch contents after the eight host operations. -/
abbrev V (c : Dev nD) (b : Ref sig .tc) : Buf (Elt F) ((c : Thread nD τ).loc b) :=
  StableHlo.after Gen.hostOps0 (fun b => m (c, b)) b

/-- No host operation allocates. -/
theorem hostOps0_fresh : (hostOps0 : List (HloOp τ sig (Elt F))).Forall fun op => op.fresh = ∅ := by
  simp only [List.Forall]; repeat' constructor

/-- `main` is the host operations and then the region, which finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: each writes its own result, a different buffer. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 1: each writes its own result, a different buffer. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 2: each writes its own result, a different buffer. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 3: each writes its own result, a different buffer. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 4: each writes its own result, a different buffer. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 5: each writes its own result, a different buffer. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 6: each writes its own result, a different buffer. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 7: each writes its own result, a different buffer. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 8: each writes its own result, a different buffer. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 9: each writes its own result, a different buffer. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 10: each writes its own result, a different buffer. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether that point fetched it or an
    earlier one did and the block index has not moved since, for any proof data over `V` whose body leaves the block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether that point fetched it or an
    earlier one did and the block index has not moved since, for any proof data over `V` whose body leaves the block. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether that point fetched it or an
    earlier one did and the block index has not moved since, for any proof data over `V` whose body leaves the block. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether that point fetched it or an
    earlier one did and the block index has not moved since, for any proof data over `V` whose body leaves the block. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether that point fetched it or an
    earlier one did and the block index has not moved since, for any proof data over `V` whose body leaves the block. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether that point fetched it or an
    earlier one did and the block index has not moved since, for any proof data over `V` whose body leaves the block. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether that point fetched it or an
    earlier one did and the block index has not moved since, for any proof data over `V` whose body leaves the block. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data over `V`, a run to the library's frame post gives the frame claim's: a staged argument array
    (arguments 0, 8, 9, 10: input windows 0, 4, 5, 6) ends at the proof data's array, an argument no window stages
    (arguments 1 … 7) as the region found it, and either is the launch contents by `V_main_argK`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 4).trans (((dats 0 c).arrAt_in 4 rfl _).trans ((hA c 4).trans (V_main_arg8 m c))),
      ((h c).1 5).trans (((dats 0 c).arrAt_in 5 rfl _).trans ((hA c 5).trans (V_main_arg9 m c))),
      ((h c).1 6).trans (((dats 0 c).arrAt_in 6 rfl _).trans ((hA c 6).trans (V_main_arg10 m c)))⟩) h

/-! ## The body's accesses: each buffer whole -/

abbrev r0 : Rect S1x64x8x512 := Rect.unit (s := S1x64x8x512) ![0, 0, 0, 0] S1x64x8x512.size inb_S1x64x8x512_S1x64x8x512_0_0_0_0
abbrev r1 : Rect S512x1536 := Rect.unit (s := S512x1536) ![0, 0] S512x1536.size inb_S512x1536_S512x1536_0_0
abbrev r2 : Rect S1536 := Rect.unit (s := S1536) ![0] S1536.size inb_S1536_S1536_0
abbrev r3 : Rect S512x512 := Rect.unit (s := S512x512) ![0, 0] S512x512.size inb_S512x512_S512x512_0_0
abbrev r4 : Rect S512 := Rect.unit (s := S512) ![0] S512.size inb_S512_S512_0
abbrev r5 : Rect S512 := Rect.unit (s := S512) ![0] S512.size inb_S512_S512_0
abbrev r6 : Rect S512 := Rect.unit (s := S512) ![0] S512.size inb_S512_S512_0
abbrev r7 : Rect S1x64x8x512 := Rect.unit (s := S1x64x8x512) ![0, 0, 0, 0] S1x64x8x512.size inb_S1x64x8x512_S1x64x8x512_0_0_0_0

/-! ## What the body leaves in the output window's buffer -/

/-- The output's staging buffer after the body, from the seven input blocks: its one store, of `body` of what the
    seven loads read. -/
def out7 (x0 : Vec F S1x64x8x512 .f32) (x1 : Vec F S512x1536 .bf16) (x2 : Vec F S1536 .f32) (x3 : Vec F S512x512 .bf16) (x4 : Vec F S512 .f32) (x5 : Vec F S512 .f32) (x6 : Vec F S512 .f32) : Vec F S1x64x8x512 .f32 :=
  View.canon [⟨r7, body (View.ld x0 r0) (View.ld x1 r1) (View.ld x2 r2) (View.ld x3 r3) (View.ld x4 r4) (View.ld x5 r5) (View.ld x6 r6)⟩]

/-- The one store covers the buffer. -/
theorem cover7 (p0 : Vec F S1x64x8x512 .f32) (y : S1x64x8x512.Idx) :
    ∃ pc ∈ ([⟨r7, p0⟩] : List (View.Piece (Elt F) S1x64x8x512 .f32)), y ∈ pc.1.set :=
  View.cover_of_tiled [⟨r7, p0⟩] S1x64x8x512.size (by rfl) y

/-! ## The body's triple -/

set_option maxHeartbeats 4000000 in
/-- The body on whole staging memrefs, the inputs' reading `xW` and the output's holding anything, runs to the
    continuation with the inputs' as they were and the output's at `out7` of the inputs'. -/
theorem sound_kernel (c : Dev nD) (E : Set ℕ) (i : grid0.Coords) (arg2 : Memref sig .tc .vmem S1x64x8x512 .f32) (harg2 : arg2.IsWhole) (arg3 : Memref sig .tc .vmem S512x1536 .bf16) (harg3 : arg3.IsWhole) (arg4 : Memref sig .tc .vmem S1536 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S1x64x8x512 .f32) (harg9 : arg9.IsWhole)
    (x0 : Vec F S1x64x8x512 .f32) (x1 : Vec F S512x1536 .bf16) (x2 : Vec F S1536 .f32) (x3 : Vec F S512x512 .bf16) (x4 : Vec F S512 .f32) (x5 : Vec F S512 .f32) (x6 : Vec F S512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out7 x0 x1 x2 x3 x4 x5 x6)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The pipeline's proof data -/

/-- The proof data on core `c`: the arrays as the region finds them; after the body at point `t` each input's buffer at
    its block and the output's at `out7` of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

/-- Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of `main` terminates, and every final state has
    each array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: `main` terminates and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.BodyIdeal.lean ====
/-
  The kernel body's one store, as ONE pure function of the seven values its loads read.

  The body reads its seven input blocks whole — the activations x (one batch entry, all 64 positions, 8 of the
  256 columns, 512 features), the fused projection matrix [512, 1536] and bias [1536], the output projection
  matrix [512, 512] and bias [512], and the normalisation's scale and shift [512] — and writes one block of
  the result. `body` is the value it stores: the projections, eight heads of causally masked softmax
  attention, the heads laid side by side, the output projection, the residual sum and the layer
  normalisation, composed from the skeleton's named payloads in the order the printed parts hand them on.
-/
import proofs.«145929_j58798102282423_2_alg».proof.Proof.Gen.KernelIdeal.Skeleton

noncomputable section

namespace Cert.KernelIdeal.Hand

open Idealize.ShloMosaic Cert.KernelIdeal Cert.KernelIdeal.Gen

variable {F : FTy → Type} [FloatOps F] [Named F]

/-- The stored value from the loaded ones: `x0` the activations' block, `x1`, `x2` the fused projection's
    matrix and bias, `x3`, `x4` the output projection's, `x5`, `x6` the normalisation's scale and shift. -/
def body (x0 : Vec F S1x64x8x512 .f32) (x1 : Vec F S512x1536 .bf16) (x2 : Vec F S1536 .f32)
    (x3 : Vec F S512x512 .bf16) (x4 : Vec F S512 .f32) (x5 : Vec F S512 .f32) (x6 : Vec F S512 .f32) :
    FVec F S1x64x8x512 .f32 :=
  k0_pay1
    (k0_pay29 (k0_pay2 x0)
      (k0_pay9 (k0_pay7 x0 x1 x2) (k0_pay8 x0 x1 x2))
      (k0_pay10 (k0_pay4 x0 x1 x2) (k0_pay5 x0 x1 x2) (k0_pay6 x0 x1 x2))
      (k0_pay12 (k0_pay5 x0 x1 x2) (k0_pay6 x0 x1 x2) (k0_pay11 (k0_pay4 x0 x1 x2)))
      (k0_pay16 (k0_pay13 (k0_pay6 x0 x1 x2)) (k0_pay14 (k0_pay4 x0 x1 x2) (k0_pay5 x0 x1 x2)) k0_pay15)
      (k0_pay20 (k0_pay17 (k0_pay6 x0 x1 x2)) (k0_pay18 (k0_pay4 x0 x1 x2) (k0_pay5 x0 x1 x2))
        (k0_pay19 (k0_pay4 x0 x1 x2) (k0_pay5 x0 x1 x2)) (Scalar.ofBits .f32 0x3F800000#32))
      (k0_pay21 (k0_pay4 x0 x1 x2) (k0_pay5 x0 x1 x2) (k0_pay6 x0 x1 x2))
      (k0_pay24 (k0_pay6 x0 x1 x2) (k0_pay22 (k0_pay4 x0 x1 x2)) (k0_pay23 (k0_pay5 x0 x1 x2)))
      (k0_pay25 (k0_pay6 x0 x1 x2))
      (k0_pay26 (k0_pay4 x0 x1 x2) (k0_pay5 x0 x1 x2))
      k0_pay27
      (k0_pay28 (k0_pay4 x0 x1 x2) (k0_pay5 x0 x1 x2))
      x3 x4)
    (k0_pay30 x5) x6

end Cert.KernelIdeal.Hand

end
-- ==== Proof.FrameIdeal.lean ====
/-
  The frame of the kernel program: `main` runs its eight host operations and then its one pipelined region, every
  weakly fair execution terminates, and the eleven argument arrays end as they were launched.

  The region's body reads each of its seven input blocks whole, computes, and overwrites its one output block whole;
  so after the body at a grid point each input's staging buffer still holds its block and the output's holds `body` of
  the seven blocks. That is the proof data (`dats`) the pipeline library's frame theorem takes; the body's triple
  (`sound_kernel`) is a run through the body's nine loads and one store.
-/
import proofs.«145929_j58798102282423_2_alg».proof.Proof.Gen.KernelIdeal.Launch
import proofs.«145929_j58798102282423_2_alg».proof.Proof.Gen.KernelIdeal.Skeleton
import proofs.«145929_j58798102282423_2_alg».proof.Proof.Gen.KernelIdeal.Points
import proofs.«145929_j58798102282423_2_alg».proof.Proof.BodyIdeal
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## `main` up to the region -/

/-- Core `c`'s buffers when the region is entered: the launch contents after the eight host operations. -/
abbrev V (c : Dev nD) (b : Ref sig .tc) : Buf (Elt F) ((c : Thread nD τ).loc b) :=
  StableHlo.after Gen.hostOps0 (fun b => m (c, b)) b

/-- No host operation allocates. -/
theorem hostOps0_fresh : (hostOps0 : List (HloOp τ sig (Elt F))).Forall fun op => op.fresh = ∅ := by
  simp only [List.Forall]; repeat' constructor

/-- `main` is the host operations and then the region, which finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: each writes its own result, a different buffer. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 1: each writes its own result, a different buffer. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 2: each writes its own result, a different buffer. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 3: each writes its own result, a different buffer. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 4: each writes its own result, a different buffer. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 5: each writes its own result, a different buffer. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 6: each writes its own result, a different buffer. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 7: each writes its own result, a different buffer. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 8: each writes its own result, a different buffer. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 9: each writes its own result, a different buffer. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 10: each writes its own result, a different buffer. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether that point fetched it or an
    earlier one did and the block index has not moved since, for any proof data over `V` whose body leaves the block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether that point fetched it or an
    earlier one did and the block index has not moved since, for any proof data over `V` whose body leaves the block. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether that point fetched it or an
    earlier one did and the block index has not moved since, for any proof data over `V` whose body leaves the block. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether that point fetched it or an
    earlier one did and the block index has not moved since, for any proof data over `V` whose body leaves the block. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether that point fetched it or an
    earlier one did and the block index has not moved since, for any proof data over `V` whose body leaves the block. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether that point fetched it or an
    earlier one did and the block index has not moved since, for any proof data over `V` whose body leaves the block. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether that point fetched it or an
    earlier one did and the block index has not moved since, for any proof data over `V` whose body leaves the block. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data over `V`, a run to the library's frame post gives the frame claim's: a staged argument array
    (arguments 0, 8, 9, 10: input windows 0, 4, 5, 6) ends at the proof data's array, an argument no window stages
    (arguments 1 … 7) as the region found it, and either is the launch contents by `V_main_argK`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 4).trans (((dats 0 c).arrAt_in 4 rfl _).trans ((hA c 4).trans (V_main_arg8 m c))),
      ((h c).1 5).trans (((dats 0 c).arrAt_in 5 rfl _).trans ((hA c 5).trans (V_main_arg9 m c))),
      ((h c).1 6).trans (((dats 0 c).arrAt_in 6 rfl _).trans ((hA c 6).trans (V_main_arg10 m c)))⟩) h

/-! ## The body's accesses: each buffer whole -/

abbrev r0 : Rect S1x64x8x512 := Rect.unit (s := S1x64x8x512) ![0, 0, 0, 0] S1x64x8x512.size inb_S1x64x8x512_S1x64x8x512_0_0_0_0
abbrev r1 : Rect S512x1536 := Rect.unit (s := S512x1536) ![0, 0] S512x1536.size inb_S512x1536_S512x1536_0_0
abbrev r2 : Rect S1536 := Rect.unit (s := S1536) ![0] S1536.size inb_S1536_S1536_0
abbrev r3 : Rect S512x512 := Rect.unit (s := S512x512) ![0, 0] S512x512.size inb_S512x512_S512x512_0_0
abbrev r4 : Rect S512 := Rect.unit (s := S512) ![0] S512.size inb_S512_S512_0
abbrev r5 : Rect S512 := Rect.unit (s := S512) ![0] S512.size inb_S512_S512_0
abbrev r6 : Rect S512 := Rect.unit (s := S512) ![0] S512.size inb_S512_S512_0
abbrev r7 : Rect S1x64x8x512 := Rect.unit (s := S1x64x8x512) ![0, 0, 0, 0] S1x64x8x512.size inb_S1x64x8x512_S1x64x8x512_0_0_0_0

/-! ## What the body leaves in the output window's buffer -/

/-- The output's staging buffer after the body, from the seven input blocks: its one store, of `body` of what the
    seven loads read. -/
def out7 (x0 : Vec F S1x64x8x512 .f32) (x1 : Vec F S512x1536 .bf16) (x2 : Vec F S1536 .f32) (x3 : Vec F S512x512 .bf16) (x4 : Vec F S512 .f32) (x5 : Vec F S512 .f32) (x6 : Vec F S512 .f32) : Vec F S1x64x8x512 .f32 :=
  View.canon [⟨r7, body (View.ld x0 r0) (View.ld x1 r1) (View.ld x2 r2) (View.ld x3 r3) (View.ld x4 r4) (View.ld x5 r5) (View.ld x6 r6)⟩]

/-- The one store covers the buffer. -/
theorem cover7 (p0 : Vec F S1x64x8x512 .f32) (y : S1x64x8x512.Idx) :
    ∃ pc ∈ ([⟨r7, p0⟩] : List (View.Piece (Elt F) S1x64x8x512 .f32)), y ∈ pc.1.set :=
  View.cover_of_tiled [⟨r7, p0⟩] S1x64x8x512.size (by rfl) y

/-! ## The body's triple -/

set_option maxHeartbeats 4000000 in
/-- The body on whole staging memrefs, the inputs' reading `xW` and the output's holding anything, runs to the
    continuation with the inputs' as they were and the output's at `out7` of the inputs'. -/
theorem sound_kernel (c : Dev nD) (E : Set ℕ) (i : grid0.Coords) (arg2 : Memref sig .tc .vmem S1x64x8x512 .f32) (harg2 : arg2.IsWhole) (arg3 : Memref sig .tc .vmem S512x1536 .bf16) (harg3 : arg3.IsWhole) (arg4 : Memref sig .tc .vmem S1536 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S1x64x8x512 .f32) (harg9 : arg9.IsWhole)
    (x0 : Vec F S1x64x8x512 .f32) (x1 : Vec F S512x1536 .bf16) (x2 : Vec F S1536 .f32) (x3 : Vec F S512x512 .bf16) (x4 : Vec F S512 .f32) (x5 : Vec F S512 .f32) (x6 : Vec F S512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out7 x0 x1 x2 x3 x4 x5 x6)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The pipeline's proof data -/

/-- The proof data on core `c`: the arrays as the region finds them; after the body at point `t` each input's buffer at
    its block and the output's at `out7` of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

/-- Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of `main` terminates, and every final state has
    each array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: `main` terminates and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.Spec.lean ====
/-
  The specification: what both programs compute, index by index, on the extended reals.

  The activations are x[b, t, p, e]: 4 batch entries, 64 positions, 256 columns, 512 features. Nothing mixes two
  columns (b, p): everything below is a function of ONE column xc[t, e] = x[b, t, p, e] and of the weights.
  For a square weight matrix W[f, e] a projection is  (∑ₑ xc[t,e] · W[f,e]) + bias[f].  The 512 features are 8
  heads of 64 lanes, feature h·64 + d being lane d of head h.  In head h the score of query position t against key
  position s is the inner product over the 64 lanes of the query and key projections, scaled; keys after the query
  (s > t) are masked; the weights are the exponentials of the scores less the row's maximum over the unmasked keys,
  normalised by their sum; the head's output at (t, d) is the weighted sum of the value projections.  The heads are
  laid side by side, projected once more, added to xc, and each row of 512 features is normalised: centred, scaled
  by the reciprocal root of its variance plus a constant, then by g, and shifted by β.

  The two programs differ in three local spellings — how a score is scaled, how a masked key gets weight zero, how a
  weight is normalised — so the column's result is stated ONCE over those three (`colRun`), and the whole array's at
  the kernel's spellings (`G`) and at the reference's (`Gref`). The laws that identify the spellings, and
  `Gref = G` for finite x, W_q, b_q, W_k, b_k, are in the module of laws.
-/
import Idealize.ShloMosaic.PureOps.Ideal.Laws

noncomputable section

namespace Cert.Spec

open Idealize.ShloMosaic

/-- Activations x[b, t, p, e]. -/
abbrev Act := Fin 4 → Fin 64 → Fin 256 → Fin 512 → EReal
/-- One column of them, xc[t, e]. -/
abbrev Col := Fin 64 → Fin 512 → EReal
/-- A square weight matrix W[f, e]. -/
abbrev Mat := Fin 512 → Fin 512 → EReal
/-- A vector over the 512 features. -/
abbrev Row := Fin 512 → EReal

/-- Feature h·64 + d: lane `d` of head `h`. -/
def hd (h : Fin 8) (d : Fin 64) : Fin 512 := ⟨h.val * 64 + d.val, by omega⟩
/-- The head a feature belongs to, and its lane there. -/
def hOf (e : Fin 512) : Fin 8 := ⟨e.val / 64, by omega⟩
def dOf (e : Fin 512) : Fin 64 := ⟨e.val % 64, Nat.mod_lt _ (by norm_num)⟩

/-- A projection of a column: (∑ₑ xc[t,e] · W[f,e]) + bias[f]. -/
def proj (xc : Col) (W : Mat) (bias : Row) : Col :=
  fun t f => (∑ e : Fin 512, xc t e * W f e) + bias f

/-- The unscaled score of query position `t` against key position `s` in head `h`. -/
def qk (q k : Col) (h : Fin 8) (t s : Fin 64) : EReal :=
  ∑ d : Fin 64, q t (hd h d) * k s (hd h d)

/-- A row of scores with the keys after the query at −∞. -/
def maskRow (sc : Fin 64 → EReal) (t : Fin 64) : Fin 64 → EReal := fun s => if t < s then ⊥ else sc s
/-- The row's maximum over the unmasked keys (a fold of `max` from −∞). -/
def rowMax (sc : Fin 64 → EReal) (t : Fin 64) : EReal :=
  (Finset.univ : Finset (Fin 64)).fold max ⊥ (maskRow sc t)

/-- The constants both programs spell, as the words they print: 1/8, 8, 512, and the variance's offset. -/
def cEighth : EReal := Ideal.ofBits .f32 0x3E000000#32
def cEight : EReal := Ideal.ofBits .f32 0x41000000#32
def c512 : EReal := Ideal.ofBits .f32 0x44000000#32
def cEps : EReal := Ideal.ofBits .f32 0x3727C5AC#32

/-- The kernel's spellings: scale by the product with 1/8; weight zero at a masked key, else the exponential of
    the UNMASKED score less the maximum; normalise by the product with the reciprocal of the sum. -/
def scaleK (a : EReal) : EReal := a * cEighth
def wgtK (sc : Fin 64 → EReal) (t s : Fin 64) : EReal := if t < s then 0 else Ideal.exp (sc s - rowMax sc t)
def nrmK (w l : EReal) : EReal := w * Ideal.div 1 l

/-- The reference's: scale by the quotient by 8; the exponential of the MASKED score less the maximum (itself
    joined once more with −∞); normalise by the quotient by the sum. -/
def scaleR (a : EReal) : EReal := Ideal.div a cEight
def wgtR (sc : Fin 64 → EReal) (t s : Fin 64) : EReal := Ideal.exp (maskRow sc t s - max ⊥ (rowMax sc t))
def nrmR (w l : EReal) : EReal := Ideal.div w l

/-- One head's output at position `t`, lane `d`: the normalised weights against the value projections. -/
def headOut (scale : EReal → EReal) (wgt : (Fin 64 → EReal) → Fin 64 → Fin 64 → EReal) (nrm : EReal → EReal → EReal)
    (q k v : Col) (h : Fin 8) (t d : Fin 64) : EReal :=
  ∑ s : Fin 64,
    nrm (wgt (fun s' => scale (qk q k h t s')) t s) (∑ s'' : Fin 64, wgt (fun s' => scale (qk q k h t s')) t s'')
      * v s (hd h d)

/-- The heads side by side: feature `e` is lane `dOf e` of head `hOf e`. -/
def merged (o : Fin 8 → Fin 64 → Fin 64 → EReal) : Col := fun t e => o (hOf e) t (dOf e)

/-- The layer normalisation of one row `y` of 512 features, at feature `f`. -/
def lnRow (g beta : Row) (y : Row) (f : Fin 512) : EReal :=
  ((y f - Ideal.div (∑ e : Fin 512, y e) c512)
      * Ideal.rsqrt (Ideal.div (∑ e : Fin 512, (y e - Ideal.div (∑ e' : Fin 512, y e') c512)
          * (y e - Ideal.div (∑ e' : Fin 512, y e') c512)) c512 + cEps))
    * g f + beta f

/-- The residual sum before the normalisation: xc + ((∑ₑ o[t,e] · W_o[f,e]) + b_o[f]). -/
def resid (xc o : Col) (Wo : Mat) (bo : Row) : Col :=
  fun t f => xc t f + ((∑ e : Fin 512, o t e * Wo f e) + bo f)

/-- One column's result, over the three spellings. -/
def colRun (scale : EReal → EReal) (wgt : (Fin 64 → EReal) → Fin 64 → Fin 64 → EReal) (nrm : EReal → EReal → EReal)
    (xc : Col) (Wq : Mat) (bq : Row) (Wk : Mat) (bk : Row) (Wv : Mat) (bv : Row) (Wo : Mat) (bo : Row)
    (g beta : Row) : Col :=
  fun t f =>
    lnRow g beta (resid xc (merged (headOut scale wgt nrm (proj xc Wq bq) (proj xc Wk bk) (proj xc Wv bv))) Wo bo t) f

/-- The whole array's, column by column. -/
def run (scale : EReal → EReal) (wgt : (Fin 64 → EReal) → Fin 64 → Fin 64 → EReal) (nrm : EReal → EReal → EReal)
    (x : Act) (Wq : Mat) (bq : Row) (Wk : Mat) (bk : Row) (Wv : Mat) (bv : Row) (Wo : Mat) (bo : Row)
    (g beta : Row) : Act :=
  fun b t p f => colRun scale wgt nrm (fun t' e => x b t' p e) Wq bq Wk bk Wv bv Wo bo g beta t f

/-- What the kernel computes, and what the reference computes. -/
def G := run scaleK wgtK nrmK
def Gref := run scaleR wgtR nrmR

end Cert.Spec

end
-- ==== Proof.SpecIdx.lean ====
/-
  Arrays as the specification's functions of coordinates.

  An array over a literal shape is read at the index built from its coordinates. The kernel's block holds one batch
  entry and 8 columns of the activations, the three projection matrices side by side and TRANSPOSED (entry (e, f) of
  the fused [512, 1536] matrix is W[f − 512·j, e] for the j-th of W_q, W_k, W_v), the three biases end to end, and the
  output projection transposed.
-/
import proofs.«145929_j58798102282423_2_alg».proof.Proof.Spec
import Idealize.ShloMosaic.Lib.ValueIdx

noncomputable section

namespace Cert.Spec

open Idealize.ShloMosaic Idealize.ShloMosaic.ValueIdx

variable {φ : FTy}

/-- The activations x[b, t, p, e] of a [4, 64, 256, 512] array. -/
def actOf (x : FVec Ideal ⟨4, ![4, 64, 256, 512]⟩ φ) : Act := fun b t p e => x (ix4 b t p e)
/-- A [512, 512] array as the matrix W[f, e], and as its transpose (the array holds W[f, e] at (e, f)). -/
def matOf (W : FVec Ideal ⟨2, ![512, 512]⟩ φ) : Mat := fun f e => W (ix2 f e)
def matT (W : FVec Ideal ⟨2, ![512, 512]⟩ φ) : Mat := fun f e => W (ix2 e f)
/-- A [512] array as a vector over the features. -/
def rowOf (v : FVec Ideal ⟨1, ![512]⟩ φ) : Row := fun f => v (ix1 f)

/-- Column `pp` of a [1, 64, 8, 512] block of the activations. -/
def colOfBlock (x0 : FVec Ideal ⟨4, ![1, 64, 8, 512]⟩ φ) (pp : Fin 8) : Col := fun t e => x0 (ix4 (0 : Fin 1) t pp e)
/-- The `j`-th of three matrices laid side by side, transposed, in a [512, 1536] array. -/
def matPart (j : Fin 3) (W : FVec Ideal ⟨2, ![512, 1536]⟩ φ) : Mat :=
  fun f e => W (ix2 e (⟨j.val * 512 + f.val, by omega⟩ : Fin 1536))
/-- The `j`-th of three vectors laid end to end in a [1536] array. -/
def rowPart (j : Fin 3) (v : FVec Ideal ⟨1, ![1536]⟩ φ) : Row :=
  fun f => v (ix1 (⟨j.val * 512 + f.val, by omega⟩ : Fin 1536))

end Cert.Spec

end
-- ==== Proof.KernelBlocks.lean ====
/-
  From the blocks the grid points write to the whole result array.

  The grid has 4 × 32 points; point (bi, pi) stages batch entry bi and columns 8·pi … 8·pi + 7 of the activations
  (all 64 positions, all 512 features) and every weight array whole, and writes back the block of the result at the
  same place. Nothing the body computes mixes two columns, so what the point writes at (position t, column pp,
  feature f) of its block is the specification's column function of column (bi, 8·pi + pp) of the activations —
  that is, block (bi, pi) of ONE function `GV` of the staged arrays, index by index. The 128 blocks tile the
  array (index (b, t, p, f) lies in the block of point (b, p / 8)), so the array ends holding `GV`.
-/
import proofs.«145929_j58798102282423_2_alg».proof.Proof.FrameIdeal
import proofs.«145929_j58798102282423_2_alg».proof.Proof.SpecIdx
import Idealize.ShloMosaic.Lib.Pipeline.Value

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

/-- The body's stored value read at an index is the specification's column function of the loaded blocks. -/
def BodySpec : Prop :=
  ∀ (x0 : Vec Ideal S1x64x8x512 .f32) (x1 : Vec Ideal S512x1536 .bf16) (x2 : Vec Ideal S1536 .f32)
    (x3 : Vec Ideal S512x512 .bf16) (x4 x5 x6 : Vec Ideal S512 .f32) (t : Fin 64) (pp : Fin 8) (f : Fin 512),
    body (F := Ideal) x0 x1 x2 x3 x4 x5 x6 (ix4 (0 : Fin 1) t pp f)
      = Cert.Spec.colRun Cert.Spec.scaleK Cert.Spec.wgtK Cert.Spec.nrmK (Cert.Spec.colOfBlock (φ := .f32) x0 pp)
          (Cert.Spec.matPart (φ := .bf16) 0 x1) (Cert.Spec.rowPart (φ := .f32) 0 x2)
          (Cert.Spec.matPart (φ := .bf16) 1 x1) (Cert.Spec.rowPart (φ := .f32) 1 x2)
          (Cert.Spec.matPart (φ := .bf16) 2 x1) (Cert.Spec.rowPart (φ := .f32) 2 x2)
          (Cert.Spec.matT (φ := .bf16) x3) (Cert.Spec.rowOf (φ := .f32) x4) (Cert.Spec.rowOf (φ := .f32) x5)
          (Cert.Spec.rowOf (φ := .f32) x6) t f

/-- The result array as ONE function of the arrays the seven input windows stage. -/
def GV (a0 : Vec Ideal S4x64x256x512 .f32) (a1 : Vec Ideal S512x1536 .bf16) (a2 : Vec Ideal S1536 .f32)
    (a3 : Vec Ideal S512x512 .bf16) (a4 a5 a6 : Vec Ideal S512 .f32) : Vec Ideal S4x64x256x512 .f32 :=
  fun i => Cert.Spec.G (Cert.Spec.actOf (φ := .f32) a0)
    (Cert.Spec.matPart (φ := .bf16) 0 a1) (Cert.Spec.rowPart (φ := .f32) 0 a2)
    (Cert.Spec.matPart (φ := .bf16) 1 a1) (Cert.Spec.rowPart (φ := .f32) 1 a2)
    (Cert.Spec.matPart (φ := .bf16) 2 a1) (Cert.Spec.rowPart (φ := .f32) 2 a2)
    (Cert.Spec.matT (φ := .bf16) a3) (Cert.Spec.rowOf (φ := .f32) a4) (Cert.Spec.rowOf (φ := .f32) a5)
    (Cert.Spec.rowOf (φ := .f32) a6) (i 0) (i 1) (i 2) (i 3)

/-- One point, over plain arrays: if the activations' block is columns 8·pi … of batch entry bi, the block's entry at
    (t, pp, f) is `GV` at (bi, t, 8·pi + pp, f). -/
theorem point_eq (hb : BodySpec) (a0 : Vec Ideal S4x64x256x512 .f32) (a1 : Vec Ideal S512x1536 .bf16)
    (a2 : Vec Ideal S1536 .f32) (a3 : Vec Ideal S512x512 .bf16) (a4 a5 a6 : Vec Ideal S512 .f32)
    (x0 : Vec Ideal S1x64x8x512 .f32) (bi : Fin 4) (pi : Fin 32)
    (h0 : ∀ (tt : Fin 64) (pp : Fin 8) (e : Fin 512),
      x0 (ix4 (0 : Fin 1) tt pp e) = a0 (ix4 bi tt (⟨pi.val * 8 + pp.val, by omega⟩ : Fin 256) e))
    (tt : Fin 64) (pp : Fin 8) (f : Fin 512) :
    body (F := Ideal) x0 a1 a2 a3 a4 a5 a6 (ix4 (0 : Fin 1) tt pp f)
      = GV a0 a1 a2 a3 a4 a5 a6 (ix4 bi tt (⟨pi.val * 8 + pp.val, by omega⟩ : Fin 256) f) := by
  rw [hb]
  unfold GV Cert.Spec.G Cert.Spec.run
  have hcol : Cert.Spec.colOfBlock (φ := .f32) x0 pp
      = fun t' e => Cert.Spec.actOf (φ := .f32) a0 bi t' (⟨pi.val * 8 + pp.val, by omega⟩ : Fin 256) e := by
    funext t' e
    exact h0 t' pp e
  rw [hcol]

/-- The same at a block index `j` and an array index `i` related coordinate by coordinate. -/
theorem point_eq' (hb : BodySpec) (a0 : Vec Ideal S4x64x256x512 .f32) (a1 : Vec Ideal S512x1536 .bf16)
    (a2 : Vec Ideal S1536 .f32) (a3 : Vec Ideal S512x512 .bf16) (a4 a5 a6 : Vec Ideal S512 .f32)
    (x0 : Vec Ideal S1x64x8x512 .f32) (bi : Fin 4) (pi : Fin 32)
    (h0 : ∀ (tt : Fin 64) (pp : Fin 8) (e : Fin 512),
      x0 (ix4 (0 : Fin 1) tt pp e) = a0 (ix4 bi tt (⟨pi.val * 8 + pp.val, by omega⟩ : Fin 256) e))
    (j : S1x64x8x512.Idx) (i : S4x64x256x512.Idx)
    (hi0 : (i 0).val = bi.val) (hi1 : (i 1).val = (j 1).val) (hi2 : (i 2).val = pi.val * 8 + (j 2).val)
    (hi3 : (i 3).val = (j 3).val) :
    body (F := Ideal) x0 a1 a2 a3 a4 a5 a6 j = GV a0 a1 a2 a3 a4 a5 a6 i := by
  obtain ⟨z, tt, pp, f, rfl⟩ : ∃ (z : Fin 1) (tt : Fin 64) (pp : Fin 8) (f : Fin 512), j = ix4 z tt pp f :=
    ⟨j 0, j 1, j 2, j 3, eq_ix4 j⟩
  obtain ⟨b', t', p', f', rfl⟩ : ∃ (b' : Fin 4) (t' : Fin 64) (p' : Fin 256) (f' : Fin 512), i = ix4 b' t' p' f' :=
    ⟨i 0, i 1, i 2, i 3, eq_ix4 i⟩
  have hz : z = 0 := Subsingleton.elim _ _
  have e0 : b' = bi := Fin.ext hi0
  have e1 : t' = tt := Fin.ext hi1
  have e2 : p' = (⟨pi.val * 8 + pp.val, by omega⟩ : Fin 256) := Fin.ext hi2
  have e3 : f' = f := Fin.ext hi3
  subst hz e0 e1 e3
  rw [e2]
  exact point_eq hb a0 a1 a2 a3 a4 a5 a6 x0 b' pi h0 t' pp f'

variable (m : (ℓ : Loc nD τ sig) → Buf (Elt Ideal) ℓ) (ρ : Dev nD → PrngReg)

/-! ## The printed index maps, decided over the 128 points -/

theorem idx_facts : ∀ t : Fin cfg0.N,
    win0_0.index t (0 : Fin 4) = win0_7.index t (0 : Fin 4) ∧ win0_0.index t (1 : Fin 4) = 0
    ∧ win0_0.index t (2 : Fin 4) = win0_7.index t (2 : Fin 4) ∧ win0_0.index t (3 : Fin 4) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 4) ≤ 3 ∧ win0_7.index t (1 : Fin 4) = 0
    ∧ win0_7.index t (2 : Fin 4) ≤ 31 ∧ win0_7.index t (3 : Fin 4) = 0 :=
  (by decide +kernel : ∀ t : Fin grid0.N, _)

/-- Every (batch entry, group of 8 columns) is some point's. -/
theorem idx_onto : ∀ (q0 : Fin 4) (q2 : Fin 32), ∃ t : Fin cfg0.N, win0_7.index t = ![q0.val, 0, q2.val, 0] :=
  (by decide +kernel : ∀ (q0 : Fin 4) (q2 : Fin 32), ∃ t : Fin grid0.N, win0_7.index t = ![q0.val, 0, q2.val, 0])

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The windows' blocks read where the output's block says -/

/-- The activations' block at point `t`: batch entry and columns of the output's block. -/
theorem blk0 (c : Dev nD) (t : Fin cfg0.N) (tt : Fin 64) (pp : Fin 8) (e : Fin 512) :
    iblk m c 0 t (ix4 (0 : Fin 1) tt pp e)
      = V m c main_arg0 (ix4 (⟨win0_7.index t (0 : Fin 4), by have := (idx_facts t).2.2.2.2.2.2.2.2.2.2.2.2.1; omega⟩ : Fin 4) tt
          (⟨win0_7.index t (2 : Fin 4) * 8 + pp.val, by have := (idx_facts t).2.2.2.2.2.2.2.2.2.2.2.2.2.2.1; omega⟩ : Fin 256) e) := by
  obtain ⟨e0, e1, e2, e3, -⟩ := idx_facts t
  show V m c main_arg0 (((cfg0.win 0).blk t).view.emb (ix4 (0 : Fin 1) tt pp e)) = _
  refine congrArg (V m c main_arg0) ?_
  funext a; apply Fin.ext
  match a with
  | ⟨0, _⟩ => show win0_0.index t (0 : Fin 4) * 1 + 1 * 0 = win0_7.index t (0 : Fin 4); omega
  | ⟨1, _⟩ => show win0_0.index t (1 : Fin 4) * 64 + 1 * tt.val = tt.val; omega
  | ⟨2, _⟩ => show win0_0.index t (2 : Fin 4) * 8 + 1 * pp.val = win0_7.index t (2 : Fin 4) * 8 + pp.val; omega
  | ⟨3, _⟩ => show win0_0.index t (3 : Fin 4) * 512 + 1 * e.val = e.val; omega

/-- The six weight windows' blocks are their whole arrays. -/
theorem blk1 (c : Dev nD) (t : Fin cfg0.N) : (iblk m c 1 t : S512x1536.Idx → EReal) = V m c main_v4 := by
  obtain ⟨-, -, -, -, e0, e1, -⟩ := idx_facts t
  funext y
  show V m c main_v4 (((cfg0.win 1).blk t).view.emb y) = _
  refine congrArg (V m c main_v4) ?_
  funext a; apply Fin.ext
  match a with
  | ⟨0, _⟩ => show win0_1.index t (0 : Fin 2) * 512 + 1 * (y 0).val = (y 0).val; omega
  | ⟨1, _⟩ => show win0_1.index t (1 : Fin 2) * 1536 + 1 * (y 1).val = (y 1).val; omega

theorem blk2 (c : Dev nD) (t : Fin cfg0.N) : (iblk m c 2 t : S1536.Idx → EReal) = V m c main_v5 := by
  obtain ⟨-, -, -, -, -, -, e0, -⟩ := idx_facts t
  funext y
  show V m c main_v5 (((cfg0.win 2).blk t).view.emb y) = _
  refine congrArg (V m c main_v5) ?_
  funext a; apply Fin.ext
  match a with
  | ⟨0, _⟩ => show win0_2.index t (0 : Fin 1) * 1536 + 1 * (y 0).val = (y 0).val; omega

theorem blk3 (c : Dev nD) (t : Fin cfg0.N) : (iblk m c 3 t : S512x512.Idx → EReal) = V m c main_v7 := by
  obtain ⟨-, -, -, -, -, -, -, e0, e1, -⟩ := idx_facts t
  funext y
  show V m c main_v7 (((cfg0.win 3).blk t).view.emb y) = _
  refine congrArg (V m c main_v7) ?_
  funext a; apply Fin.ext
  match a with
  | ⟨0, _⟩ => show win0_3.index t (0 : Fin 2) * 512 + 1 * (y 0).val = (y 0).val; omega
  | ⟨1, _⟩ => show win0_3.index t (1 : Fin 2) * 512 + 1 * (y 1).val = (y 1).val; omega

theorem blk4 (c : Dev nD) (t : Fin cfg0.N) : (iblk m c 4 t : S512.Idx → EReal) = V m c main_arg8 := by
  obtain ⟨-, -, -, -, -, -, -, -, -, e0, -⟩ := idx_facts t
  funext y
  show V m c main_arg8 (((cfg0.win 4).blk t).view.emb y) = _
  refine congrArg (V m c main_arg8) ?_
  funext a; apply Fin.ext
  match a with
  | ⟨0, _⟩ => show win0_4.index t (0 : Fin 1) * 512 + 1 * (y 0).val = (y 0).val; omega

theorem blk5 (c : Dev nD) (t : Fin cfg0.N) : (iblk m c 5 t : S512.Idx → EReal) = V m c main_arg9 := by
  obtain ⟨-, -, -, -, -, -, -, -, -, -, e0, -⟩ := idx_facts t
  funext y
  show V m c main_arg9 (((cfg0.win 5).blk t).view.emb y) = _
  refine congrArg (V m c main_arg9) ?_
  funext a; apply Fin.ext
  match a with
  | ⟨0, _⟩ => show win0_5.index t (0 : Fin 1) * 512 + 1 * (y 0).val = (y 0).val; omega

theorem blk6 (c : Dev nD) (t : Fin cfg0.N) : (iblk m c 6 t : S512.Idx → EReal) = V m c main_arg10 := by
  obtain ⟨-, -, -, -, -, -, -, -, -, -, -, e0, -⟩ := idx_facts t
  funext y
  show V m c main_arg10 (((cfg0.win 6).blk t).view.emb y) = _
  refine congrArg (V m c main_arg10) ?_
  funext a; apply Fin.ext
  match a with
  | ⟨0, _⟩ => show win0_6.index t (0 : Fin 1) * 512 + 1 * (y 0).val = (y 0).val; omega

/-! ## What a point writes back, the cover, and the array -/

/-- WHAT POINT `t` WRITES BACK is block `t` of `GV` of the staged arrays as the region finds them. -/
theorem flushed7_eq (hb : BodySpec) (c : Dev nD) (t : Fin cfg0.N) :
    (dats m 0 c).flushed 7 t = ((cfg0.win 7).blk t).view.read (Elt Ideal)
      (GV (V m c main_arg0) (V m c main_v4) (V m c main_v5) (V m c main_v7) (V m c main_arg8) (V m c main_arg9) (V m c main_arg10)) := by
  show (cfg0.win 7).cut (grid0.coords t) ((dats m 0 c).after 7 t) = _
  rw [after7]
  unfold out7
  rw [View.canon_unit_zero hz4]
  simp only [View.ld_unit_zero (S := S1x64x8x512) hz4, View.ld_unit_zero (S := S512x1536) hz2,
    View.ld_unit_zero (S := S1536) hz1, View.ld_unit_zero (S := S512x512) hz2, View.ld_unit_zero (S := S512) hz1]
  rw [blk1 m c t, blk2 m c t, blk3 m c t, blk4 m c t, blk5 m c t, blk6 m c t]
  obtain ⟨-, -, -, -, -, -, -, -, -, -, -, -, b0, b1, b2, b3⟩ := idx_facts t
  funext j
  show body (F := Ideal) (iblk m c 0 t) (V m c main_v4) (V m c main_v5) (V m c main_v7) (V m c main_arg8) (V m c main_arg9) (V m c main_arg10) j
    = GV (V m c main_arg0) (V m c main_v4) (V m c main_v5) (V m c main_v7) (V m c main_arg8) (V m c main_arg9) (V m c main_arg10)
        (((cfg0.win 7).blk t).view.emb j)
  refine point_eq' hb (V m c main_arg0) (V m c main_v4) (V m c main_v5) (V m c main_v7) (V m c main_arg8) (V m c main_arg9)
    (V m c main_arg10) (iblk m c 0 t) (⟨win0_7.index t (0 : Fin 4), by omega⟩ : Fin 4) (⟨win0_7.index t (2 : Fin 4), by omega⟩ : Fin 32)
    (fun tt pp e => blk0 m c t tt pp e) j (((cfg0.win 7).blk t).view.emb j) ?_ ?_ ?_ ?_
  · show win0_7.index t (0 : Fin 4) * 1 + 1 * (j 0).val = win0_7.index t (0 : Fin 4)
    have : (j 0).val < 1 := (j 0).isLt
    omega
  · show win0_7.index t (1 : Fin 4) * 64 + 1 * (j 1).val = (j 1).val
    omega
  · show win0_7.index t (2 : Fin 4) * 8 + 1 * (j 2).val = win0_7.index t (2 : Fin 4) * 8 + (j 2).val
    omega
  · show win0_7.index t (3 : Fin 4) * 512 + 1 * (j 3).val = (j 3).val
    omega

/-- An index of the array is in point `t`'s block iff each coordinate is in the block's range on its axis. -/
theorem mem_blk7 (t : Fin cfg0.N) (i : S4x64x256x512.Idx) :
    i ∈ ((cfg0.win 7).blk t).view.set ↔ ∀ a : Fin 4, win0_7.index t a * S1x64x8x512.size a ≤ (i a).val
      ∧ (i a).val < win0_7.index t a * S1x64x8x512.size a + S1x64x8x512.size a := by
  show i ∈ ((View.whole main_v8).slice (win0_7.rect t)).set ↔ _
  rw [View.set_slice_whole, Rect.mem_set_unit]
  exact Iff.rfl

/-- Every index of the result array is in some point's block: (b, t, p, f) in that of point (b, p / 8). -/
theorem cover7 (i : S4x64x256x512.Idx) :
    ∃ t : Fin cfg0.N, (cfg0.win 7).flush t = true ∧ i ∈ ((cfg0.win 7).blk t).view.set := by
  have hi0 : (i 0).val < 4 := (i 0).isLt
  have hi1 : (i 1).val < 64 := (i 1).isLt
  have hi2 : (i 2).val < 256 := (i 2).isLt
  have hi3 : (i 3).val < 512 := (i 3).isLt
  obtain ⟨t, ht⟩ := idx_onto ⟨(i 0).val, hi0⟩ ⟨(i 2).val / 8, by omega⟩
  have q0 : win0_7.index t (0 : Fin 4) = (i 0).val := congrFun ht 0
  have q1 : win0_7.index t (1 : Fin 4) = 0 := congrFun ht 1
  have q2 : win0_7.index t (2 : Fin 4) = (i 2).val / 8 := congrFun ht 2
  have q3 : win0_7.index t (3 : Fin 4) = 0 := congrFun ht 3
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 64 ≤ (i 1).val ∧ (i 1).val < win0_7.index t (1 : Fin 4) * 64 + 64; omega
  | ⟨2, _⟩ => show win0_7.index t (2 : Fin 4) * 8 ≤ (i 2).val ∧ (i 2).val < win0_7.index t (2 : Fin 4) * 8 + 8; omega
  | ⟨3, _⟩ => show win0_7.index t (3 : Fin 4) * 512 ≤ (i 3).val ∧ (i 3).val < win0_7.index t (3 : Fin 4) * 512 + 512; omega

/-- THE ARRAY after the run is `GV` of the staged arrays as the region finds them. -/
theorem final7 (hb : BodySpec) (c : Dev nD) :
    (dats m 0 c).arrAt 7 cfg0.N
      = GV (V m c main_arg0) (V m c main_v4) (V m c main_v5) (V m c main_v7) (V m c main_arg8) (V m c main_arg9) (V m c main_arg10) :=
  (dats m 0 c).arrAt_eq_of_cover 7 _ (fun t _ => flushed7_eq m hb c t) cover7

end Cert.KernelIdeal.HandValue

end
-- ==== Proof.KernelRun.lean ====
/-
  The kernel's run, read: the result array as the specification's function of the ARGUMENT arrays.

  Before the region the program lays W_qᵀ, W_kᵀ, W_vᵀ side by side into one [512, 1536] matrix, b_q, b_k, b_v end to
  end into one [1536] vector, and transposes W_o; the changes of float format are the identity on the extended reals.
  So the j-th 512 columns of the fused matrix, read at (e, f), are the j-th weight matrix at (f, e); the j-th 512
  entries of the fused bias are the j-th bias; and the transposed output projection at (e, f) is W_o at (f, e). With
  that, the function `GV` of the staged arrays is the specification `G` of the arguments, and the frame run's post
  names the result array.
-/
import proofs.«145929_j58798102282423_2_alg».proof.Proof.KernelBlocks
import Idealize.ShloMosaic.Lib.ValueLayout
import Idealize.ShloMosaic.Lib.StableHlo.Run

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

/-! ## Three pieces laid along an axis, read in the j-th -/

section Pieces

variable (A B C : S512x512.Idx → EReal) (a b c : S512.Idx → EReal)

theorem cols3_0 (e f : Fin 512) (o : Fin 1536) (ho : o.val = f.val) :
    concatenate S512x1536 1 [⟨S512x512, A⟩, ⟨S512x512, B⟩, ⟨S512x512, C⟩] concatenates_S512x512_S512x512_S512x512_S512x1536_d1 (ix2 e o)
      = A (ix2 e f) :=
  concatenate_apply_piece (1 : Fin 2) _ _ (ix2 e o) 0 (by simp) S512x512 A rfl rfl 0 (by rfl) (ix2 e f)
    (fun b hb => by match b with | ⟨0, _⟩ => rfl | ⟨1, _⟩ => exact (hb (Fin.ext rfl)).elim)
    (by show 0 + f.val = o.val; omega)

theorem cols3_1 (e f : Fin 512) (o : Fin 1536) (ho : o.val = 512 + f.val) :
    concatenate S512x1536 1 [⟨S512x512, A⟩, ⟨S512x512, B⟩, ⟨S512x512, C⟩] concatenates_S512x512_S512x512_S512x512_S512x1536_d1 (ix2 e o)
      = B (ix2 e f) :=
  concatenate_apply_piece (1 : Fin 2) _ _ (ix2 e o) 1 (by simp) S512x512 B rfl rfl 512 (by rfl) (ix2 e f)
    (fun b hb => by match b with | ⟨0, _⟩ => rfl | ⟨1, _⟩ => exact (hb (Fin.ext rfl)).elim)
    (by show 512 + f.val = o.val; omega)

theorem cols3_2 (e f : Fin 512) (o : Fin 1536) (ho : o.val = 1024 + f.val) :
    concatenate S512x1536 1 [⟨S512x512, A⟩, ⟨S512x512, B⟩, ⟨S512x512, C⟩] concatenates_S512x512_S512x512_S512x512_S512x1536_d1 (ix2 e o)
      = C (ix2 e f) :=
  concatenate_apply_piece (1 : Fin 2) _ _ (ix2 e o) 2 (by simp) S512x512 C rfl rfl 1024 (by rfl) (ix2 e f)
    (fun b hb => by match b with | ⟨0, _⟩ => rfl | ⟨1, _⟩ => exact (hb (Fin.ext rfl)).elim)
    (by show 1024 + f.val = o.val; omega)

theorem rows3_0 (f : Fin 512) (o : Fin 1536) (ho : o.val = f.val) :
    concatenate S1536 0 [⟨S512, a⟩, ⟨S512, b⟩, ⟨S512, c⟩] concatenates_S512_S512_S512_S1536_d0 (ix1 o) = a (ix1 f) :=
  concatenate_apply_piece (0 : Fin 1) _ _ (ix1 o) 0 (by simp) S512 a rfl rfl 0 (by rfl) (ix1 f)
    (fun b hb => by match b with | ⟨0, _⟩ => exact (hb (Fin.ext rfl)).elim)
    (by show 0 + f.val = o.val; omega)

theorem rows3_1 (f : Fin 512) (o : Fin 1536) (ho : o.val = 512 + f.val) :
    concatenate S1536 0 [⟨S512, a⟩, ⟨S512, b⟩, ⟨S512, c⟩] concatenates_S512_S512_S512_S1536_d0 (ix1 o) = b (ix1 f) :=
  concatenate_apply_piece (0 : Fin 1) _ _ (ix1 o) 1 (by simp) S512 b rfl rfl 512 (by rfl) (ix1 f)
    (fun b hb => by match b with | ⟨0, _⟩ => exact (hb (Fin.ext rfl)).elim)
    (by show 512 + f.val = o.val; omega)

theorem rows3_2 (f : Fin 512) (o : Fin 1536) (ho : o.val = 1024 + f.val) :
    concatenate S1536 0 [⟨S512, a⟩, ⟨S512, b⟩, ⟨S512, c⟩] concatenates_S512_S512_S512_S1536_d0 (ix1 o) = c (ix1 f) :=
  concatenate_apply_piece (0 : Fin 1) _ _ (ix1 o) 2 (by simp) S512 c rfl rfl 1024 (by rfl) (ix1 f)
    (fun b hb => by match b with | ⟨0, _⟩ => exact (hb (Fin.ext rfl)).elim)
    (by show 1024 + f.val = o.val; omega)

end Pieces

variable (m : (ℓ : Loc nD τ sig) → Buf (Elt Ideal) ℓ) (ρ : Dev nD → PrngReg)

/-! ## The arrays the host operations before the region leave -/

theorem V_v7 (c : Dev nD) : @Eq (S512x512.Idx → EReal) (V m c main_v7)
    (truncf (F := Ideal) .bf16 (transpose S512x512 [1, 0] (m ((c : Thread nD τ).loc main_arg7)) transposes_S512x512_S512x512_1_0) bitsLt_bf16_f32) := by
  dsimp only [V, Gen.hostOps0]
  after_results

theorem V_v5 (c : Dev nD) : @Eq (S1536.Idx → EReal) (V m c main_v5)
    (concatenate S1536 0 [⟨S512, m ((c : Thread nD τ).loc main_arg2)⟩, ⟨S512, m ((c : Thread nD τ).loc main_arg4)⟩, ⟨S512, m ((c : Thread nD τ).loc main_arg6)⟩] concatenates_S512_S512_S512_S1536_d0) := by
  first
  | (dsimp only [V, Gen.hostOps0]; after_results; dsimp only [Matrix.cons_val_zero, Matrix.cons_val_one, Matrix.cons_val_two, Matrix.head_cons, Matrix.tail_cons]; after_results; rfl; done)
  | (dsimp only [V, Gen.hostOps0]; after_results; rfl; done)

theorem V_v4 (c : Dev nD) : @Eq (S512x1536.Idx → EReal) (V m c main_v4)
    (truncf (F := Ideal) .bf16 (concatenate S512x1536 1 [⟨S512x512, transpose S512x512 [1, 0] (m ((c : Thread nD τ).loc main_arg1)) transposes_S512x512_S512x512_1_0⟩, ⟨S512x512, transpose S512x512 [1, 0] (m ((c : Thread nD τ).loc main_arg3)) transposes_S512x512_S512x512_1_0⟩, ⟨S512x512, transpose S512x512 [1, 0] (m ((c : Thread nD τ).loc main_arg5)) transposes_S512x512_S512x512_1_0⟩] concatenates_S512x512_S512x512_S512x512_S512x1536_d1) bitsLt_bf16_f32) := by
  first
  | (dsimp only [V, Gen.hostOps0]; after_results; dsimp only [Matrix.cons_val_zero, Matrix.cons_val_one, Matrix.cons_val_two, Matrix.head_cons, Matrix.tail_cons]; after_results; rfl; done)
  | (dsimp only [V, Gen.hostOps0]; after_results; rfl; done)

/-! ## The staged weights as the arguments' matrices and vectors -/

theorem matT_v7 (c : Dev nD) :
    Cert.Spec.matT (φ := .bf16) (V m c main_v7) = Cert.Spec.matOf (φ := .f32) (m ((c : Thread nD τ).loc main_arg7)) := by
  funext f e
  unfold Cert.Spec.matT Cert.Spec.matOf
  rw [V_v7 m c]
  exact transpose_ix2_apply _ _ e f

theorem matPart0_v4 (c : Dev nD) :
    Cert.Spec.matPart (φ := .bf16) 0 (V m c main_v4) = Cert.Spec.matOf (φ := .f32) (m ((c : Thread nD τ).loc main_arg1)) := by
  funext f e
  unfold Cert.Spec.matPart Cert.Spec.matOf
  rw [V_v4 m c]
  refine (cols3_0 _ _ _ e f _ (by show 0 * 512 + f.val = f.val; omega)).trans ?_
  exact transpose_ix2_apply _ _ e f

theorem matPart1_v4 (c : Dev nD) :
    Cert.Spec.matPart (φ := .bf16) 1 (V m c main_v4) = Cert.Spec.matOf (φ := .f32) (m ((c : Thread nD τ).loc main_arg3)) := by
  funext f e
  unfold Cert.Spec.matPart Cert.Spec.matOf
  rw [V_v4 m c]
  refine (cols3_1 _ _ _ e f _ (by show 1 * 512 + f.val = 512 + f.val; omega)).trans ?_
  exact transpose_ix2_apply _ _ e f

theorem matPart2_v4 (c : Dev nD) :
    Cert.Spec.matPart (φ := .bf16) 2 (V m c main_v4) = Cert.Spec.matOf (φ := .f32) (m ((c : Thread nD τ).loc main_arg5)) := by
  funext f e
  unfold Cert.Spec.matPart Cert.Spec.matOf
  rw [V_v4 m c]
  refine (cols3_2 _ _ _ e f _ (by show 2 * 512 + f.val = 1024 + f.val; omega)).trans ?_
  exact transpose_ix2_apply _ _ e f

theorem rowPart0_v5 (c : Dev nD) :
    Cert.Spec.rowPart (φ := .f32) 0 (V m c main_v5) = Cert.Spec.rowOf (φ := .f32) (m ((c : Thread nD τ).loc main_arg2)) := by
  funext f
  unfold Cert.Spec.rowPart Cert.Spec.rowOf
  rw [V_v5 m c]
  exact rows3_0 _ _ _ f _ (by show 0 * 512 + f.val = f.val; omega)

theorem rowPart1_v5 (c : Dev nD) :
    Cert.Spec.rowPart (φ := .f32) 1 (V m c main_v5) = Cert.Spec.rowOf (φ := .f32) (m ((c : Thread nD τ).loc main_arg4)) := by
  funext f
  unfold Cert.Spec.rowPart Cert.Spec.rowOf
  rw [V_v5 m c]
  exact rows3_1 _ _ _ f _ (by show 1 * 512 + f.val = 512 + f.val; omega)

theorem rowPart2_v5 (c : Dev nD) :
    Cert.Spec.rowPart (φ := .f32) 2 (V m c main_v5) = Cert.Spec.rowOf (φ := .f32) (m ((c : Thread nD τ).loc main_arg6)) := by
  funext f
  unfold Cert.Spec.rowPart Cert.Spec.rowOf
  rw [V_v5 m c]
  exact rows3_2 _ _ _ f _ (by show 2 * 512 + f.val = 1024 + f.val; omega)

/-- The specification's result of the ARGUMENT arrays on core `c`. -/
def Gm (c : Dev nD) : Vec Ideal S4x64x256x512 .f32 :=
  fun i => Cert.Spec.G (Cert.Spec.actOf (φ := .f32) (m ((c : Thread nD τ).loc main_arg0)))
    (Cert.Spec.matOf (φ := .f32) (m ((c : Thread nD τ).loc main_arg1))) (Cert.Spec.rowOf (φ := .f32) (m ((c : Thread nD τ).loc main_arg2)))
    (Cert.Spec.matOf (φ := .f32) (m ((c : Thread nD τ).loc main_arg3))) (Cert.Spec.rowOf (φ := .f32) (m ((c : Thread nD τ).loc main_arg4)))
    (Cert.Spec.matOf (φ := .f32) (m ((c : Thread nD τ).loc main_arg5))) (Cert.Spec.rowOf (φ := .f32) (m ((c : Thread nD τ).loc main_arg6)))
    (Cert.Spec.matOf (φ := .f32) (m ((c : Thread nD τ).loc main_arg7))) (Cert.Spec.rowOf (φ := .f32) (m ((c : Thread nD τ).loc main_arg8)))
    (Cert.Spec.rowOf (φ := .f32) (m ((c : Thread nD τ).loc main_arg9))) (Cert.Spec.rowOf (φ := .f32) (m ((c : Thread nD τ).loc main_arg10)))
    (i 0) (i 1) (i 2) (i 3)

/-- `GV` of the staged arrays is `G` of the arguments. -/
theorem GV_eq (c : Dev nD) :
    GV (V m c main_arg0) (V m c main_v4) (V m c main_v5) (V m c main_v7) (V m c main_arg8) (V m c main_arg9) (V m c main_arg10)
      = Gm m c := by
  unfold GV Gm
  rw [matPart0_v4 m c, matPart1_v4 m c, matPart2_v4 m c, rowPart0_v5 m c, rowPart1_v5 m c, rowPart2_v5 m c, matT_v7 m c,
    V_main_arg0 m c, V_main_arg8 m c, V_main_arg9 m c, V_main_arg10 m c]

/-- The kernel's run: every weakly fair execution terminates with the result array at `Gm` and the arguments unchanged. -/
theorem run (hb : BodySpec) : θ_run defs (onTc (τ := τ) (main (F := Ideal))) ⟨m, fun _ => 0, ρ⟩ (fun r => ∀ c : Dev nD,
      r.2.mem ((c.tc : Thread nD τ).loc main_v8) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 7).trans ((final7 m hb c).trans (GV_eq m c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 4).trans (((dats m 0 c).arrAt_in 4 rfl _).trans ((A_eq m c 4).trans (V_main_arg8 m c))),
      ((h c).1 5).trans (((dats m 0 c).arrAt_in 5 rfl _).trans ((A_eq m c 5).trans (V_main_arg9 m c))),
      ((h c).1 6).trans (((dats m 0 c).arrAt_in 6 rfl _).trans ((A_eq m c 6).trans (V_main_arg10 m c)))⟩)
    (run_main m ρ)

end Cert.KernelIdeal.HandValue

end
-- ==== Proof.BodyHeads.lean ====
/-
  One head of the attention as ONE function of the three projections, and the stored value over the eight heads.

  The printed parts cut the unrolled text of the eight heads at fixed distances, so the payloads hand a head's
  pieces on in eight different ways; unfolded, each head is the same function `head` of (q, k, v) at its own cut,
  and the stored value is the normalisation of the residual sum over the eight heads' outputs laid side by side.
-/
import proofs.«145929_j58798102282423_2_alg».proof.Proof.BodyIdeal
import Idealize.ShloMosaic.Lib.ValueIdx

set_option pp.maxSteps 5000
set_option pp.deepTerms false

noncomputable section

namespace Cert.KernelIdeal.Hand

open Idealize.ShloMosaic Idealize.ShloMosaic.ValueIdx Cert.KernelIdeal Cert.KernelIdeal.Gen

variable {F : FTy → Type} [FloatOps F] [Named F]

/-- One head of a projection: cut at `off`, the unit axis dropped, columns brought to the front. -/
def headSlice (off : Fin 4 → ℕ) (hs : S64x8x8x64.Slices off S64x8x1x64) (x : FVec F S64x8x8x64 .f32) :
    FVec F S8x64x64 .bf16 :=
  truncf .bf16 (transpose S8x64x64 [1, 0, 2]
    (shapeCast S64x8x64 (extractStridedSlice S64x8x1x64 off x hs) shapeCasts_S64x8x1x64_S64x8x64)
    transposes_S64x8x64_p1_0_2_S8x64x64) bitsLt_bf16_f32

/-- The scaled scores: queries against keys over the lanes, times 1/8. -/
def scores (qh kh : FVec F S8x64x64 .bf16) : FVec F S8x64x64 .f32 :=
  mulf (matmul dot_S8x64x64_S8x64x64_S8x64x64_2_2_1_1_0_0 none qh kh (constant S8x64x64 .f32 0x00000000#32))
    (broadcast S8x64x64 (Scalar.ofBits .f32 0x3E000000#32))

/-- Key position after query position. -/
def causal : IVec S8x64x64 1 :=
  cmpi .sgt (iota .tc S8x64x64 32 [2] iota_S8x64x64_d2_w32) (iota .tc S8x64x64 32 [1] iota_S8x64x64_d1_w32)

/-- The scores with the masked keys at the named lower bound. -/
def masked (sc : FVec F S8x64x64 .f32) (m : IVec S8x64x64 1) : FVec F S8x64x64 .f32 :=
  select m (broadcast S8x64x64 (Named.named κ "neg_big" 0xFF333332#32)) sc

/-- The unnormalised weights: zero at a masked key, else the exponential of the score less the row's maximum. -/
def weights (sc : FVec F S8x64x64 .f32) (m : IVec S8x64x64 1) (msk : FVec F S8x64x64 .f32) : FVec F S8x64x64 .f32 :=
  select m (broadcast S8x64x64 (Scalar.ofBits .f32 0x00000000#32))
    (exp (subf sc (broadcastTo S8x64x64
      (shapeCast S8x64x1 (multiReduction .maximumf [2] S8x64 msk 0xFF800000#32 reduces_S8x64x64_S8x64 (.inl rfl) rfl)
        shapeCasts_S8x64_S8x64x1) broadcasts_S8x64x1_S8x64x64)))

/-- A row's sum of weights, kept as a unit axis. -/
def rowSum (p : FVec F S8x64x64 .f32) : FVec F S8x64x1 .f32 :=
  shapeCast S8x64x1 (multiReduction .add [2] S8x64 p 0x00000000#32 reduces_S8x64x64_S8x64 (.inl rfl) rfl)
    shapeCasts_S8x64_S8x64x1

/-- The head's output: the weights times the reciprocal of their sum, against the values; positions back in front. -/
def outOf (vh : FVec F S8x64x64 .bf16) (p : FVec F S8x64x64 .f32) (l : FVec F S8x64x1 .f32) (one : F .f32) :
    FVec F S64x8x64 .f32 :=
  transpose S64x8x64 [1, 0, 2]
    (matmul dot_S8x64x64_S8x64x64_S8x64x64_2_1_1_2_0_0 none
      (truncf .bf16 (mulf p (broadcastTo S8x64x64 (divf (broadcast S8x64x1 one) l) broadcasts_S8x64x1_S8x64x64))
        bitsLt_bf16_f32)
      vh (constant S8x64x64 .f32 0x00000000#32))
    transposes_S8x64x64_p1_0_2_S64x8x64

/-- The attention of one head from its three slices. -/
def attn (qh kh vh : FVec F S8x64x64 .bf16) : FVec F S64x8x64 .f32 :=
  outOf vh (weights (scores qh kh) causal (masked (scores qh kh) causal))
    (rowSum (weights (scores qh kh) causal (masked (scores qh kh) causal))) (Scalar.ofBits .f32 0x3F800000#32)

/-- One head from the three projections, cut at `off`. -/
def head (off : Fin 4 → ℕ) (hs : S64x8x8x64.Slices off S64x8x1x64) (q3 k3 v3 : FVec F S64x8x8x64 .f32) :
    FVec F S64x8x64 .f32 :=
  attn (headSlice off hs q3) (headSlice off hs k3) (headSlice off hs v3)

/-! ## Each head's pieces are `head` at its cut -/

theorem head0_eq (x0 : Vec F S1x64x8x512 .f32) (x1 : Vec F S512x1536 .bf16) (x2 : Vec F S1536 .f32) :
    k0_pay9 (k0_pay7 x0 x1 x2) (k0_pay8 x0 x1 x2)
      = head ![0, 0, 0, 0] slices_S64x8x8x64_o0_0_0_0_S64x8x1x64 (k0_pay4 x0 x1 x2) (k0_pay5 x0 x1 x2) (k0_pay6 x0 x1 x2) := rfl

theorem head1_eq (q3 k3 v3 : FVec F S64x8x8x64 .f32) :
    k0_pay10 q3 k3 v3
      = head ![0, 0, 1, 0] slices_S64x8x8x64_o0_0_1_0_S64x8x1x64 q3 k3 v3 := rfl

theorem head2_eq (q3 k3 v3 : FVec F S64x8x8x64 .f32) :
    k0_pay12 k3 v3 (k0_pay11 q3)
      = head ![0, 0, 2, 0] slices_S64x8x8x64_o0_0_2_0_S64x8x1x64 q3 k3 v3 := rfl

theorem head3_eq (q3 k3 v3 : FVec F S64x8x8x64 .f32) :
    k0_pay16 (k0_pay13 v3) (k0_pay14 q3 k3) k0_pay15
      = head ![0, 0, 3, 0] slices_S64x8x8x64_o0_0_3_0_S64x8x1x64 q3 k3 v3 := rfl

theorem head4_eq (q3 k3 v3 : FVec F S64x8x8x64 .f32) :
    k0_pay20 (k0_pay17 v3) (k0_pay18 q3 k3) (k0_pay19 q3 k3) (Scalar.ofBits .f32 0x3F800000#32)
      = head ![0, 0, 4, 0] slices_S64x8x8x64_o0_0_4_0_S64x8x1x64 q3 k3 v3 := rfl

theorem head5_eq (q3 k3 v3 : FVec F S64x8x8x64 .f32) :
    k0_pay21 q3 k3 v3
      = head ![0, 0, 5, 0] slices_S64x8x8x64_o0_0_5_0_S64x8x1x64 q3 k3 v3 := rfl

theorem head6_eq (q3 k3 v3 : FVec F S64x8x8x64 .f32) :
    k0_pay24 v3 (k0_pay22 q3) (k0_pay23 k3)
      = head ![0, 0, 6, 0] slices_S64x8x8x64_o0_0_6_0_S64x8x1x64 q3 k3 v3 := rfl

/-- The normalisation of every row without its scale and shift: the centred row times the reciprocal root of its
    variance plus the offset. -/
def normCore (y : FVec F S512x512 .f32) : FVec F S512x512 .f32 :=
  mulf
    (subf y (broadcastTo S512x512
      (divf (shapeCast S512x1 (multiReduction .add [1] S512 y 0x00000000#32 reduces_S512x512_S512 (.inl rfl) rfl)
          shapeCasts_S512_S512x1) (broadcast S512x1 (Scalar.ofBits .f32 0x44000000#32)))
      broadcasts_S512x1_S512x512))
    (broadcastTo S512x512
      (rsqrt (addf
        (divf (shapeCast S512x1
            (multiReduction .add [1] S512
              (mulf
                (subf y (broadcastTo S512x512
                  (divf (shapeCast S512x1 (multiReduction .add [1] S512 y 0x00000000#32 reduces_S512x512_S512 (.inl rfl) rfl)
                      shapeCasts_S512_S512x1) (broadcast S512x1 (Scalar.ofBits .f32 0x44000000#32)))
                  broadcasts_S512x1_S512x512))
                (subf y (broadcastTo S512x512
                  (divf (shapeCast S512x1 (multiReduction .add [1] S512 y 0x00000000#32 reduces_S512x512_S512 (.inl rfl) rfl)
                      shapeCasts_S512_S512x1) (broadcast S512x1 (Scalar.ofBits .f32 0x44000000#32)))
                  broadcasts_S512x1_S512x512)))
              0x00000000#32 reduces_S512x512_S512 (.inl rfl) rfl)
            shapeCasts_S512_S512x1) (broadcast S512x1 (Scalar.ofBits .f32 0x44000000#32)))
        (broadcast S512x1 (Scalar.ofBits .f32 0x3727C5AC#32))))
      broadcasts_S512x1_S512x512)

/-- The eight heads' outputs side by side, as rows. -/
def mergeHeads (o0 o1 o2 o3 o4 o5 o6 o7 : FVec F S64x8x64 .f32) : FVec F S512x512 .f32 :=
  shapeCast S512x512
    (concatenate S64x8x512 2 [⟨S64x8x64, o0⟩, ⟨S64x8x64, o1⟩, ⟨S64x8x64, o2⟩, ⟨S64x8x64, o3⟩, ⟨S64x8x64, o4⟩, ⟨S64x8x64, o5⟩, ⟨S64x8x64, o6⟩, ⟨S64x8x64, o7⟩]
      concatenates_S64x8x64_S64x8x64_S64x8x64_S64x8x64_S64x8x64_S64x8x64_S64x8x64_S64x8x64_S64x8x512_d2)
    shapeCasts_S64x8x512_S512x512

/-- The rows plus the output projection of the merged heads. -/
def residual (x2d o : FVec F S512x512 .f32) (x3 : Vec F S512x512 .bf16) (x4 : Vec F S512 .f32) : FVec F S512x512 .f32 :=
  addf x2d
    (addf
      (matmul dot_S512x512_S512x512_S512x512_1_0_0_1_n_n none (truncf .bf16 o bitsLt_bf16_f32)
        (shapeCast S512x512 x3 shapeCasts_S512x512_S512x512) (constant S512x512 .f32 0x00000000#32))
      (broadcastTo S512x512 (shapeCast S1x512 x4 shapeCasts_S512_S1x512) broadcasts_S1x512_S512x512))

/-- The fused projection: the rows against the [512, 1536] matrix, plus the bias. -/
def fusedProj (x2d : FVec F S512x512 .f32) (x1 : Vec F S512x1536 .bf16) (x2 : Vec F S1536 .f32) : FVec F S512x1536 .f32 :=
  addf
    (matmul dot_S512x512_S512x1536_S512x1536_1_0_0_1_n_n none (truncf .bf16 x2d bitsLt_bf16_f32)
      (shapeCast S512x1536 x1 shapeCasts_S512x1536_S512x1536) (constant S512x1536 .f32 0x00000000#32))
    (broadcastTo S512x1536 (shapeCast S1x1536 (shapeCast S1536 x2 shapeCasts_S1536_S1536) shapeCasts_S1536_S1x1536)
      broadcasts_S1x1536_S512x1536)

/-! ## The remaining payloads -/

theorem pay29_eq (x2d : FVec F S512x512 .f32) (o0 o1 o2 o3 o4 o5 o6 : FVec F S64x8x64 .f32)
    (vh : FVec F S8x64x64 .bf16) (sc : FVec F S8x64x64 .f32) (m : IVec S8x64x64 1) (msk : FVec F S8x64x64 .f32)
    (x3 : Vec F S512x512 .bf16) (x4 : Vec F S512 .f32) :
    k0_pay29 x2d o0 o1 o2 o3 o4 o5 o6 vh sc m msk x3 x4
      = normCore (residual x2d (mergeHeads o0 o1 o2 o3 o4 o5 o6
          (outOf vh (weights sc m msk) (rowSum (weights sc m msk)) (Scalar.ofBits .f32 0x3F800000#32))) x3 x4) := rfl

theorem head7_eq (q3 k3 v3 : FVec F S64x8x8x64 .f32) :
    outOf (k0_pay25 v3) (weights (k0_pay26 q3 k3) k0_pay27 (k0_pay28 q3 k3))
        (rowSum (weights (k0_pay26 q3 k3) k0_pay27 (k0_pay28 q3 k3))) (Scalar.ofBits .f32 0x3F800000#32)
      = head ![0, 0, 7, 0] slices_S64x8x8x64_o0_0_7_0_S64x8x1x64 q3 k3 v3 := rfl

theorem pay2_eq (x0 : Vec F S1x64x8x512 .f32) :
    k0_pay2 x0 = shapeCast S512x512 (shapeCast S64x8x512 x0 shapeCasts_S1x64x8x512_S64x8x512) shapeCasts_S64x8x512_S512x512 := rfl

theorem pay3_eq (x0 : Vec F S1x64x8x512 .f32) (x1 : Vec F S512x1536 .bf16) (x2 : Vec F S1536 .f32) :
    k0_pay3 x0 x1 x2 = fusedProj (k0_pay2 x0) x1 x2 := rfl

theorem pay4_eq (x0 : Vec F S1x64x8x512 .f32) (x1 : Vec F S512x1536 .bf16) (x2 : Vec F S1536 .f32) :
    k0_pay4 x0 x1 x2 = shapeCast S64x8x8x64
      (extractStridedSlice S512x512 ![0, 0] (k0_pay3 x0 x1 x2) slices_S512x1536_o0_0_S512x512) shapeCasts_S512x512_S64x8x8x64 := rfl
theorem pay5_eq (x0 : Vec F S1x64x8x512 .f32) (x1 : Vec F S512x1536 .bf16) (x2 : Vec F S1536 .f32) :
    k0_pay5 x0 x1 x2 = shapeCast S64x8x8x64
      (extractStridedSlice S512x512 ![0, 512] (k0_pay3 x0 x1 x2) slices_S512x1536_o0_512_S512x512) shapeCasts_S512x512_S64x8x8x64 := rfl
theorem pay6_eq (x0 : Vec F S1x64x8x512 .f32) (x1 : Vec F S512x1536 .bf16) (x2 : Vec F S1536 .f32) :
    k0_pay6 x0 x1 x2 = shapeCast S64x8x8x64
      (extractStridedSlice S512x512 ![0, 1024] (k0_pay3 x0 x1 x2) slices_S512x1536_o0_1024_S512x512) shapeCasts_S512x512_S64x8x8x64 := rfl

theorem pay1_eq (y g : FVec F S512x512 .f32) (b : Vec F S512 .f32) :
    k0_pay1 y g b = shapeCast S1x64x8x512
      (shapeCast S64x8x512
        (addf (mulf y g) (broadcastTo S512x512 (shapeCast S1x512 b shapeCasts_S512_S1x512) broadcasts_S1x512_S512x512))
        shapeCasts_S512x512_S64x8x512) shapeCasts_S64x8x512_S1x64x8x512 := rfl

theorem pay30_eq (g : Vec F S512 .f32) :
    k0_pay30 g = broadcastTo S512x512 (shapeCast S1x512 g shapeCasts_S512_S1x512) broadcasts_S1x512_S512x512 := rfl

/-- The stored value over the eight heads. -/
theorem body_eq (x0 : Vec F S1x64x8x512 .f32) (x1 : Vec F S512x1536 .bf16) (x2 : Vec F S1536 .f32)
    (x3 : Vec F S512x512 .bf16) (x4 x5 x6 : Vec F S512 .f32) :
    body x0 x1 x2 x3 x4 x5 x6
      = k0_pay1
          (normCore (residual (k0_pay2 x0)
            (mergeHeads
              (head ![0, 0, 0, 0] slices_S64x8x8x64_o0_0_0_0_S64x8x1x64 (k0_pay4 x0 x1 x2) (k0_pay5 x0 x1 x2) (k0_pay6 x0 x1 x2))
              (head ![0, 0, 1, 0] slices_S64x8x8x64_o0_0_1_0_S64x8x1x64 (k0_pay4 x0 x1 x2) (k0_pay5 x0 x1 x2) (k0_pay6 x0 x1 x2))
              (head ![0, 0, 2, 0] slices_S64x8x8x64_o0_0_2_0_S64x8x1x64 (k0_pay4 x0 x1 x2) (k0_pay5 x0 x1 x2) (k0_pay6 x0 x1 x2))
              (head ![0, 0, 3, 0] slices_S64x8x8x64_o0_0_3_0_S64x8x1x64 (k0_pay4 x0 x1 x2) (k0_pay5 x0 x1 x2) (k0_pay6 x0 x1 x2))
              (head ![0, 0, 4, 0] slices_S64x8x8x64_o0_0_4_0_S64x8x1x64 (k0_pay4 x0 x1 x2) (k0_pay5 x0 x1 x2) (k0_pay6 x0 x1 x2))
              (head ![0, 0, 5, 0] slices_S64x8x8x64_o0_0_5_0_S64x8x1x64 (k0_pay4 x0 x1 x2) (k0_pay5 x0 x1 x2) (k0_pay6 x0 x1 x2))
              (head ![0, 0, 6, 0] slices_S64x8x8x64_o0_0_6_0_S64x8x1x64 (k0_pay4 x0 x1 x2) (k0_pay5 x0 x1 x2) (k0_pay6 x0 x1 x2))
              (head ![0, 0, 7, 0] slices_S64x8x8x64_o0_0_7_0_S64x8x1x64 (k0_pay4 x0 x1 x2) (k0_pay5 x0 x1 x2) (k0_pay6 x0 x1 x2)))
            x3 x4))
          (k0_pay30 x5) x6 := by
  unfold body
  rw [pay29_eq, head0_eq, head1_eq, head2_eq, head3_eq, head4_eq, head5_eq, head6_eq, head7_eq]

end Cert.KernelIdeal.Hand

end
-- ==== Proof.BodyOps.lean ====
/-
  Single operations of the kernel body read at an index given by coordinates, at the ideal values: the two batched
  products of the attention (scores, and weights against values), the two square products, the row maximum and the
  row sums, the comparison of key position against query position, and the layout changes between the
  [rows, features] and the [column, position, lane] arrangements.
-/
import proofs.«145929_j58798102282423_2_alg».proof.Proof.Gen.KernelIdeal.Skeleton
import Idealize.ShloMosaic.Lib.ValueLayout
import Idealize.ShloMosaic.PureOps.Ideal.Laws

set_option pp.maxSteps 5000
set_option pp.deepTerms false

noncomputable section

namespace Cert.KernelIdeal.Hand

open Idealize.ShloMosaic Idealize.ShloMosaic.ValueIdx Cert.KernelIdeal Cert.KernelIdeal.Gen

/-! ## Products -/

/-- Scores: for each column, queries against keys, contracting the 64 lanes. -/
theorem mm_qk_apply (a : FVec Ideal S8x64x64 .bf16) (b : FVec Ideal S8x64x64 .bf16) (pp : Fin 8) (t s : Fin 64) :
    matmul dot_S8x64x64_S8x64x64_S8x64x64_2_2_1_1_0_0 none a b (constant (F := Ideal) S8x64x64 .f32 0x00000000#32) (ix3 pp t s)
      = ∑ d : Fin 64, a (ix3 pp t d) * b (ix3 pp s d) := by
  show FloatOps.matmul _ none a b _ (ix3 pp t s) = _
  rw [Ideal.matmul_constant_zero_apply,
    ← Equiv.sum_comp (contrEquiv1 dot_S8x64x64_S8x64x64_S8x64x64_2_2_1_1_0_0 64 rfl rfl).symm]
  refine Finset.sum_congr rfl fun d _ => ?_
  have c3 := contrEquiv1_symm_val dot_S8x64x64_S8x64x64_S8x64x64_2_2_1_1_0_0 64 rfl rfl d
  have l3 : dot_S8x64x64_S8x64x64_S8x64x64_2_2_1_1_0_0.lhsIdx (ix3 pp t s)
      ((contrEquiv1 _ 64 rfl rfl).symm d) = ix3 pp t d := by
    funext ax; apply Fin.ext
    match ax with
    | ⟨0, _⟩ => simp [DotDims.lhsIdx, dot_S8x64x64_S8x64x64_S8x64x64_2_2_1_1_0_0]; rfl
    | ⟨1, _⟩ => simp [DotDims.lhsIdx, dot_S8x64x64_S8x64x64_S8x64x64_2_2_1_1_0_0]; rfl
    | ⟨2, _⟩ => simp [DotDims.lhsIdx, dot_S8x64x64_S8x64x64_S8x64x64_2_2_1_1_0_0]; exact c3
  have r3 : dot_S8x64x64_S8x64x64_S8x64x64_2_2_1_1_0_0.rhsIdx (ix3 pp t s)
      ((contrEquiv1 _ 64 rfl rfl).symm d) = ix3 pp s d := by
    funext ax; apply Fin.ext
    match ax with
    | ⟨0, _⟩ => simp [DotDims.rhsIdx, dot_S8x64x64_S8x64x64_S8x64x64_2_2_1_1_0_0]; rfl
    | ⟨1, _⟩ => simp [DotDims.rhsIdx, dot_S8x64x64_S8x64x64_S8x64x64_2_2_1_1_0_0]; rfl
    | ⟨2, _⟩ => simp [DotDims.rhsIdx, dot_S8x64x64_S8x64x64_S8x64x64_2_2_1_1_0_0]; exact c3
  rw [l3, r3]

/-- Weights against values: for each column, contracting the 64 key positions. -/
theorem mm_pv_apply (a : FVec Ideal S8x64x64 .bf16) (b : FVec Ideal S8x64x64 .bf16) (pp : Fin 8) (t d : Fin 64) :
    matmul dot_S8x64x64_S8x64x64_S8x64x64_2_1_1_2_0_0 none a b (constant (F := Ideal) S8x64x64 .f32 0x00000000#32) (ix3 pp t d)
      = ∑ s : Fin 64, a (ix3 pp t s) * b (ix3 pp s d) := by
  show FloatOps.matmul _ none a b _ (ix3 pp t d) = _
  rw [Ideal.matmul_constant_zero_apply,
    ← Equiv.sum_comp (contrEquiv1 dot_S8x64x64_S8x64x64_S8x64x64_2_1_1_2_0_0 64 rfl rfl).symm]
  refine Finset.sum_congr rfl fun s _ => ?_
  have c3 := contrEquiv1_symm_val dot_S8x64x64_S8x64x64_S8x64x64_2_1_1_2_0_0 64 rfl rfl s
  have l3 : dot_S8x64x64_S8x64x64_S8x64x64_2_1_1_2_0_0.lhsIdx (ix3 pp t d)
      ((contrEquiv1 _ 64 rfl rfl).symm s) = ix3 pp t s := by
    funext ax; apply Fin.ext
    match ax with
    | ⟨0, _⟩ => simp [DotDims.lhsIdx, dot_S8x64x64_S8x64x64_S8x64x64_2_1_1_2_0_0]; rfl
    | ⟨1, _⟩ => simp [DotDims.lhsIdx, dot_S8x64x64_S8x64x64_S8x64x64_2_1_1_2_0_0]; rfl
    | ⟨2, _⟩ => simp [DotDims.lhsIdx, dot_S8x64x64_S8x64x64_S8x64x64_2_1_1_2_0_0]; exact c3
  have r3 : dot_S8x64x64_S8x64x64_S8x64x64_2_1_1_2_0_0.rhsIdx (ix3 pp t d)
      ((contrEquiv1 _ 64 rfl rfl).symm s) = ix3 pp s d := by
    funext ax; apply Fin.ext
    match ax with
    | ⟨0, _⟩ => simp [DotDims.rhsIdx, dot_S8x64x64_S8x64x64_S8x64x64_2_1_1_2_0_0]; rfl
    | ⟨1, _⟩ => simp [DotDims.rhsIdx, dot_S8x64x64_S8x64x64_S8x64x64_2_1_1_2_0_0]; exact c3
    | ⟨2, _⟩ => simp [DotDims.rhsIdx, dot_S8x64x64_S8x64x64_S8x64x64_2_1_1_2_0_0]; rfl
  rw [l3, r3]

/-- The fused projection: rows against the [512, 1536] matrix, contracting the 512 features. -/
theorem mm_proj_apply (a : FVec Ideal S512x512 .bf16) (b : FVec Ideal S512x1536 .bf16) (m : Fin 512) (c : Fin 1536) :
    matmul dot_S512x512_S512x1536_S512x1536_1_0_0_1_n_n none a b (constant (F := Ideal) S512x1536 .f32 0x00000000#32) (ix2 m c)
      = ∑ e : Fin 512, a (ix2 m e) * b (ix2 e c) := by
  show FloatOps.matmul _ none a b _ (ix2 m c) = _
  rw [Ideal.matmul_constant_zero_apply,
    ← Equiv.sum_comp (contrEquiv1 dot_S512x512_S512x1536_S512x1536_1_0_0_1_n_n 512 rfl rfl).symm]
  refine Finset.sum_congr rfl fun e _ => ?_
  have c3 := contrEquiv1_symm_val dot_S512x512_S512x1536_S512x1536_1_0_0_1_n_n 512 rfl rfl e
  have l3 : dot_S512x512_S512x1536_S512x1536_1_0_0_1_n_n.lhsIdx (ix2 m c)
      ((contrEquiv1 _ 512 rfl rfl).symm e) = ix2 m e := by
    funext ax; apply Fin.ext
    match ax with
    | ⟨0, _⟩ => simp [DotDims.lhsIdx, dot_S512x512_S512x1536_S512x1536_1_0_0_1_n_n]; rfl
    | ⟨1, _⟩ => simp [DotDims.lhsIdx, dot_S512x512_S512x1536_S512x1536_1_0_0_1_n_n]; exact c3
  have r3 : dot_S512x512_S512x1536_S512x1536_1_0_0_1_n_n.rhsIdx (ix2 m c)
      ((contrEquiv1 _ 512 rfl rfl).symm e) = ix2 e c := by
    funext ax; apply Fin.ext
    match ax with
    | ⟨0, _⟩ => simp [DotDims.rhsIdx, dot_S512x512_S512x1536_S512x1536_1_0_0_1_n_n]; exact c3
    | ⟨1, _⟩ => simp [DotDims.rhsIdx, dot_S512x512_S512x1536_S512x1536_1_0_0_1_n_n]; rfl
  rw [l3, r3]

/-- The output projection: rows against the [512, 512] matrix, contracting the 512 features. -/
theorem mm_out_apply (a : FVec Ideal S512x512 .bf16) (b : FVec Ideal S512x512 .bf16) (m f : Fin 512) :
    matmul dot_S512x512_S512x512_S512x512_1_0_0_1_n_n none a b (constant (F := Ideal) S512x512 .f32 0x00000000#32) (ix2 m f)
      = ∑ e : Fin 512, a (ix2 m e) * b (ix2 e f) := by
  show FloatOps.matmul _ none a b _ (ix2 m f) = _
  rw [Ideal.matmul_constant_zero_apply,
    ← Equiv.sum_comp (contrEquiv1 dot_S512x512_S512x512_S512x512_1_0_0_1_n_n 512 rfl rfl).symm]
  refine Finset.sum_congr rfl fun e _ => ?_
  have c3 := contrEquiv1_symm_val dot_S512x512_S512x512_S512x512_1_0_0_1_n_n 512 rfl rfl e
  have l3 : dot_S512x512_S512x512_S512x512_1_0_0_1_n_n.lhsIdx (ix2 m f)
      ((contrEquiv1 _ 512 rfl rfl).symm e) = ix2 m e := by
    funext ax; apply Fin.ext
    match ax with
    | ⟨0, _⟩ => simp [DotDims.lhsIdx, dot_S512x512_S512x512_S512x512_1_0_0_1_n_n]; rfl
    | ⟨1, _⟩ => simp [DotDims.lhsIdx, dot_S512x512_S512x512_S512x512_1_0_0_1_n_n]; exact c3
  have r3 : dot_S512x512_S512x512_S512x512_1_0_0_1_n_n.rhsIdx (ix2 m f)
      ((contrEquiv1 _ 512 rfl rfl).symm e) = ix2 e f := by
    funext ax; apply Fin.ext
    match ax with
    | ⟨0, _⟩ => simp [DotDims.rhsIdx, dot_S512x512_S512x512_S512x512_1_0_0_1_n_n]; exact c3
    | ⟨1, _⟩ => simp [DotDims.rhsIdx, dot_S512x512_S512x512_S512x512_1_0_0_1_n_n]; rfl
  rw [l3, r3]

end Cert.KernelIdeal.Hand

end
-- ==== Proof.BodyLayout.lean ====
/-
  Layout changes and reductions of the kernel body read at an index given by coordinates: the row maximum and the
  sums along the last axis, the kept unit axis of a reduction and its broadcast back, the transposes between
  [position, column, lane] and [column, position, lane], the reshapes between [rows, features] and
  [position, column, head, lane] (row m = t·8 + p, feature e = h·64 + d), the cut of one head, the eight heads laid
  side by side, and the comparison of the key position against the query position.
-/
import proofs.«145929_j58798102282423_2_alg».proof.Proof.Gen.KernelIdeal.Skeleton
import Idealize.ShloMosaic.Lib.ValueLayout
import Idealize.ShloMosaic.PureOps.Ideal.Laws

set_option pp.maxSteps 5000
set_option pp.deepTerms false

noncomputable section

namespace Cert.KernelIdeal.Hand

open Idealize.ShloMosaic Idealize.ShloMosaic.ValueIdx Cert.KernelIdeal Cert.KernelIdeal.Gen

variable {α : Type}

/-- Row t·8 + p of the [512, 512] arrangement: position `t`, column `p`. -/
def rowIx (t : Fin 64) (p : Fin 8) : Fin 512 := ⟨t.val * 8 + p.val, by omega⟩
/-- Feature h·64 + d: lane `d` of head `h`. -/
def featIx (h : Fin 8) (d : Fin 64) : Fin 512 := ⟨h.val * 64 + d.val, by omega⟩

/-! ## The words −∞ and 1 -/

theorem word_neg_inf : FloatOps.ofBits (F := Ideal) .f32 0xFF800000#32 = (⊥ : EReal) := by
  simp [Ideal.ofBits, Ideal.ieee]
theorem word_one : Ideal.ofBits .f32 0x3F800000#32 = (1 : EReal) := by
  simp [Ideal.ofBits, Ideal.ieee]
  rw [← EReal.coe_mul, ← EReal.coe_one]
  congr 1
  norm_num

/-! ## Reductions along the last axis -/

/-- The maximum over the key positions, from −∞. -/
theorem rowmax_apply (src : FVec Ideal S8x64x64 .f32) (pp : Fin 8) (t : Fin 64) :
    multiReduction (F := Ideal) .maximumf [2] S8x64 src 0xFF800000#32 reduces_S8x64x64_S8x64 (.inl rfl) rfl (ix2 pp t)
      = (Finset.univ : Finset (Fin 64)).fold max ⊥ (fun s => src (ix3 pp t s)) := by
  refine (Ideal.multiReduction_maximumf_single src 0xFF800000#32 reduces_S8x64x64_S8x64 (.inl rfl) rfl (ix2 pp t)).trans ?_
  rw [word_neg_inf]
  have hl : ∀ s : Fin 64, reduces_S8x64x64_S8x64.lift (ix2 pp t) s = ix3 pp t s := fun s => by
    funext ax; apply Fin.ext
    match ax with
    | ⟨0, _⟩ => rfl
    | ⟨1, _⟩ => rfl
    | ⟨2, _⟩ => rfl
  show (Finset.univ : Finset (Fin 64)).fold max ⊥ (fun s => src (reduces_S8x64x64_S8x64.lift (ix2 pp t) s)) = _
  congr 1
  funext s
  exact congrArg src (hl s)

/-- The sum over the key positions. -/
theorem rowsum_apply (p : FVec Ideal S8x64x64 .f32) (pp : Fin 8) (t : Fin 64) :
    multiReduction (F := Ideal) .add [2] S8x64 p 0x00000000#32 reduces_S8x64x64_S8x64 (.inl rfl) rfl (ix2 pp t)
      = ∑ s : Fin 64, p (ix3 pp t s) := by
  refine (Ideal.multiReduction_add_single p 0x00000000#32 reduces_S8x64x64_S8x64 (.inl rfl) rfl (ix2 pp t)).trans ?_
  have hl : ∀ s : Fin 64, reduces_S8x64x64_S8x64.lift (ix2 pp t) s = ix3 pp t s := fun s => by
    funext ax; apply Fin.ext
    match ax with
    | ⟨0, _⟩ => rfl
    | ⟨1, _⟩ => rfl
    | ⟨2, _⟩ => rfl
  show ∑ s : Fin 64, p (reduces_S8x64x64_S8x64.lift (ix2 pp t) s) = _
  exact Finset.sum_congr rfl fun s _ => congrArg p (hl s)

/-- The sum over a row's 512 features. -/
theorem lanesum_apply (y : FVec Ideal S512x512 .f32) (m : Fin 512) :
    multiReduction (F := Ideal) .add [1] S512 y 0x00000000#32 reduces_S512x512_S512 (.inl rfl) rfl (ix1 m)
      = ∑ e : Fin 512, y (ix2 m e) := by
  refine (Ideal.multiReduction_add_single y 0x00000000#32 reduces_S512x512_S512 (.inl rfl) rfl (ix1 m)).trans ?_
  have hl : ∀ e : Fin 512, reduces_S512x512_S512.lift (ix1 m) e = ix2 m e := fun e => by
    funext ax; apply Fin.ext
    match ax with
    | ⟨0, _⟩ => rfl
    | ⟨1, _⟩ => rfl
  show ∑ e : Fin 512, y (reduces_S512x512_S512.lift (ix1 m) e) = _
  exact Finset.sum_congr rfl fun e _ => congrArg y (hl e)

/-! ## A reduced axis kept as a unit axis, and broadcast back -/

theorem keep_col_apply (v : (S8x64).Idx → α) (pp : Fin 8) (t : Fin 64) (u : Fin 1) :
    shapeCast S8x64x1 v shapeCasts_S8x64_S8x64x1 (ix3 pp t u) = v (ix2 pp t) :=
  shapeCast_apply v _ _ _ (by
    have hu : u.val = 0 := by omega
    rw [Shape.rowMajor_val_two, Shape.rowMajor_val_three]
    show pp.val * 64 + t.val = (pp.val * 64 + t.val) * 1 + u.val
    omega)

theorem bcast_col_apply (w : (S8x64x1).Idx → α) (pp : Fin 8) (t s : Fin 64) :
    broadcastTo S8x64x64 w broadcasts_S8x64x1_S8x64x64 (ix3 pp t s) = w (ix3 pp t (0 : Fin 1)) :=
  broadcastTo_apply w _ _ _ fun ax => by
    match ax with
    | ⟨0, _⟩ => rfl
    | ⟨1, _⟩ => rfl
    | ⟨2, _⟩ => rfl

theorem keep_row_apply (v : (S512).Idx → α) (m : Fin 512) (u : Fin 1) :
    shapeCast S512x1 v shapeCasts_S512_S512x1 (ix2 m u) = v (ix1 m) :=
  shapeCast_apply v _ _ _ (by
    have hu : u.val = 0 := by omega
    rw [Shape.rowMajor_val_one, Shape.rowMajor_val_two]
    show m.val = m.val * 1 + u.val
    omega)

theorem bcast_row_apply (w : (S512x1).Idx → α) (m f : Fin 512) :
    broadcastTo S512x512 w broadcasts_S512x1_S512x512 (ix2 m f) = w (ix2 m (0 : Fin 1)) :=
  broadcastTo_apply w _ _ _ fun ax => by
    match ax with
    | ⟨0, _⟩ => rfl
    | ⟨1, _⟩ => rfl

/-- A vector over the features laid along every row. -/
theorem vec_row_apply (v : (S512).Idx → α) (m f : Fin 512) :
    broadcastTo S512x512 (shapeCast S1x512 v shapeCasts_S512_S1x512) broadcasts_S1x512_S512x512 (ix2 m f) = v (ix1 f) := by
  rw [broadcastTo_1b_ab_apply, shapeCast_a_1a_apply]

/-- The fused bias laid along every row. -/
theorem bias_row_apply (v : (S1536).Idx → α) (m : Fin 512) (c : Fin 1536) :
    broadcastTo S512x1536 (shapeCast S1x1536 (shapeCast S1536 v shapeCasts_S1536_S1536) shapeCasts_S1536_S1x1536)
      broadcasts_S1x1536_S512x1536 (ix2 m c) = v (ix1 c) := by
  rw [broadcastTo_1b_ab_apply, shapeCast_a_1a_apply, shapeCast_self]

/-! ## Transposes -/

theorem tr_in_apply (x : (S64x8x64).Idx → α) (pp : Fin 8) (t d : Fin 64) :
    transpose S8x64x64 [1, 0, 2] x transposes_S64x8x64_p1_0_2_S8x64x64 (ix3 pp t d) = x (ix3 t pp d) :=
  transpose_apply _ x _ _ _ fun c => match c with | ⟨0, _⟩ => rfl | ⟨1, _⟩ => rfl | ⟨2, _⟩ => rfl

theorem tr_out_apply (x : (S8x64x64).Idx → α) (t : Fin 64) (pp : Fin 8) (d : Fin 64) :
    transpose S64x8x64 [1, 0, 2] x transposes_S8x64x64_p1_0_2_S64x8x64 (ix3 t pp d) = x (ix3 pp t d) :=
  transpose_apply _ x _ _ _ fun c => match c with | ⟨0, _⟩ => rfl | ⟨1, _⟩ => rfl | ⟨2, _⟩ => rfl

/-! ## Reshapes -/

theorem drop_unit_apply (x : (S64x8x1x64).Idx → α) (t : Fin 64) (pp : Fin 8) (d : Fin 64) :
    shapeCast S64x8x64 x shapeCasts_S64x8x1x64_S64x8x64 (ix3 t pp d) = x (ix4 t pp (0 : Fin 1) d) :=
  shapeCast_apply x _ _ _ (by
    rw [Shape.rowMajor_val_four, Shape.rowMajor_val_three]
    show ((t.val * 8 + pp.val) * 1 + 0) * 64 + d.val = (t.val * 8 + pp.val) * 64 + d.val
    omega)

/-- [rows, features] as [position, column, head, lane]. -/
theorem split_heads_apply (x : (S512x512).Idx → α) (t : Fin 64) (pp h : Fin 8) (d : Fin 64) :
    shapeCast S64x8x8x64 x shapeCasts_S512x512_S64x8x8x64 (ix4 t pp h d) = x (ix2 (rowIx t pp) (featIx h d)) :=
  shapeCast_apply x _ _ _ (by
    rw [Shape.rowMajor_val_two, Shape.rowMajor_val_four]
    show (t.val * 8 + pp.val) * 512 + (h.val * 64 + d.val) = ((t.val * 8 + pp.val) * 8 + h.val) * 64 + d.val
    omega)

/-- The activations' block as [rows, features]. -/
theorem rows_apply (x0 : (S1x64x8x512).Idx → α) (t : Fin 64) (pp : Fin 8) (e : Fin 512) :
    shapeCast S512x512 (shapeCast S64x8x512 x0 shapeCasts_S1x64x8x512_S64x8x512) shapeCasts_S64x8x512_S512x512
      (ix2 (rowIx t pp) e) = x0 (ix4 (0 : Fin 1) t pp e) := by
  refine (shapeCast_apply _ _ _ (ix3 t pp e) (by
    rw [Shape.rowMajor_val_three, Shape.rowMajor_val_two]
    show (t.val * 8 + pp.val) * 512 + e.val = (t.val * 8 + pp.val) * 512 + e.val
    rfl)).trans ?_
  exact shapeCast_1abc_abc_apply _ _ t pp e

/-- [rows, features] back as the block. -/
theorem unrows_apply (y : (S512x512).Idx → α) (u : Fin 1) (t : Fin 64) (pp : Fin 8) (f : Fin 512) :
    shapeCast S1x64x8x512 (shapeCast S64x8x512 y shapeCasts_S512x512_S64x8x512) shapeCasts_S64x8x512_S1x64x8x512
      (ix4 u t pp f) = y (ix2 (rowIx t pp) f) := by
  refine (shapeCast_abc_1abc_apply _ _ u t pp f).trans ?_
  exact shapeCast_apply _ _ _ _ (by
    rw [Shape.rowMajor_val_three, Shape.rowMajor_val_two]
    show (t.val * 8 + pp.val) * 512 + f.val = (t.val * 8 + pp.val) * 512 + f.val
    rfl)

/-- The heads' outputs [position, column, features] as [rows, features]. -/
theorem merge_rows_apply (o : (S64x8x512).Idx → α) (t : Fin 64) (pp : Fin 8) (e : Fin 512) :
    shapeCast S512x512 o shapeCasts_S64x8x512_S512x512 (ix2 (rowIx t pp) e) = o (ix3 t pp e) :=
  shapeCast_apply _ _ _ _ (by
    rw [Shape.rowMajor_val_three, Shape.rowMajor_val_two]
    show (t.val * 8 + pp.val) * 512 + e.val = (t.val * 8 + pp.val) * 512 + e.val
    rfl)

/-! ## The comparison of the key position against the query position -/

theorem sgt_lane (t s : Fin 64) :
    IntOp.cmpi .sgt (BitVec.ofNat 32 s.val) (BitVec.ofNat 32 t.val) = if t < s then 1#1 else 0#1 := by
  revert t s; decide +kernel

end Cert.KernelIdeal.Hand

end
-- ==== Proof.BodyAttn.lean ====
/-
  One head of the attention read at an index: position t, column p, lane d of the head's output is the
  specification's `headOut` at the kernel's spellings, of the head's three slices read at column p.
-/
import proofs.«145929_j58798102282423_2_alg».proof.Proof.BodyHeads
import proofs.«145929_j58798102282423_2_alg».proof.Proof.BodyOps
import proofs.«145929_j58798102282423_2_alg».proof.Proof.BodyLayout
import proofs.«145929_j58798102282423_2_alg».proof.Proof.SpecIdx

set_option pp.maxSteps 5000
set_option pp.deepTerms false

noncomputable section

namespace Cert.KernelIdeal.Hand

open Idealize.ShloMosaic Idealize.ShloMosaic.ValueIdx Cert.KernelIdeal Cert.KernelIdeal.Gen

open Cert.Spec

/-- The named lower bound is −∞ at the ideal values. -/
theorem neg_big_eq : Named.named (F := Ideal) Cert.KernelIdeal.κ "neg_big" (φ := .f32) 0xFF333332#32 = (⊥ : EReal) :=
  IdealRules.named_const.ideal_named_scalar _ _ _ _ rfl

/-- The mask at (t, s): key position `s` after query position `t`. -/
theorem causal_apply (pp : Fin 8) (t s : Fin 64) : causal (ix3 pp t s) = if t < s then 1#1 else 0#1 := by
  unfold causal
  show IntOp.cmpi .sgt (iota .tc S8x64x64 32 [2] iota_S8x64x64_d2_w32 (ix3 pp t s))
    (iota .tc S8x64x64 32 [1] iota_S8x64x64_d1_w32 (ix3 pp t s)) = _
  rw [iota_single_apply, iota_single_apply]
  exact sgt_lane t s

/-- A select on the mask is the `if` on the two positions. -/
theorem select_causal (a b : FVec Ideal S8x64x64 .f32) (pp : Fin 8) (t s : Fin 64) :
    select causal a b (ix3 pp t s) = if t < s then a (ix3 pp t s) else b (ix3 pp t s) := by
  rw [select_apply, causal_apply]
  by_cases h : t < s
  · rw [if_pos h, if_pos h]; exact select_one _ _
  · rw [if_neg h, if_neg h]; exact select_zero _ _

/-- The scaled score of query `t` against key `s`. -/
theorem scores_apply (qh kh : FVec Ideal S8x64x64 .bf16) (pp : Fin 8) (t s : Fin 64) :
    scores qh kh (ix3 pp t s) = scaleK (∑ d : Fin 64, qh (ix3 pp t d) * kh (ix3 pp s d)) := by
  unfold scores
  rw [mulf_apply, broadcast_apply, mm_qk_apply]
  rfl

/-- The masked scores' row. -/
theorem masked_apply (sc : FVec Ideal S8x64x64 .f32) (pp : Fin 8) (t s : Fin 64) :
    masked sc causal (ix3 pp t s) = maskRow (fun s' => sc (ix3 pp t s')) t s := by
  unfold masked maskRow
  rw [select_causal, broadcast_apply, neg_big_eq]

/-- The unnormalised weight of key `s` for query `t`. -/
theorem weights_apply (sc : FVec Ideal S8x64x64 .f32) (pp : Fin 8) (t s : Fin 64) :
    weights sc causal (masked sc causal) (ix3 pp t s) = wgtK (fun s' => sc (ix3 pp t s')) t s := by
  unfold weights wgtK
  rw [select_causal]
  by_cases h : t < s
  · rw [if_pos h, if_pos h, broadcast_apply]
    exact Ideal.ofBits_zero_f32
  · rw [if_neg h, if_neg h]
    show Ideal.exp (sc (ix3 pp t s) - broadcastTo S8x64x64 (shapeCast S8x64x1
        (multiReduction (F := Ideal) .maximumf [2] S8x64 (masked sc causal) 0xFF800000#32 reduces_S8x64x64_S8x64 (.inl rfl) rfl)
        shapeCasts_S8x64_S8x64x1) broadcasts_S8x64x1_S8x64x64 (ix3 pp t s)) = _
    rw [bcast_col_apply, keep_col_apply, rowmax_apply]
    unfold rowMax
    simp only [masked_apply]

/-- A row's sum of weights. -/
theorem rowSum_apply (p : FVec Ideal S8x64x64 .f32) (pp : Fin 8) (t : Fin 64) (u : Fin 1) :
    rowSum p (ix3 pp t u) = ∑ s : Fin 64, p (ix3 pp t s) := by
  unfold rowSum
  rw [keep_col_apply, rowsum_apply]

/-- The head's output from the weights, their sums and the values. -/
theorem outOf_apply (vh : FVec Ideal S8x64x64 .bf16) (p : FVec Ideal S8x64x64 .f32) (l : FVec Ideal S8x64x1 .f32)
    (t : Fin 64) (pp : Fin 8) (d : Fin 64) :
    outOf vh p l (Scalar.ofBits .f32 0x3F800000#32) (ix3 t pp d)
      = ∑ s : Fin 64, nrmK (p (ix3 pp t s)) (l (ix3 pp t (0 : Fin 1))) * vh (ix3 pp s d) := by
  unfold outOf
  rw [tr_out_apply, mm_pv_apply]
  refine Finset.sum_congr rfl fun s _ => ?_
  rw [truncf_apply, mulf_apply, bcast_col_apply, divf_apply, broadcast_apply]
  show p (ix3 pp t s) * Ideal.div (Ideal.ofBits .f32 0x3F800000#32) (l (ix3 pp t (0 : Fin 1))) * vh (ix3 pp s d) = _
  rw [word_one]
  rfl

/-- THE HEAD AT AN INDEX: the specification's head output at the kernel's spellings, over the three slices' rows of
    column `pp`. -/
theorem attn_apply (qh kh vh : FVec Ideal S8x64x64 .bf16) (t : Fin 64) (pp : Fin 8) (d : Fin 64) :
    attn qh kh vh (ix3 t pp d)
      = ∑ s : Fin 64,
          nrmK (wgtK (fun s' => scaleK (∑ d' : Fin 64, qh (ix3 pp t d') * kh (ix3 pp s' d'))) t s)
            (∑ s'' : Fin 64, wgtK (fun s' => scaleK (∑ d' : Fin 64, qh (ix3 pp t d') * kh (ix3 pp s' d'))) t s'')
          * vh (ix3 pp s d) := by
  unfold attn
  rw [outOf_apply, rowSum_apply]
  simp only [weights_apply, scores_apply]

end Cert.KernelIdeal.Hand

end
-- ==== Proof.BodyMerge.lean ====
/-
  The eight heads' outputs laid side by side, read at an index: feature h·64 + d of row t·8 + p is lane d of head h
  at position t, column p.
-/
import proofs.«145929_j58798102282423_2_alg».proof.Proof.BodyHeads
import proofs.«145929_j58798102282423_2_alg».proof.Proof.BodyLayout

set_option pp.maxSteps 5000
set_option pp.deepTerms false

noncomputable section

namespace Cert.KernelIdeal.Hand

open Idealize.ShloMosaic Idealize.ShloMosaic.ValueIdx Cert.KernelIdeal Cert.KernelIdeal.Gen

theorem mergeHeads_apply (o : Fin 8 → FVec Ideal S64x8x64 .f32) (t : Fin 64) (pp h : Fin 8) (d : Fin 64) :
    mergeHeads (o 0) (o 1) (o 2) (o 3) (o 4) (o 5) (o 6) (o 7) (ix2 (rowIx t pp) (featIx h d)) = o h (ix3 t pp d) := by
  unfold mergeHeads
  rw [merge_rows_apply]
  have hx : ∀ (k : ℕ) (hk : k < 8),
      ([(⟨S64x8x64, o 0⟩ : (s : Shape) × (s.Idx → Ideal .f32)), (⟨S64x8x64, o 1⟩ : (s : Shape) × (s.Idx → Ideal .f32)), (⟨S64x8x64, o 2⟩ : (s : Shape) × (s.Idx → Ideal .f32)), (⟨S64x8x64, o 3⟩ : (s : Shape) × (s.Idx → Ideal .f32)), (⟨S64x8x64, o 4⟩ : (s : Shape) × (s.Idx → Ideal .f32)), (⟨S64x8x64, o 5⟩ : (s : Shape) × (s.Idx → Ideal .f32)), (⟨S64x8x64, o 6⟩ : (s : Shape) × (s.Idx → Ideal .f32)), (⟨S64x8x64, o 7⟩ : (s : Shape) × (s.Idx → Ideal .f32))])[k]'hk = ⟨S64x8x64, o ⟨k, hk⟩⟩ := by
    intro k hk
    interval_cases k <;> rfl
  have hpre : ∀ (k : ℕ), k < 8 →
      (((([(⟨S64x8x64, o 0⟩ : (s : Shape) × (s.Idx → Ideal .f32)), (⟨S64x8x64, o 1⟩ : (s : Shape) × (s.Idx → Ideal .f32)), (⟨S64x8x64, o 2⟩ : (s : Shape) × (s.Idx → Ideal .f32)), (⟨S64x8x64, o 3⟩ : (s : Shape) × (s.Idx → Ideal .f32)), (⟨S64x8x64, o 4⟩ : (s : Shape) × (s.Idx → Ideal .f32)), (⟨S64x8x64, o 5⟩ : (s : Shape) × (s.Idx → Ideal .f32)), (⟨S64x8x64, o 6⟩ : (s : Shape) × (s.Idx → Ideal .f32)), (⟨S64x8x64, o 7⟩ : (s : Shape) × (s.Idx → Ideal .f32))]).take k).map (·.1)).map
        fun s => if h : s.rank = S64x8x512.rank then s.size ((2 : Fin S64x8x512.rank).cast h.symm) else 0).sum = 64 * k := by
    intro k hk
    interval_cases k <;> rfl
  refine concatenate_apply_piece (2 : Fin S64x8x512.rank)
    ([(⟨S64x8x64, o 0⟩ : (s : Shape) × (s.Idx → Ideal .f32)), (⟨S64x8x64, o 1⟩ : (s : Shape) × (s.Idx → Ideal .f32)), (⟨S64x8x64, o 2⟩ : (s : Shape) × (s.Idx → Ideal .f32)), (⟨S64x8x64, o 3⟩ : (s : Shape) × (s.Idx → Ideal .f32)), (⟨S64x8x64, o 4⟩ : (s : Shape) × (s.Idx → Ideal .f32)), (⟨S64x8x64, o 5⟩ : (s : Shape) × (s.Idx → Ideal .f32)), (⟨S64x8x64, o 6⟩ : (s : Shape) × (s.Idx → Ideal .f32)), (⟨S64x8x64, o 7⟩ : (s : Shape) × (s.Idx → Ideal .f32))]) _ (ix3 t pp (featIx h d)) h.val h.isLt S64x8x64 (o h)
    (hx h.val h.isLt) rfl (64 * h.val) (hpre h.val h.isLt) (ix3 t pp d) ?_ ?_
  · intro b hb
    match b with
    | ⟨0, _⟩ => rfl
    | ⟨1, _⟩ => rfl
    | ⟨2, _⟩ => exact absurd rfl hb
  · show 64 * h.val + d.val = h.val * 64 + d.val
    omega

end Cert.KernelIdeal.Hand

end
-- ==== Proof.BodyProj.lean ====
/-
  The three projections read at an index: position t, column p, head h, lane d of the j-th slice of the fused
  projection is the specification's projection of column p by the j-th matrix and bias, at feature h·64 + d.
-/
import proofs.«145929_j58798102282423_2_alg».proof.Proof.BodyHeads
import proofs.«145929_j58798102282423_2_alg».proof.Proof.BodyOps
import proofs.«145929_j58798102282423_2_alg».proof.Proof.BodyLayout
import proofs.«145929_j58798102282423_2_alg».proof.Proof.SpecIdx

set_option pp.maxSteps 5000
set_option pp.deepTerms false

noncomputable section

namespace Cert.KernelIdeal.Hand

open Idealize.ShloMosaic Idealize.ShloMosaic.ValueIdx Cert.KernelIdeal Cert.KernelIdeal.Gen

open Cert.Spec

/-- The fused projection at row t·8 + p and fused feature c. -/
theorem pay3_apply (x0 : Vec Ideal S1x64x8x512 .f32) (x1 : Vec Ideal S512x1536 .bf16) (x2 : Vec Ideal S1536 .f32)
    (t : Fin 64) (pp : Fin 8) (c : Fin 1536) :
    k0_pay3 x0 x1 x2 (ix2 (rowIx t pp) c) = (∑ e : Fin 512, colOfBlock (φ := .f32) x0 pp t e * x1 (ix2 e c)) + x2 (ix1 c) := by
  rw [pay3_eq]
  unfold fusedProj
  rw [addf_apply, mm_proj_apply, bias_row_apply]
  simp only [truncf_apply, shapeCast_self, pay2_eq, rows_apply]
  rfl

theorem pay4_apply (x0 : Vec Ideal S1x64x8x512 .f32) (x1 : Vec Ideal S512x1536 .bf16) (x2 : Vec Ideal S1536 .f32)
    (t : Fin 64) (pp h : Fin 8) (d : Fin 64) :
    k0_pay4 x0 x1 x2 (ix4 t pp h d)
      = proj (colOfBlock (φ := .f32) x0 pp) (matPart (φ := .bf16) 0 x1) (rowPart (φ := .f32) 0 x2) t (hd h d) := by
  rw [pay4_eq, split_heads_apply, slice2_axis1_eq, pay3_apply]
  unfold proj matPart rowPart
  exact congrArg (fun c : Fin 1536 => (∑ e : Fin 512, colOfBlock (φ := .f32) x0 pp t e * x1 (ix2 e c)) + x2 (ix1 c))
    (Fin.ext (by show 0 + (h.val * 64 + d.val) = 0 * 512 + (h.val * 64 + d.val); omega))

theorem pay5_apply (x0 : Vec Ideal S1x64x8x512 .f32) (x1 : Vec Ideal S512x1536 .bf16) (x2 : Vec Ideal S1536 .f32)
    (t : Fin 64) (pp h : Fin 8) (d : Fin 64) :
    k0_pay5 x0 x1 x2 (ix4 t pp h d)
      = proj (colOfBlock (φ := .f32) x0 pp) (matPart (φ := .bf16) 1 x1) (rowPart (φ := .f32) 1 x2) t (hd h d) := by
  rw [pay5_eq, split_heads_apply, slice2_axis1_eq, pay3_apply]
  unfold proj matPart rowPart
  exact congrArg (fun c : Fin 1536 => (∑ e : Fin 512, colOfBlock (φ := .f32) x0 pp t e * x1 (ix2 e c)) + x2 (ix1 c))
    (Fin.ext (by show 512 + (h.val * 64 + d.val) = 1 * 512 + (h.val * 64 + d.val); omega))

theorem pay6_apply (x0 : Vec Ideal S1x64x8x512 .f32) (x1 : Vec Ideal S512x1536 .bf16) (x2 : Vec Ideal S1536 .f32)
    (t : Fin 64) (pp h : Fin 8) (d : Fin 64) :
    k0_pay6 x0 x1 x2 (ix4 t pp h d)
      = proj (colOfBlock (φ := .f32) x0 pp) (matPart (φ := .bf16) 2 x1) (rowPart (φ := .f32) 2 x2) t (hd h d) := by
  rw [pay6_eq, split_heads_apply, slice2_axis1_eq, pay3_apply]
  unfold proj matPart rowPart
  exact congrArg (fun c : Fin 1536 => (∑ e : Fin 512, colOfBlock (φ := .f32) x0 pp t e * x1 (ix2 e c)) + x2 (ix1 c))
    (Fin.ext (by show 1024 + (h.val * 64 + d.val) = 2 * 512 + (h.val * 64 + d.val); omega))

end Cert.KernelIdeal.Hand

end
-- ==== Proof.BodyTail.lean ====
/-
  The end of the body read at an index: the residual sum, and the normalisation of a row.
-/
import proofs.«145929_j58798102282423_2_alg».proof.Proof.BodyHeads
import proofs.«145929_j58798102282423_2_alg».proof.Proof.BodyOps
import proofs.«145929_j58798102282423_2_alg».proof.Proof.BodyLayout
import proofs.«145929_j58798102282423_2_alg».proof.Proof.SpecIdx

set_option pp.maxSteps 5000
set_option pp.deepTerms false

noncomputable section

namespace Cert.KernelIdeal.Hand

open Idealize.ShloMosaic Idealize.ShloMosaic.ValueIdx Cert.KernelIdeal Cert.KernelIdeal.Gen

open Cert.Spec

theorem rsqrt_apply {s : Shape} {φ : FTy} (v : FVec Ideal s φ) (i : s.Idx) : rsqrt v i = Ideal.rsqrt (v i) := rfl

/-- The residual sum at row m, feature f: the row's own entry plus the output projection of the merged heads. -/
theorem residual_apply (x2d o : FVec Ideal S512x512 .f32) (x3 : FVec Ideal S512x512 .bf16) (x4 : FVec Ideal S512 .f32)
    (m f : Fin 512) :
    residual x2d o x3 x4 (ix2 m f)
      = x2d (ix2 m f) + ((∑ e : Fin 512, o (ix2 m e) * matT x3 f e) + rowOf x4 f) := by
  unfold residual
  rw [addf_apply, addf_apply, mm_out_apply, vec_row_apply]
  simp only [truncf_apply, shapeCast_self]
  rfl

/-- The normalisation's core at row m, feature f, and with the scale and shift the specification's `lnRow` of the row. -/
theorem norm_apply (y : FVec Ideal S512x512 .f32) (g b : FVec Ideal S512 .f32) (m f : Fin 512) :
    normCore y (ix2 m f) * rowOf g f + rowOf b f = lnRow (rowOf g) (rowOf b) (fun e => y (ix2 m e)) f := by
  unfold normCore lnRow
  simp only [rsqrt_apply, mulf_apply, subf_apply, addf_apply, divf_apply, bcast_row_apply, keep_row_apply, broadcast_apply]
  rw [lanesum_apply y m, lanesum_apply]
  simp only [mulf_apply, subf_apply, divf_apply, bcast_row_apply, keep_row_apply, broadcast_apply]
  rw [lanesum_apply y m]
  rfl

end Cert.KernelIdeal.Hand

end
-- ==== Proof.BodyValue.lean ====
/-
  The kernel body's stored value read at an index: the eight heads over the three projections, merged, projected,
  added to the rows and normalised, is the specification's column result at the kernel's spellings.
-/
import proofs.«145929_j58798102282423_2_alg».proof.Proof.BodyAttn
import proofs.«145929_j58798102282423_2_alg».proof.Proof.BodyMerge
import proofs.«145929_j58798102282423_2_alg».proof.Proof.BodyProj
import proofs.«145929_j58798102282423_2_alg».proof.Proof.BodyTail

set_option pp.maxSteps 5000
set_option pp.deepTerms false

noncomputable section

namespace Cert.KernelIdeal.Hand

open Idealize.ShloMosaic Idealize.ShloMosaic.ValueIdx Cert.KernelIdeal Cert.KernelIdeal.Gen

open Cert.Spec

/-- Every head's cut lies inside the projections. -/
theorem slicesAll (h : Fin 8) : S64x8x8x64.Slices ![0, 0, h.val, 0] S64x8x1x64 :=
  match h with
  | ⟨0, _⟩ => slices_S64x8x8x64_o0_0_0_0_S64x8x1x64
  | ⟨1, _⟩ => slices_S64x8x8x64_o0_0_1_0_S64x8x1x64
  | ⟨2, _⟩ => slices_S64x8x8x64_o0_0_2_0_S64x8x1x64
  | ⟨3, _⟩ => slices_S64x8x8x64_o0_0_3_0_S64x8x1x64
  | ⟨4, _⟩ => slices_S64x8x8x64_o0_0_4_0_S64x8x1x64
  | ⟨5, _⟩ => slices_S64x8x8x64_o0_0_5_0_S64x8x1x64
  | ⟨6, _⟩ => slices_S64x8x8x64_o0_0_6_0_S64x8x1x64
  | ⟨7, _⟩ => slices_S64x8x8x64_o0_0_7_0_S64x8x1x64

/-- The eight heads as one function of the head's number. -/
def headFn (q3 k3 v3 : FVec Ideal S64x8x8x64 .f32) (h : Fin 8) : FVec Ideal S64x8x64 .f32 :=
  head ![0, 0, h.val, 0] (slicesAll h) q3 k3 v3

/-- One head's slice at column p, position t, lane d is the projection at (t, p, h, d). -/
theorem headSlice_apply (h : Fin 8) (x : FVec Ideal S64x8x8x64 .f32) (pp : Fin 8) (t d : Fin 64) :
    headSlice ![0, 0, h.val, 0] (slicesAll h) x (ix3 pp t d) = x (ix4 t pp h d) := by
  unfold headSlice
  rw [truncf_apply, tr_in_apply, drop_unit_apply, slice4_axis2_eq]
  exact congrArg (fun k : Fin 8 => x (ix4 t pp k d)) (Fin.ext (by show h.val + 0 = h.val; omega))

/-- Head h at position t, column p, lane d. -/
theorem headFn_apply (x0 : Vec Ideal S1x64x8x512 .f32) (x1 : Vec Ideal S512x1536 .bf16) (x2 : Vec Ideal S1536 .f32)
    (h : Fin 8) (t : Fin 64) (pp : Fin 8) (d : Fin 64) :
    headFn (k0_pay4 x0 x1 x2) (k0_pay5 x0 x1 x2) (k0_pay6 x0 x1 x2) h (ix3 t pp d)
      = headOut scaleK wgtK nrmK (proj (colOfBlock (φ := .f32) x0 pp) (matPart (φ := .bf16) 0 x1) (rowPart (φ := .f32) 0 x2)) (proj (colOfBlock (φ := .f32) x0 pp) (matPart (φ := .bf16) 1 x1) (rowPart (φ := .f32) 1 x2)) (proj (colOfBlock (φ := .f32) x0 pp) (matPart (φ := .bf16) 2 x1) (rowPart (φ := .f32) 2 x2)) h t d := by
  unfold headFn head headOut qk
  rw [attn_apply]
  simp only [headSlice_apply, pay4_apply, pay5_apply, pay6_apply]

/-- The merged heads at row t·8 + p, feature e. -/
theorem merge_apply (x0 : Vec Ideal S1x64x8x512 .f32) (x1 : Vec Ideal S512x1536 .bf16) (x2 : Vec Ideal S1536 .f32)
    (t : Fin 64) (pp : Fin 8) (e : Fin 512) :
    mergeHeads
        (head ![0, 0, 0, 0] slices_S64x8x8x64_o0_0_0_0_S64x8x1x64 (k0_pay4 x0 x1 x2) (k0_pay5 x0 x1 x2) (k0_pay6 x0 x1 x2))
        (head ![0, 0, 1, 0] slices_S64x8x8x64_o0_0_1_0_S64x8x1x64 (k0_pay4 x0 x1 x2) (k0_pay5 x0 x1 x2) (k0_pay6 x0 x1 x2))
        (head ![0, 0, 2, 0] slices_S64x8x8x64_o0_0_2_0_S64x8x1x64 (k0_pay4 x0 x1 x2) (k0_pay5 x0 x1 x2) (k0_pay6 x0 x1 x2))
        (head ![0, 0, 3, 0] slices_S64x8x8x64_o0_0_3_0_S64x8x1x64 (k0_pay4 x0 x1 x2) (k0_pay5 x0 x1 x2) (k0_pay6 x0 x1 x2))
        (head ![0, 0, 4, 0] slices_S64x8x8x64_o0_0_4_0_S64x8x1x64 (k0_pay4 x0 x1 x2) (k0_pay5 x0 x1 x2) (k0_pay6 x0 x1 x2))
        (head ![0, 0, 5, 0] slices_S64x8x8x64_o0_0_5_0_S64x8x1x64 (k0_pay4 x0 x1 x2) (k0_pay5 x0 x1 x2) (k0_pay6 x0 x1 x2))
        (head ![0, 0, 6, 0] slices_S64x8x8x64_o0_0_6_0_S64x8x1x64 (k0_pay4 x0 x1 x2) (k0_pay5 x0 x1 x2) (k0_pay6 x0 x1 x2))
        (head ![0, 0, 7, 0] slices_S64x8x8x64_o0_0_7_0_S64x8x1x64 (k0_pay4 x0 x1 x2) (k0_pay5 x0 x1 x2) (k0_pay6 x0 x1 x2))
        (ix2 (rowIx t pp) e)
      = merged (headOut scaleK wgtK nrmK (proj (colOfBlock (φ := .f32) x0 pp) (matPart (φ := .bf16) 0 x1) (rowPart (φ := .f32) 0 x2)) (proj (colOfBlock (φ := .f32) x0 pp) (matPart (φ := .bf16) 1 x1) (rowPart (φ := .f32) 1 x2)) (proj (colOfBlock (φ := .f32) x0 pp) (matPart (φ := .bf16) 2 x1) (rowPart (φ := .f32) 2 x2))) t e := by
  have he : e = featIx (hOf e) (dOf e) := Fin.ext (by show e.val = e.val / 64 * 64 + e.val % 64; omega)
  rw [congrArg (ix2 (rowIx t pp)) he]
  exact (mergeHeads_apply (headFn (k0_pay4 x0 x1 x2) (k0_pay5 x0 x1 x2) (k0_pay6 x0 x1 x2)) t pp (hOf e) (dOf e)).trans
    (headFn_apply x0 x1 x2 (hOf e) t pp (dOf e))

/-- The residual sum over the merged heads at row t·8 + p, feature e. -/
theorem resid_rows_apply (x0 : Vec Ideal S1x64x8x512 .f32) (x1 : Vec Ideal S512x1536 .bf16) (x2 : Vec Ideal S1536 .f32)
    (x3 : FVec Ideal S512x512 .bf16) (x4 : FVec Ideal S512 .f32) (t : Fin 64) (pp : Fin 8) (e : Fin 512) :
    residual (k0_pay2 x0)
        (mergeHeads
          (head ![0, 0, 0, 0] slices_S64x8x8x64_o0_0_0_0_S64x8x1x64 (k0_pay4 x0 x1 x2) (k0_pay5 x0 x1 x2) (k0_pay6 x0 x1 x2))
          (head ![0, 0, 1, 0] slices_S64x8x8x64_o0_0_1_0_S64x8x1x64 (k0_pay4 x0 x1 x2) (k0_pay5 x0 x1 x2) (k0_pay6 x0 x1 x2))
          (head ![0, 0, 2, 0] slices_S64x8x8x64_o0_0_2_0_S64x8x1x64 (k0_pay4 x0 x1 x2) (k0_pay5 x0 x1 x2) (k0_pay6 x0 x1 x2))
          (head ![0, 0, 3, 0] slices_S64x8x8x64_o0_0_3_0_S64x8x1x64 (k0_pay4 x0 x1 x2) (k0_pay5 x0 x1 x2) (k0_pay6 x0 x1 x2))
          (head ![0, 0, 4, 0] slices_S64x8x8x64_o0_0_4_0_S64x8x1x64 (k0_pay4 x0 x1 x2) (k0_pay5 x0 x1 x2) (k0_pay6 x0 x1 x2))
          (head ![0, 0, 5, 0] slices_S64x8x8x64_o0_0_5_0_S64x8x1x64 (k0_pay4 x0 x1 x2) (k0_pay5 x0 x1 x2) (k0_pay6 x0 x1 x2))
          (head ![0, 0, 6, 0] slices_S64x8x8x64_o0_0_6_0_S64x8x1x64 (k0_pay4 x0 x1 x2) (k0_pay5 x0 x1 x2) (k0_pay6 x0 x1 x2))
          (head ![0, 0, 7, 0] slices_S64x8x8x64_o0_0_7_0_S64x8x1x64 (k0_pay4 x0 x1 x2) (k0_pay5 x0 x1 x2) (k0_pay6 x0 x1 x2)))
        x3 x4 (ix2 (rowIx t pp) e)
      = resid (colOfBlock (φ := .f32) x0 pp) (merged (headOut scaleK wgtK nrmK (proj (colOfBlock (φ := .f32) x0 pp) (matPart (φ := .bf16) 0 x1) (rowPart (φ := .f32) 0 x2)) (proj (colOfBlock (φ := .f32) x0 pp) (matPart (φ := .bf16) 1 x1) (rowPart (φ := .f32) 1 x2)) (proj (colOfBlock (φ := .f32) x0 pp) (matPart (φ := .bf16) 2 x1) (rowPart (φ := .f32) 2 x2)))) (matT x3) (rowOf x4) t e := by
  rw [residual_apply, pay2_eq, rows_apply]
  unfold resid
  simp only [merge_apply]
  rfl

/-- THE STORED VALUE AT AN INDEX: position `t`, column `pp`, feature `f` of the block the body stores is the
    specification's column result at the kernel's spellings, of column `pp` of the activations' block and the weights
    read out of the fused arrays. -/
theorem body_apply (x0 : Vec Ideal S1x64x8x512 .f32) (x1 : Vec Ideal S512x1536 .bf16) (x2 : Vec Ideal S1536 .f32)
    (x3 : Vec Ideal S512x512 .bf16) (x4 x5 x6 : Vec Ideal S512 .f32) (t : Fin 64) (pp : Fin 8) (f : Fin 512) :
    body (F := Ideal) x0 x1 x2 x3 x4 x5 x6 (ValueIdx.ix4 (0 : Fin 1) t pp f)
      = Cert.Spec.colRun Cert.Spec.scaleK Cert.Spec.wgtK Cert.Spec.nrmK (Cert.Spec.colOfBlock (φ := .f32) x0 pp)
          (Cert.Spec.matPart (φ := .bf16) 0 x1) (Cert.Spec.rowPart (φ := .f32) 0 x2)
          (Cert.Spec.matPart (φ := .bf16) 1 x1) (Cert.Spec.rowPart (φ := .f32) 1 x2)
          (Cert.Spec.matPart (φ := .bf16) 2 x1) (Cert.Spec.rowPart (φ := .f32) 2 x2)
          (Cert.Spec.matT (φ := .bf16) x3) (Cert.Spec.rowOf (φ := .f32) x4) (Cert.Spec.rowOf (φ := .f32) x5)
          (Cert.Spec.rowOf (φ := .f32) x6) t f := by
  rw [body_eq, pay1_eq, unrows_apply, addf_apply, mulf_apply, pay30_eq, vec_row_apply, vec_row_apply]
  refine (norm_apply _ x5 x6 (rowIx t pp) f).trans ?_
  unfold colRun
  simp only [resid_rows_apply]

end Cert.KernelIdeal.Hand

end
-- ==== Proof.RefStages.lean ====
/-
  The reference program's values, one definition per tensor value it computes, each a single
  operation applied to the values of its operands; `out` composes them into the program's
  result. All at the ideal instance (extended reals, exact arithmetic).
-/
import proofs.«145929_j58798102282423_2_alg».proof.Proof.Gen.ReferenceIdeal
import Idealize.ShloMosaic.PureOps.Ideal

noncomputable section

namespace Cert.ReferenceIdeal.Hand

open Idealize.ShloMosaic Cert.ReferenceIdeal
open Cert.ReferenceIdeal.Facts₀

/-- `%0 = stablehlo.dot_general %arg0, %arg1, contracting_dims = [3] x [1], precision = [DEFAULT, DEFAULT] : (tensor<4x64x256x512xf32>, tensor<512x512xf32>) -> tensor<4x64x256x512xf32>` -/
noncomputable def s_v0 (l : FVec Ideal S4x64x256x512 .f32) (r : FVec Ideal S512x512 .f32) : FVec Ideal S4x64x256x512 .f32 :=
  Host.dotGeneral (F := Ideal) dot_S4x64x256x512_S512x512_S4x64x256x512_3_1_012_0_n_n none l r

/-- `%1 = stablehlo.broadcast_in_dim %arg2, dims = [3] : (tensor<512xf32>) -> tensor<1x1x1x512xf32>` -/
noncomputable def s_v1 (a : FVec Ideal S512 .f32) : FVec Ideal S1x1x1x512 .f32 :=
  broadcastInDim S1x1x1x512 ![3] bcast_S512_S1x1x1x512_3 a

/-- `%2 = stablehlo.broadcast_in_dim %1, dims = [0, 1, 2, 3] : (tensor<1x1x1x512xf32>) -> tensor<4x64x256x512xf32>` -/
noncomputable def s_v2 (a : FVec Ideal S1x1x1x512 .f32) : FVec Ideal S4x64x256x512 .f32 :=
  broadcastInDim S4x64x256x512 ![0, 1, 2, 3] bcast_S1x1x1x512_S4x64x256x512_0_1_2_3 a

/-- `%3 = stablehlo.add %0, %2 : tensor<4x64x256x512xf32>` -/
noncomputable def s_v3 (a : FVec Ideal S4x64x256x512 .f32) (b : FVec Ideal S4x64x256x512 .f32) : FVec Ideal S4x64x256x512 .f32 :=
  addf (F := Ideal) a b

/-- `%4 = stablehlo.reshape %3 : (tensor<4x64x256x512xf32>) -> tensor<4x64x256x8x64xf32>` -/
noncomputable def s_v4 (a : FVec Ideal S4x64x256x512 .f32) : FVec Ideal S4x64x256x8x64 .f32 :=
  shapeCast S4x64x256x8x64 a shapeCasts_S4x64x256x512_S4x64x256x8x64

/-- `%5 = stablehlo.transpose %4, dims = [0, 2, 3, 1, 4] : (tensor<4x64x256x8x64xf32>) -> tensor<4x256x8x64x64xf32>` -/
noncomputable def s_v5 (a : FVec Ideal S4x64x256x8x64 .f32) : FVec Ideal S4x256x8x64x64 .f32 :=
  transpose S4x256x8x64x64 [0, 2, 3, 1, 4] a transposes_S4x64x256x8x64_S4x256x8x64x64_0_2_3_1_4

/-- `%6 = stablehlo.dot_general %arg0, %arg3, contracting_dims = [3] x [1], precision = [DEFAULT, DEFAULT] : (tensor<4x64x256x512xf32>, tensor<512x512xf32>) -> tensor<4x64x256x512xf32>` -/
noncomputable def s_v6 (l : FVec Ideal S4x64x256x512 .f32) (r : FVec Ideal S512x512 .f32) : FVec Ideal S4x64x256x512 .f32 :=
  Host.dotGeneral (F := Ideal) dot_S4x64x256x512_S512x512_S4x64x256x512_3_1_012_0_n_n none l r

/-- `%7 = stablehlo.broadcast_in_dim %arg4, dims = [3] : (tensor<512xf32>) -> tensor<1x1x1x512xf32>` -/
noncomputable def s_v7 (a : FVec Ideal S512 .f32) : FVec Ideal S1x1x1x512 .f32 :=
  broadcastInDim S1x1x1x512 ![3] bcast_S512_S1x1x1x512_3 a

/-- `%8 = stablehlo.broadcast_in_dim %7, dims = [0, 1, 2, 3] : (tensor<1x1x1x512xf32>) -> tensor<4x64x256x512xf32>` -/
noncomputable def s_v8 (a : FVec Ideal S1x1x1x512 .f32) : FVec Ideal S4x64x256x512 .f32 :=
  broadcastInDim S4x64x256x512 ![0, 1, 2, 3] bcast_S1x1x1x512_S4x64x256x512_0_1_2_3 a

/-- `%9 = stablehlo.add %6, %8 : tensor<4x64x256x512xf32>` -/
noncomputable def s_v9 (a : FVec Ideal S4x64x256x512 .f32) (b : FVec Ideal S4x64x256x512 .f32) : FVec Ideal S4x64x256x512 .f32 :=
  addf (F := Ideal) a b

/-- `%10 = stablehlo.reshape %9 : (tensor<4x64x256x512xf32>) -> tensor<4x64x256x8x64xf32>` -/
noncomputable def s_v10 (a : FVec Ideal S4x64x256x512 .f32) : FVec Ideal S4x64x256x8x64 .f32 :=
  shapeCast S4x64x256x8x64 a shapeCasts_S4x64x256x512_S4x64x256x8x64

/-- `%11 = stablehlo.transpose %10, dims = [0, 2, 3, 1, 4] : (tensor<4x64x256x8x64xf32>) -> tensor<4x256x8x64x64xf32>` -/
noncomputable def s_v11 (a : FVec Ideal S4x64x256x8x64 .f32) : FVec Ideal S4x256x8x64x64 .f32 :=
  transpose S4x256x8x64x64 [0, 2, 3, 1, 4] a transposes_S4x64x256x8x64_S4x256x8x64x64_0_2_3_1_4

/-- `%12 = stablehlo.dot_general %arg0, %arg5, contracting_dims = [3] x [1], precision = [DEFAULT, DEFAULT] : (tensor<4x64x256x512xf32>, tensor<512x512xf32>) -> tensor<4x64x256x512xf32>` -/
noncomputable def s_v12 (l : FVec Ideal S4x64x256x512 .f32) (r : FVec Ideal S512x512 .f32) : FVec Ideal S4x64x256x512 .f32 :=
  Host.dotGeneral (F := Ideal) dot_S4x64x256x512_S512x512_S4x64x256x512_3_1_012_0_n_n none l r

/-- `%13 = stablehlo.broadcast_in_dim %arg6, dims = [3] : (tensor<512xf32>) -> tensor<1x1x1x512xf32>` -/
noncomputable def s_v13 (a : FVec Ideal S512 .f32) : FVec Ideal S1x1x1x512 .f32 :=
  broadcastInDim S1x1x1x512 ![3] bcast_S512_S1x1x1x512_3 a

/-- `%14 = stablehlo.broadcast_in_dim %13, dims = [0, 1, 2, 3] : (tensor<1x1x1x512xf32>) -> tensor<4x64x256x512xf32>` -/
noncomputable def s_v14 (a : FVec Ideal S1x1x1x512 .f32) : FVec Ideal S4x64x256x512 .f32 :=
  broadcastInDim S4x64x256x512 ![0, 1, 2, 3] bcast_S1x1x1x512_S4x64x256x512_0_1_2_3 a

/-- `%15 = stablehlo.add %12, %14 : tensor<4x64x256x512xf32>` -/
noncomputable def s_v15 (a : FVec Ideal S4x64x256x512 .f32) (b : FVec Ideal S4x64x256x512 .f32) : FVec Ideal S4x64x256x512 .f32 :=
  addf (F := Ideal) a b

/-- `%16 = stablehlo.reshape %15 : (tensor<4x64x256x512xf32>) -> tensor<4x64x256x8x64xf32>` -/
noncomputable def s_v16 (a : FVec Ideal S4x64x256x512 .f32) : FVec Ideal S4x64x256x8x64 .f32 :=
  shapeCast S4x64x256x8x64 a shapeCasts_S4x64x256x512_S4x64x256x8x64

/-- `%17 = stablehlo.transpose %16, dims = [0, 2, 3, 1, 4] : (tensor<4x64x256x8x64xf32>) -> tensor<4x256x8x64x64xf32>` -/
noncomputable def s_v17 (a : FVec Ideal S4x64x256x8x64 .f32) : FVec Ideal S4x256x8x64x64 .f32 :=
  transpose S4x256x8x64x64 [0, 2, 3, 1, 4] a transposes_S4x64x256x8x64_S4x256x8x64x64_0_2_3_1_4

/-- `%18 = stablehlo.dot_general %5, %11, batching_dims = [0, 1, 2] x [0, 1, 2], contracting_dims = [4] x [4], precision = [DEFAULT, DEFAULT] : (tensor<4x256x8x64x64xf32>, tensor<4x256x8x64x64xf32>) -> tensor<4x256x8x64x64xf32>` -/
noncomputable def s_v18 (l : FVec Ideal S4x256x8x64x64 .f32) (r : FVec Ideal S4x256x8x64x64 .f32) : FVec Ideal S4x256x8x64x64 .f32 :=
  Host.dotGeneral (F := Ideal) dot_S4x256x8x64x64_S4x256x8x64x64_S4x256x8x64x64_4_4_3_3_012_012 none l r

/-- `%cst = stablehlo.constant dense<8.000000e+00> : tensor<f32>` -/
noncomputable def s_cst : FVec Ideal S_ .f32 :=
  constant (F := Ideal) S_ .f32 0x41000000#32

/-- `%19 = stablehlo.broadcast_in_dim %cst, dims = [] : (tensor<f32>) -> tensor<4x256x8x64x64xf32>` -/
noncomputable def s_v19 (a : FVec Ideal S_ .f32) : FVec Ideal S4x256x8x64x64 .f32 :=
  broadcastInDim S4x256x8x64x64 ![] bcast_S_S4x256x8x64x64 a

/-- `%20 = stablehlo.divide %18, %19 : tensor<4x256x8x64x64xf32>` -/
noncomputable def s_v20 (a : FVec Ideal S4x256x8x64x64 .f32) (b : FVec Ideal S4x256x8x64x64 .f32) : FVec Ideal S4x256x8x64x64 .f32 :=
  Host.divf (F := Ideal) a b

/-- `%c = stablehlo.constant dense<true> : tensor<i1>` -/
noncomputable def s_c : IVec S_ 1 :=
  constantI S_ 1 1#1

/-- `%21 = stablehlo.broadcast_in_dim %c, dims = [] : (tensor<i1>) -> tensor<64x64xi1>` -/
noncomputable def s_v21 (a : IVec S_ 1) : IVec S64x64 1 :=
  broadcastInDim S64x64 ![] bcast_S_S64x64 a

/-- `%0 = stablehlo.iota dim = 0 : tensor<64x64xi32>` -/
noncomputable def s_call0_v0 : IVec S64x64 32 :=
  iotaInDim S64x64 32 0

/-- `%c = stablehlo.constant dense<0> : tensor<i32>` -/
noncomputable def s_call0_c : IVec S_ 32 :=
  constantI S_ 32 0#32

/-- `%1 = stablehlo.broadcast_in_dim %c, dims = [] : (tensor<i32>) -> tensor<64x64xi32>` -/
noncomputable def s_call0_v1 (a : IVec S_ 32) : IVec S64x64 32 :=
  broadcastInDim S64x64 ![] bcast_S_S64x64 a

/-- `%2 = stablehlo.add %0, %1 : tensor<64x64xi32>` -/
noncomputable def s_call0_v2 (a : IVec S64x64 32) (b : IVec S64x64 32) : IVec S64x64 32 :=
  addi a b

/-- `%3 = stablehlo.iota dim = 1 : tensor<64x64xi32>` -/
noncomputable def s_call0_v3 : IVec S64x64 32 :=
  iotaInDim S64x64 32 1

/-- `%4 = stablehlo.compare GE, %2, %3, SIGNED : (tensor<64x64xi32>, tensor<64x64xi32>) -> tensor<64x64xi1>` -/
noncomputable def s_call0_v4 (a : IVec S64x64 32) (b : IVec S64x64 32) : IVec S64x64 1 :=
  cmpi .sge a b

/-- `%c_0 = stablehlo.constant dense<false> : tensor<i1>` -/
noncomputable def s_call0_c_0 : IVec S_ 1 :=
  constantI S_ 1 0#1

/-- `%5 = stablehlo.broadcast_in_dim %c_0, dims = [] : (tensor<i1>) -> tensor<64x64xi1>` -/
noncomputable def s_call0_v5 (a : IVec S_ 1) : IVec S64x64 1 :=
  broadcastInDim S64x64 ![] bcast_S_S64x64 a

/-- `%6 = stablehlo.select %4, %5, %arg0 : tensor<64x64xi1>, tensor<64x64xi1>` -/
noncomputable def s_v22 (c : IVec S64x64 1) (a : IVec S64x64 1) (b : IVec S64x64 1) : IVec S64x64 1 :=
  select c a b

/-- `%cst_0 = stablehlo.constant dense<0xFF800000> : tensor<f32>` -/
noncomputable def s_cst_0 : FVec Ideal S_ .f32 :=
  constant (F := Ideal) S_ .f32 0xFF800000#32

/-- `%0 = stablehlo.convert %arg1 : tensor<f32>` -/
noncomputable def s_call1_v0 (a : FVec Ideal S_ .f32) : FVec Ideal S_ .f32 :=
  id a

/-- `%1 = stablehlo.broadcast_in_dim %arg0, dims = [3, 4] : (tensor<64x64xi1>) -> tensor<4x256x8x64x64xi1>` -/
noncomputable def s_call1_v1 (a : IVec S64x64 1) : IVec S4x256x8x64x64 1 :=
  broadcastInDim S4x256x8x64x64 ![3, 4] bcast_S64x64_S4x256x8x64x64_3_4 a

/-- `%2 = stablehlo.broadcast_in_dim %0, dims = [] : (tensor<f32>) -> tensor<4x256x8x64x64xf32>` -/
noncomputable def s_call1_v2 (a : FVec Ideal S_ .f32) : FVec Ideal S4x256x8x64x64 .f32 :=
  broadcastInDim S4x256x8x64x64 ![] bcast_S_S4x256x8x64x64 a

/-- `%3 = stablehlo.select %1, %2, %arg2 : tensor<4x256x8x64x64xi1>, tensor<4x256x8x64x64xf32>` -/
noncomputable def s_v23 (c : IVec S4x256x8x64x64 1) (a : FVec Ideal S4x256x8x64x64 .f32) (b : FVec Ideal S4x256x8x64x64 .f32) : FVec Ideal S4x256x8x64x64 .f32 :=
  select c a b

/-- `%cst_1 = stablehlo.constant dense<0xFF800000> : tensor<f32>` -/
noncomputable def s_cst_1 : FVec Ideal S_ .f32 :=
  constant (F := Ideal) S_ .f32 0xFF800000#32

/-- `%24 = stablehlo.reduce(%23 init: %cst_1) applies stablehlo.maximum across dimensions = [4] : (tensor<4x256x8x64x64xf32>, tensor<f32>) -> tensor<4x256x8x64xf32> {` -/
noncomputable def s_v24 (x : FVec Ideal S4x256x8x64x64 .f32) (v : FVec Ideal S_ .f32) : FVec Ideal S4x256x8x64 .f32 :=
  Host.reduce (FloatOps.maximumf (F := Ideal) (φ := .f32)) x v reducesTo_S4x256x8x64x64_S4x256x8x64_d4 h_S_

/-- `%cst_2 = stablehlo.constant dense<0xFF800000> : tensor<f32>` -/
noncomputable def s_cst_2 : FVec Ideal S_ .f32 :=
  constant (F := Ideal) S_ .f32 0xFF800000#32

/-- `%25 = stablehlo.broadcast_in_dim %cst_2, dims = [] : (tensor<f32>) -> tensor<4x256x8x64xf32>` -/
noncomputable def s_v25 (a : FVec Ideal S_ .f32) : FVec Ideal S4x256x8x64 .f32 :=
  broadcastInDim S4x256x8x64 ![] bcast_S_S4x256x8x64 a

/-- `%26 = stablehlo.maximum %25, %24 : tensor<4x256x8x64xf32>` -/
noncomputable def s_v26 (a : FVec Ideal S4x256x8x64 .f32) (b : FVec Ideal S4x256x8x64 .f32) : FVec Ideal S4x256x8x64 .f32 :=
  maximumf (F := Ideal) a b

/-- `%27 = stablehlo.broadcast_in_dim %26, dims = [0, 1, 2, 3] : (tensor<4x256x8x64xf32>) -> tensor<4x256x8x64x1xf32>` -/
noncomputable def s_v27 (a : FVec Ideal S4x256x8x64 .f32) : FVec Ideal S4x256x8x64x1 .f32 :=
  broadcastInDim S4x256x8x64x1 ![0, 1, 2, 3] bcast_S4x256x8x64_S4x256x8x64x1_0_1_2_3 a

/-- `%28 = stablehlo.broadcast_in_dim %27, dims = [0, 1, 2, 3, 4] : (tensor<4x256x8x64x1xf32>) -> tensor<4x256x8x64x64xf32>` -/
noncomputable def s_v28 (a : FVec Ideal S4x256x8x64x1 .f32) : FVec Ideal S4x256x8x64x64 .f32 :=
  broadcastInDim S4x256x8x64x64 ![0, 1, 2, 3, 4] bcast_S4x256x8x64x1_S4x256x8x64x64_0_1_2_3_4 a

/-- `%29 = stablehlo.subtract %23, %28 : tensor<4x256x8x64x64xf32>` -/
noncomputable def s_v29 (a : FVec Ideal S4x256x8x64x64 .f32) (b : FVec Ideal S4x256x8x64x64 .f32) : FVec Ideal S4x256x8x64x64 .f32 :=
  subf (F := Ideal) a b

/-- `%30 = stablehlo.exponential %29 : tensor<4x256x8x64x64xf32>` -/
noncomputable def s_v30 (a : FVec Ideal S4x256x8x64x64 .f32) : FVec Ideal S4x256x8x64x64 .f32 :=
  Host.exp (F := Ideal) a

/-- `%cst_3 = stablehlo.constant dense<0.000000e+00> : tensor<f32>` -/
noncomputable def s_cst_3 : FVec Ideal S_ .f32 :=
  constant (F := Ideal) S_ .f32 0x00000000#32

/-- `%31 = stablehlo.reduce(%30 init: %cst_3) applies stablehlo.add across dimensions = [4] : (tensor<4x256x8x64x64xf32>, tensor<f32>) -> tensor<4x256x8x64xf32> {` -/
noncomputable def s_v31 (x : FVec Ideal S4x256x8x64x64 .f32) (v : FVec Ideal S_ .f32) : FVec Ideal S4x256x8x64 .f32 :=
  Host.reduceAdd (F := Ideal) x v reducesTo_S4x256x8x64x64_S4x256x8x64_d4 h_S_

/-- `%32 = stablehlo.broadcast_in_dim %31, dims = [0, 1, 2, 3] : (tensor<4x256x8x64xf32>) -> tensor<4x256x8x64x1xf32>` -/
noncomputable def s_v32 (a : FVec Ideal S4x256x8x64 .f32) : FVec Ideal S4x256x8x64x1 .f32 :=
  broadcastInDim S4x256x8x64x1 ![0, 1, 2, 3] bcast_S4x256x8x64_S4x256x8x64x1_0_1_2_3 a

/-- `%33 = stablehlo.broadcast_in_dim %32, dims = [0, 1, 2, 3, 4] : (tensor<4x256x8x64x1xf32>) -> tensor<4x256x8x64x64xf32>` -/
noncomputable def s_v33 (a : FVec Ideal S4x256x8x64x1 .f32) : FVec Ideal S4x256x8x64x64 .f32 :=
  broadcastInDim S4x256x8x64x64 ![0, 1, 2, 3, 4] bcast_S4x256x8x64x1_S4x256x8x64x64_0_1_2_3_4 a

/-- `%34 = stablehlo.divide %30, %33 : tensor<4x256x8x64x64xf32>` -/
noncomputable def s_v34 (a : FVec Ideal S4x256x8x64x64 .f32) (b : FVec Ideal S4x256x8x64x64 .f32) : FVec Ideal S4x256x8x64x64 .f32 :=
  Host.divf (F := Ideal) a b

/-- `%35 = stablehlo.dot_general %34, %17, batching_dims = [0, 1, 2] x [0, 1, 2], contracting_dims = [4] x [3], precision = [DEFAULT, DEFAULT] : (tensor<4x256x8x64x64xf32>, tensor<4x256x8x64x64xf32>) -> tensor<4x256x8x64x64xf32>` -/
noncomputable def s_v35 (l : FVec Ideal S4x256x8x64x64 .f32) (r : FVec Ideal S4x256x8x64x64 .f32) : FVec Ideal S4x256x8x64x64 .f32 :=
  Host.dotGeneral (F := Ideal) dot_S4x256x8x64x64_S4x256x8x64x64_S4x256x8x64x64_4_3_3_4_012_012 none l r

/-- `%36 = stablehlo.transpose %35, dims = [0, 3, 1, 2, 4] : (tensor<4x256x8x64x64xf32>) -> tensor<4x64x256x8x64xf32>` -/
noncomputable def s_v36 (a : FVec Ideal S4x256x8x64x64 .f32) : FVec Ideal S4x64x256x8x64 .f32 :=
  transpose S4x64x256x8x64 [0, 3, 1, 2, 4] a transposes_S4x256x8x64x64_S4x64x256x8x64_0_3_1_2_4

/-- `%37 = stablehlo.reshape %36 : (tensor<4x64x256x8x64xf32>) -> tensor<4x64x256x512xf32>` -/
noncomputable def s_v37 (a : FVec Ideal S4x64x256x8x64 .f32) : FVec Ideal S4x64x256x512 .f32 :=
  shapeCast S4x64x256x512 a shapeCasts_S4x64x256x8x64_S4x64x256x512

/-- `%38 = stablehlo.dot_general %37, %arg7, contracting_dims = [3] x [1], precision = [DEFAULT, DEFAULT] : (tensor<4x64x256x512xf32>, tensor<512x512xf32>) -> tensor<4x64x256x512xf32>` -/
noncomputable def s_v38 (l : FVec Ideal S4x64x256x512 .f32) (r : FVec Ideal S512x512 .f32) : FVec Ideal S4x64x256x512 .f32 :=
  Host.dotGeneral (F := Ideal) dot_S4x64x256x512_S512x512_S4x64x256x512_3_1_012_0_n_n none l r

/-- `%39 = stablehlo.broadcast_in_dim %arg8, dims = [3] : (tensor<512xf32>) -> tensor<1x1x1x512xf32>` -/
noncomputable def s_v39 (a : FVec Ideal S512 .f32) : FVec Ideal S1x1x1x512 .f32 :=
  broadcastInDim S1x1x1x512 ![3] bcast_S512_S1x1x1x512_3 a

/-- `%40 = stablehlo.broadcast_in_dim %39, dims = [0, 1, 2, 3] : (tensor<1x1x1x512xf32>) -> tensor<4x64x256x512xf32>` -/
noncomputable def s_v40 (a : FVec Ideal S1x1x1x512 .f32) : FVec Ideal S4x64x256x512 .f32 :=
  broadcastInDim S4x64x256x512 ![0, 1, 2, 3] bcast_S1x1x1x512_S4x64x256x512_0_1_2_3 a

/-- `%41 = stablehlo.add %38, %40 : tensor<4x64x256x512xf32>` -/
noncomputable def s_v41 (a : FVec Ideal S4x64x256x512 .f32) (b : FVec Ideal S4x64x256x512 .f32) : FVec Ideal S4x64x256x512 .f32 :=
  addf (F := Ideal) a b

/-- `%42 = stablehlo.add %arg0, %41 : tensor<4x64x256x512xf32>` -/
noncomputable def s_v42 (a : FVec Ideal S4x64x256x512 .f32) (b : FVec Ideal S4x64x256x512 .f32) : FVec Ideal S4x64x256x512 .f32 :=
  addf (F := Ideal) a b

/-- `%cst_4 = stablehlo.constant dense<0.000000e+00> : tensor<f32>` -/
noncomputable def s_cst_4 : FVec Ideal S_ .f32 :=
  constant (F := Ideal) S_ .f32 0x00000000#32

/-- `%43 = stablehlo.reduce(%42 init: %cst_4) applies stablehlo.add across dimensions = [3] : (tensor<4x64x256x512xf32>, tensor<f32>) -> tensor<4x64x256xf32> {` -/
noncomputable def s_v43 (x : FVec Ideal S4x64x256x512 .f32) (v : FVec Ideal S_ .f32) : FVec Ideal S4x64x256 .f32 :=
  Host.reduceAdd (F := Ideal) x v reducesTo_S4x64x256x512_S4x64x256_d3 h_S_

/-- `%44 = stablehlo.broadcast_in_dim %43, dims = [0, 1, 2] : (tensor<4x64x256xf32>) -> tensor<4x64x256x1xf32>` -/
noncomputable def s_v44 (a : FVec Ideal S4x64x256 .f32) : FVec Ideal S4x64x256x1 .f32 :=
  broadcastInDim S4x64x256x1 ![0, 1, 2] bcast_S4x64x256_S4x64x256x1_0_1_2 a

/-- `%cst_5 = stablehlo.constant dense<5.120000e+02> : tensor<f32>` -/
noncomputable def s_cst_5 : FVec Ideal S_ .f32 :=
  constant (F := Ideal) S_ .f32 0x44000000#32

/-- `%45 = stablehlo.broadcast_in_dim %cst_5, dims = [] : (tensor<f32>) -> tensor<4x64x256x1xf32>` -/
noncomputable def s_v45 (a : FVec Ideal S_ .f32) : FVec Ideal S4x64x256x1 .f32 :=
  broadcastInDim S4x64x256x1 ![] bcast_S_S4x64x256x1 a

/-- `%46 = stablehlo.divide %44, %45 : tensor<4x64x256x1xf32>` -/
noncomputable def s_v46 (a : FVec Ideal S4x64x256x1 .f32) (b : FVec Ideal S4x64x256x1 .f32) : FVec Ideal S4x64x256x1 .f32 :=
  Host.divf (F := Ideal) a b

/-- `%c_6 = stablehlo.constant dense<0> : tensor<i32>` -/
noncomputable def s_c_6 : IVec S_ 32 :=
  constantI S_ 32 0#32

/-- `%cst = stablehlo.constant dense<0.000000e+00> : tensor<f32>` -/
noncomputable def s_call2_cst : FVec Ideal S_ .f32 :=
  constant (F := Ideal) S_ .f32 0x00000000#32

/-- `%0 = stablehlo.reduce(%arg0 init: %cst) applies stablehlo.add across dimensions = [3] : (tensor<4x64x256x512xf32>, tensor<f32>) -> tensor<4x64x256xf32> {` -/
noncomputable def s_call2_v0 (x : FVec Ideal S4x64x256x512 .f32) (v : FVec Ideal S_ .f32) : FVec Ideal S4x64x256 .f32 :=
  Host.reduceAdd (F := Ideal) x v reducesTo_S4x64x256x512_S4x64x256_d3 h_S_

/-- `%1 = stablehlo.broadcast_in_dim %0, dims = [0, 1, 2] : (tensor<4x64x256xf32>) -> tensor<4x64x256x1xf32>` -/
noncomputable def s_call2_v1 (a : FVec Ideal S4x64x256 .f32) : FVec Ideal S4x64x256x1 .f32 :=
  broadcastInDim S4x64x256x1 ![0, 1, 2] bcast_S4x64x256_S4x64x256x1_0_1_2 a

/-- `%cst_0 = stablehlo.constant dense<5.120000e+02> : tensor<f32>` -/
noncomputable def s_call2_cst_0 : FVec Ideal S_ .f32 :=
  constant (F := Ideal) S_ .f32 0x44000000#32

/-- `%2 = stablehlo.broadcast_in_dim %cst_0, dims = [] : (tensor<f32>) -> tensor<4x64x256x1xf32>` -/
noncomputable def s_call2_v2 (a : FVec Ideal S_ .f32) : FVec Ideal S4x64x256x1 .f32 :=
  broadcastInDim S4x64x256x1 ![] bcast_S_S4x64x256x1 a

/-- `%3 = stablehlo.divide %1, %2 : tensor<4x64x256x1xf32>` -/
noncomputable def s_call2_v3 (a : FVec Ideal S4x64x256x1 .f32) (b : FVec Ideal S4x64x256x1 .f32) : FVec Ideal S4x64x256x1 .f32 :=
  Host.divf (F := Ideal) a b

/-- `%4 = stablehlo.broadcast_in_dim %3, dims = [0, 1, 2, 3] : (tensor<4x64x256x1xf32>) -> tensor<4x64x256x512xf32>` -/
noncomputable def s_call2_v4 (a : FVec Ideal S4x64x256x1 .f32) : FVec Ideal S4x64x256x512 .f32 :=
  broadcastInDim S4x64x256x512 ![0, 1, 2, 3] bcast_S4x64x256x1_S4x64x256x512_0_1_2_3 a

/-- `%5 = stablehlo.subtract %arg0, %4 : tensor<4x64x256x512xf32>` -/
noncomputable def s_call2_v5 (a : FVec Ideal S4x64x256x512 .f32) (b : FVec Ideal S4x64x256x512 .f32) : FVec Ideal S4x64x256x512 .f32 :=
  subf (F := Ideal) a b

/-- `%6 = chlo.square %5 : tensor<4x64x256x512xf32> -> tensor<4x64x256x512xf32>` -/
noncomputable def s_call2_v6 (a : FVec Ideal S4x64x256x512 .f32) (b : FVec Ideal S4x64x256x512 .f32) : FVec Ideal S4x64x256x512 .f32 :=
  mulf (F := Ideal) a b

/-- `%7 = stablehlo.convert %arg1 : (tensor<i32>) -> tensor<f32>` -/
noncomputable def s_call2_v7 (a : IVec S_ 32) : FVec Ideal S_ .f32 :=
  sitofp (F := Ideal) .f32 a

/-- `%cst_1 = stablehlo.constant dense<5.120000e+02> : tensor<f32>` -/
noncomputable def s_call2_cst_1 : FVec Ideal S_ .f32 :=
  constant (F := Ideal) S_ .f32 0x44000000#32

/-- `%8 = stablehlo.subtract %cst_1, %7 : tensor<f32>` -/
noncomputable def s_call2_v8 (a : FVec Ideal S_ .f32) (b : FVec Ideal S_ .f32) : FVec Ideal S_ .f32 :=
  subf (F := Ideal) a b

/-- `%cst_2 = stablehlo.constant dense<0.000000e+00> : tensor<f32>` -/
noncomputable def s_call2_cst_2 : FVec Ideal S_ .f32 :=
  constant (F := Ideal) S_ .f32 0x00000000#32

/-- `%9 = stablehlo.reduce(%6 init: %cst_2) applies stablehlo.add across dimensions = [3] : (tensor<4x64x256x512xf32>, tensor<f32>) -> tensor<4x64x256xf32> {` -/
noncomputable def s_call2_v9 (x : FVec Ideal S4x64x256x512 .f32) (v : FVec Ideal S_ .f32) : FVec Ideal S4x64x256 .f32 :=
  Host.reduceAdd (F := Ideal) x v reducesTo_S4x64x256x512_S4x64x256_d3 h_S_

/-- `%10 = stablehlo.broadcast_in_dim %9, dims = [0, 1, 2] : (tensor<4x64x256xf32>) -> tensor<4x64x256x1xf32>` -/
noncomputable def s_call2_v10 (a : FVec Ideal S4x64x256 .f32) : FVec Ideal S4x64x256x1 .f32 :=
  broadcastInDim S4x64x256x1 ![0, 1, 2] bcast_S4x64x256_S4x64x256x1_0_1_2 a

/-- `%11 = stablehlo.broadcast_in_dim %8, dims = [] : (tensor<f32>) -> tensor<4x64x256x1xf32>` -/
noncomputable def s_call2_v11 (a : FVec Ideal S_ .f32) : FVec Ideal S4x64x256x1 .f32 :=
  broadcastInDim S4x64x256x1 ![] bcast_S_S4x64x256x1 a

/-- `%12 = stablehlo.divide %10, %11 : tensor<4x64x256x1xf32>` -/
noncomputable def s_call2_v12 (a : FVec Ideal S4x64x256x1 .f32) (b : FVec Ideal S4x64x256x1 .f32) : FVec Ideal S4x64x256x1 .f32 :=
  Host.divf (F := Ideal) a b

/-- `%cst_3 = stablehlo.constant dense<0.000000e+00> : tensor<f32>` -/
noncomputable def s_call2_cst_3 : FVec Ideal S_ .f32 :=
  constant (F := Ideal) S_ .f32 0x00000000#32

/-- `%13 = stablehlo.compare GT, %8, %cst_3, FLOAT : (tensor<f32>, tensor<f32>) -> tensor<i1>` -/
noncomputable def s_call2_v13 (a : FVec Ideal S_ .f32) (b : FVec Ideal S_ .f32) : IVec S_ 1 :=
  cmpf (F := Ideal) .ogt a b

/-- `%cst_4 = stablehlo.constant dense<0x7FC00000> : tensor<f32>` -/
noncomputable def s_call2_cst_4 : FVec Ideal S_ .f32 :=
  constant (F := Ideal) S_ .f32 0x7FC00000#32

/-- `%0 = stablehlo.convert %arg2 : tensor<f32>` -/
noncomputable def s_call2_call0_v0 (a : FVec Ideal S_ .f32) : FVec Ideal S_ .f32 :=
  id a

/-- `%1 = stablehlo.broadcast_in_dim %0, dims = [] : (tensor<f32>) -> tensor<4x64x256x1xf32>` -/
noncomputable def s_call2_call0_v1 (a : FVec Ideal S_ .f32) : FVec Ideal S4x64x256x1 .f32 :=
  broadcastInDim S4x64x256x1 ![] bcast_S_S4x64x256x1 a

/-- `%2 = stablehlo.select %arg0, %arg1, %1 : tensor<i1>, tensor<4x64x256x1xf32>` -/
noncomputable def s_v47 (p : IVec S_ 1) (a : FVec Ideal S4x64x256x1 .f32) (b : FVec Ideal S4x64x256x1 .f32) : FVec Ideal S4x64x256x1 .f32 :=
  select (broadcastInDim S4x64x256x1 ![] bcast_S_S4x64x256x1 p) a b

/-- `%48 = stablehlo.broadcast_in_dim %46, dims = [0, 1, 2, 3] : (tensor<4x64x256x1xf32>) -> tensor<4x64x256x512xf32>` -/
noncomputable def s_v48 (a : FVec Ideal S4x64x256x1 .f32) : FVec Ideal S4x64x256x512 .f32 :=
  broadcastInDim S4x64x256x512 ![0, 1, 2, 3] bcast_S4x64x256x1_S4x64x256x512_0_1_2_3 a

/-- `%49 = stablehlo.subtract %42, %48 : tensor<4x64x256x512xf32>` -/
noncomputable def s_v49 (a : FVec Ideal S4x64x256x512 .f32) (b : FVec Ideal S4x64x256x512 .f32) : FVec Ideal S4x64x256x512 .f32 :=
  subf (F := Ideal) a b

/-- `%cst_7 = stablehlo.constant dense<9.99999974E-6> : tensor<f32>` -/
noncomputable def s_cst_7 : FVec Ideal S_ .f32 :=
  constant (F := Ideal) S_ .f32 0x3727C5AC#32

/-- `%50 = stablehlo.broadcast_in_dim %cst_7, dims = [] : (tensor<f32>) -> tensor<4x64x256x1xf32>` -/
noncomputable def s_v50 (a : FVec Ideal S_ .f32) : FVec Ideal S4x64x256x1 .f32 :=
  broadcastInDim S4x64x256x1 ![] bcast_S_S4x64x256x1 a

/-- `%51 = stablehlo.add %47, %50 : tensor<4x64x256x1xf32>` -/
noncomputable def s_v51 (a : FVec Ideal S4x64x256x1 .f32) (b : FVec Ideal S4x64x256x1 .f32) : FVec Ideal S4x64x256x1 .f32 :=
  addf (F := Ideal) a b

/-- `%52 = stablehlo.rsqrt %51 : tensor<4x64x256x1xf32>` -/
noncomputable def s_v52 (a : FVec Ideal S4x64x256x1 .f32) : FVec Ideal S4x64x256x1 .f32 :=
  Host.rsqrt (F := Ideal) a

/-- `%53 = stablehlo.broadcast_in_dim %52, dims = [0, 1, 2, 3] : (tensor<4x64x256x1xf32>) -> tensor<4x64x256x512xf32>` -/
noncomputable def s_v53 (a : FVec Ideal S4x64x256x1 .f32) : FVec Ideal S4x64x256x512 .f32 :=
  broadcastInDim S4x64x256x512 ![0, 1, 2, 3] bcast_S4x64x256x1_S4x64x256x512_0_1_2_3 a

/-- `%54 = stablehlo.multiply %49, %53 : tensor<4x64x256x512xf32>` -/
noncomputable def s_v54 (a : FVec Ideal S4x64x256x512 .f32) (b : FVec Ideal S4x64x256x512 .f32) : FVec Ideal S4x64x256x512 .f32 :=
  mulf (F := Ideal) a b

/-- `%55 = stablehlo.broadcast_in_dim %arg9, dims = [3] : (tensor<512xf32>) -> tensor<1x1x1x512xf32>` -/
noncomputable def s_v55 (a : FVec Ideal S512 .f32) : FVec Ideal S1x1x1x512 .f32 :=
  broadcastInDim S1x1x1x512 ![3] bcast_S512_S1x1x1x512_3 a

/-- `%56 = stablehlo.broadcast_in_dim %55, dims = [0, 1, 2, 3] : (tensor<1x1x1x512xf32>) -> tensor<4x64x256x512xf32>` -/
noncomputable def s_v56 (a : FVec Ideal S1x1x1x512 .f32) : FVec Ideal S4x64x256x512 .f32 :=
  broadcastInDim S4x64x256x512 ![0, 1, 2, 3] bcast_S1x1x1x512_S4x64x256x512_0_1_2_3 a

/-- `%57 = stablehlo.multiply %54, %56 : tensor<4x64x256x512xf32>` -/
noncomputable def s_v57 (a : FVec Ideal S4x64x256x512 .f32) (b : FVec Ideal S4x64x256x512 .f32) : FVec Ideal S4x64x256x512 .f32 :=
  mulf (F := Ideal) a b

/-- `%58 = stablehlo.broadcast_in_dim %arg10, dims = [3] : (tensor<512xf32>) -> tensor<1x1x1x512xf32>` -/
noncomputable def s_v58 (a : FVec Ideal S512 .f32) : FVec Ideal S1x1x1x512 .f32 :=
  broadcastInDim S1x1x1x512 ![3] bcast_S512_S1x1x1x512_3 a

/-- `%59 = stablehlo.broadcast_in_dim %58, dims = [0, 1, 2, 3] : (tensor<1x1x1x512xf32>) -> tensor<4x64x256x512xf32>` -/
noncomputable def s_v59 (a : FVec Ideal S1x1x1x512 .f32) : FVec Ideal S4x64x256x512 .f32 :=
  broadcastInDim S4x64x256x512 ![0, 1, 2, 3] bcast_S1x1x1x512_S4x64x256x512_0_1_2_3 a

/-- `%60 = stablehlo.add %57, %59 : tensor<4x64x256x512xf32>` -/
noncomputable def s_v60 (a : FVec Ideal S4x64x256x512 .f32) (b : FVec Ideal S4x64x256x512 .f32) : FVec Ideal S4x64x256x512 .f32 :=
  addf (F := Ideal) a b

/-- The program's result as a function of its eleven arguments: the stages composed in program order. -/
noncomputable def out (x : FVec Ideal S4x64x256x512 .f32) (Wq : FVec Ideal S512x512 .f32) (bq : FVec Ideal S512 .f32)
    (Wk : FVec Ideal S512x512 .f32) (bk : FVec Ideal S512 .f32) (Wv : FVec Ideal S512x512 .f32) (bv : FVec Ideal S512 .f32)
    (Wo : FVec Ideal S512x512 .f32) (bo : FVec Ideal S512 .f32) (g : FVec Ideal S512 .f32) (beta : FVec Ideal S512 .f32) :
    FVec Ideal S4x64x256x512 .f32 :=
  let v0 := s_v0 x Wq
  let v1 := s_v1 bq
  let v2 := s_v2 v1
  let v3 := s_v3 v0 v2
  let v4 := s_v4 v3
  let v5 := s_v5 v4
  let v6 := s_v6 x Wk
  let v7 := s_v7 bk
  let v8 := s_v8 v7
  let v9 := s_v9 v6 v8
  let v10 := s_v10 v9
  let v11 := s_v11 v10
  let v12 := s_v12 x Wv
  let v13 := s_v13 bv
  let v14 := s_v14 v13
  let v15 := s_v15 v12 v14
  let v16 := s_v16 v15
  let v17 := s_v17 v16
  let v18 := s_v18 v5 v11
  let cst := s_cst
  let v19 := s_v19 cst
  let v20 := s_v20 v18 v19
  let c := s_c
  let v21 := s_v21 c
  let call0_v0 := s_call0_v0
  let call0_c := s_call0_c
  let call0_v1 := s_call0_v1 call0_c
  let call0_v2 := s_call0_v2 call0_v0 call0_v1
  let call0_v3 := s_call0_v3
  let call0_v4 := s_call0_v4 call0_v2 call0_v3
  let call0_c_0 := s_call0_c_0
  let call0_v5 := s_call0_v5 call0_c_0
  let v22 := s_v22 call0_v4 call0_v5 v21
  let cst_0 := s_cst_0
  let call1_v0 := s_call1_v0 cst_0
  let call1_v1 := s_call1_v1 v22
  let call1_v2 := s_call1_v2 call1_v0
  let v23 := s_v23 call1_v1 call1_v2 v20
  let cst_1 := s_cst_1
  let v24 := s_v24 v23 cst_1
  let cst_2 := s_cst_2
  let v25 := s_v25 cst_2
  let v26 := s_v26 v25 v24
  let v27 := s_v27 v26
  let v28 := s_v28 v27
  let v29 := s_v29 v23 v28
  let v30 := s_v30 v29
  let cst_3 := s_cst_3
  let v31 := s_v31 v30 cst_3
  let v32 := s_v32 v31
  let v33 := s_v33 v32
  let v34 := s_v34 v30 v33
  let v35 := s_v35 v34 v17
  let v36 := s_v36 v35
  let v37 := s_v37 v36
  let v38 := s_v38 v37 Wo
  let v39 := s_v39 bo
  let v40 := s_v40 v39
  let v41 := s_v41 v38 v40
  let v42 := s_v42 x v41
  let cst_4 := s_cst_4
  let v43 := s_v43 v42 cst_4
  let v44 := s_v44 v43
  let cst_5 := s_cst_5
  let v45 := s_v45 cst_5
  let v46 := s_v46 v44 v45
  let c_6 := s_c_6
  let call2_cst := s_call2_cst
  let call2_v0 := s_call2_v0 v42 call2_cst
  let call2_v1 := s_call2_v1 call2_v0
  let call2_cst_0 := s_call2_cst_0
  let call2_v2 := s_call2_v2 call2_cst_0
  let call2_v3 := s_call2_v3 call2_v1 call2_v2
  let call2_v4 := s_call2_v4 call2_v3
  let call2_v5 := s_call2_v5 v42 call2_v4
  let call2_v6 := s_call2_v6 call2_v5 call2_v5
  let call2_v7 := s_call2_v7 c_6
  let call2_cst_1 := s_call2_cst_1
  let call2_v8 := s_call2_v8 call2_cst_1 call2_v7
  let call2_cst_2 := s_call2_cst_2
  let call2_v9 := s_call2_v9 call2_v6 call2_cst_2
  let call2_v10 := s_call2_v10 call2_v9
  let call2_v11 := s_call2_v11 call2_v8
  let call2_v12 := s_call2_v12 call2_v10 call2_v11
  let call2_cst_3 := s_call2_cst_3
  let call2_v13 := s_call2_v13 call2_v8 call2_cst_3
  let call2_cst_4 := s_call2_cst_4
  let call2_call0_v0 := s_call2_call0_v0 call2_cst_4
  let call2_call0_v1 := s_call2_call0_v1 call2_call0_v0
  let v47 := s_v47 call2_v13 call2_v12 call2_call0_v1
  let v48 := s_v48 v46
  let v49 := s_v49 v42 v48
  let cst_7 := s_cst_7
  let v50 := s_v50 cst_7
  let v51 := s_v51 v47 v50
  let v52 := s_v52 v51
  let v53 := s_v53 v52
  let v54 := s_v54 v49 v53
  let v55 := s_v55 g
  let v56 := s_v56 v55
  let v57 := s_v57 v54 v56
  let v58 := s_v58 beta
  let v59 := s_v59 v58
  let v60 := s_v60 v57 v59
  v60

end Cert.ReferenceIdeal.Hand

end
-- ==== Proof.RefRunOps.lean ====
/-
  The reference program's main function as a straight line of host operations: the helper functions'
  bodies unfolded at their calls, each over that call's own buffers. The line touches only the
  TensorCore's unscoped buffers, which is what the run of such a line asks.
-/
import proofs.«145929_j58798102282423_2_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- The main function's 104 operations in order, each helper's body listed at its call over that call's buffers. -/
abbrev ops : List (HloOp τ sig (Elt F)) :=
  [ binary main_arg0 main_arg1 main_v0 ((fun l r => Host.dotGeneral dot_S4x64x256x512_S512x512_S4x64x256x512_3_1_012_0_n_n none l r) : (⟨S4x64x256x512, .f32⟩ : BufTy).Contents (Elt F) → (⟨S512x512, .f32⟩ : BufTy).Contents (Elt F) → (⟨S4x64x256x512, .f32⟩ : BufTy).Contents (Elt F)),
    unary main_arg2 main_v1 (broadcastInDim S1x1x1x512 ![3] bcast_S512_S1x1x1x512_3 : (⟨S512, .f32⟩ : BufTy).Contents (Elt F) → (⟨S1x1x1x512, .f32⟩ : BufTy).Contents (Elt F)),
    unary main_v1 main_v2 (broadcastInDim S4x64x256x512 ![0, 1, 2, 3] bcast_S1x1x1x512_S4x64x256x512_0_1_2_3 : (⟨S1x1x1x512, .f32⟩ : BufTy).Contents (Elt F) → (⟨S4x64x256x512, .f32⟩ : BufTy).Contents (Elt F)),
    binary main_v0 main_v2 main_v3 (addf : (⟨S4x64x256x512, .f32⟩ : BufTy).Contents (Elt F) → (⟨S4x64x256x512, .f32⟩ : BufTy).Contents (Elt F) → (⟨S4x64x256x512, .f32⟩ : BufTy).Contents (Elt F)),
    reshape main_v3 main_v4 rfl shapeCasts_S4x64x256x512_S4x64x256x8x64,
    unary main_v4 main_v5 ((transpose S4x256x8x64x64 [0, 2, 3, 1, 4] · transposes_S4x64x256x8x64_S4x256x8x64x64_0_2_3_1_4) : (⟨S4x64x256x8x64, .f32⟩ : BufTy).Contents (Elt F) → (⟨S4x256x8x64x64, .f32⟩ : BufTy).Contents (Elt F)),
    binary main_arg0 main_arg3 main_v6 ((fun l r => Host.dotGeneral dot_S4x64x256x512_S512x512_S4x64x256x512_3_1_012_0_n_n none l r) : (⟨S4x64x256x512, .f32⟩ : BufTy).Contents (Elt F) → (⟨S512x512, .f32⟩ : BufTy).Contents (Elt F) → (⟨S4x64x256x512, .f32⟩ : BufTy).Contents (Elt F)),
    unary main_arg4 main_v7 (broadcastInDim S1x1x1x512 ![3] bcast_S512_S1x1x1x512_3 : (⟨S512, .f32⟩ : BufTy).Contents (Elt F) → (⟨S1x1x1x512, .f32⟩ : BufTy).Contents (Elt F)),
    unary main_v7 main_v8 (broadcastInDim S4x64x256x512 ![0, 1, 2, 3] bcast_S1x1x1x512_S4x64x256x512_0_1_2_3 : (⟨S1x1x1x512, .f32⟩ : BufTy).Contents (Elt F) → (⟨S4x64x256x512, .f32⟩ : BufTy).Contents (Elt F)),
    binary main_v6 main_v8 main_v9 (addf : (⟨S4x64x256x512, .f32⟩ : BufTy).Contents (Elt F) → (⟨S4x64x256x512, .f32⟩ : BufTy).Contents (Elt F) → (⟨S4x64x256x512, .f32⟩ : BufTy).Contents (Elt F)),
    reshape main_v9 main_v10 rfl shapeCasts_S4x64x256x512_S4x64x256x8x64,
    unary main_v10 main_v11 ((transpose S4x256x8x64x64 [0, 2, 3, 1, 4] · transposes_S4x64x256x8x64_S4x256x8x64x64_0_2_3_1_4) : (⟨S4x64x256x8x64, .f32⟩ : BufTy).Contents (Elt F) → (⟨S4x256x8x64x64, .f32⟩ : BufTy).Contents (Elt F)),
    binary main_arg0 main_arg5 main_v12 ((fun l r => Host.dotGeneral dot_S4x64x256x512_S512x512_S4x64x256x512_3_1_012_0_n_n none l r) : (⟨S4x64x256x512, .f32⟩ : BufTy).Contents (Elt F) → (⟨S512x512, .f32⟩ : BufTy).Contents (Elt F) → (⟨S4x64x256x512, .f32⟩ : BufTy).Contents (Elt F)),
    unary main_arg6 main_v13 (broadcastInDim S1x1x1x512 ![3] bcast_S512_S1x1x1x512_3 : (⟨S512, .f32⟩ : BufTy).Contents (Elt F) → (⟨S1x1x1x512, .f32⟩ : BufTy).Contents (Elt F)),
    unary main_v13 main_v14 (broadcastInDim S4x64x256x512 ![0, 1, 2, 3] bcast_S1x1x1x512_S4x64x256x512_0_1_2_3 : (⟨S1x1x1x512, .f32⟩ : BufTy).Contents (Elt F) → (⟨S4x64x256x512, .f32⟩ : BufTy).Contents (Elt F)),
    binary main_v12 main_v14 main_v15 (addf : (⟨S4x64x256x512, .f32⟩ : BufTy).Contents (Elt F) → (⟨S4x64x256x512, .f32⟩ : BufTy).Contents (Elt F) → (⟨S4x64x256x512, .f32⟩ : BufTy).Contents (Elt F)),
    reshape main_v15 main_v16 rfl shapeCasts_S4x64x256x512_S4x64x256x8x64,
    unary main_v16 main_v17 ((transpose S4x256x8x64x64 [0, 2, 3, 1, 4] · transposes_S4x64x256x8x64_S4x256x8x64x64_0_2_3_1_4) : (⟨S4x64x256x8x64, .f32⟩ : BufTy).Contents (Elt F) → (⟨S4x256x8x64x64, .f32⟩ : BufTy).Contents (Elt F)),
    binary main_v5 main_v11 main_v18 ((fun l r => Host.dotGeneral dot_S4x256x8x64x64_S4x256x8x64x64_S4x256x8x64x64_4_4_3_3_012_012 none l r) : (⟨S4x256x8x64x64, .f32⟩ : BufTy).Contents (Elt F) → (⟨S4x256x8x64x64, .f32⟩ : BufTy).Contents (Elt F) → (⟨S4x256x8x64x64, .f32⟩ : BufTy).Contents (Elt F)),
    nullary main_cst (constant S_ .f32 0x41000000#32),
    unary main_cst main_v19 (broadcastInDim S4x256x8x64x64 ![] bcast_S_S4x256x8x64x64 : (⟨S_, .f32⟩ : BufTy).Contents (Elt F) → (⟨S4x256x8x64x64, .f32⟩ : BufTy).Contents (Elt F)),
    binary main_v18 main_v19 main_v20 (Host.divf : (⟨S4x256x8x64x64, .f32⟩ : BufTy).Contents (Elt F) → (⟨S4x256x8x64x64, .f32⟩ : BufTy).Contents (Elt F) → (⟨S4x256x8x64x64, .f32⟩ : BufTy).Contents (Elt F)),
    nullary main_c (constantI S_ 1 1#1),
    unary main_c main_v21 (broadcastInDim S64x64 ![] bcast_S_S64x64 : (⟨S_, .i1⟩ : BufTy).Contents (Elt F) → (⟨S64x64, .i1⟩ : BufTy).Contents (Elt F)),
    TRef.nullary main_call0.v0 (iotaInDim S64x64 32 0),
    TRef.nullary main_call0.c (constantI S_ 32 0#32),
    TRef.unary main_call0.c main_call0.v1 (broadcastInDim S64x64 ![] bcast_S_S64x64),
    TRef.binary main_call0.v0 main_call0.v1 main_call0.v2 addi,
    TRef.nullary main_call0.v3 (iotaInDim S64x64 32 1),
    TRef.binary main_call0.v2 main_call0.v3 main_call0.v4 (cmpi .sge),
    TRef.nullary main_call0.c_0 (constantI S_ 1 0#1),
    TRef.unary main_call0.c_0 main_call0.v5 (broadcastInDim S64x64 ![] bcast_S_S64x64),
    TRef.ternary main_call0.v4 main_call0.v5 (.of main_v21 : TRef sig ⟨S64x64, .i1⟩) main_call0.v6 select,
    nullary main_cst_0 (constant S_ .f32 0xFF800000#32),
    TRef.unary (.of main_cst_0 : TRef sig ⟨S_, .f32⟩) main_call1.v0 id,
    TRef.unary (.of main_v22 : TRef sig ⟨S64x64, .i1⟩) main_call1.v1 (broadcastInDim S4x256x8x64x64 ![3, 4] bcast_S64x64_S4x256x8x64x64_3_4),
    TRef.unary main_call1.v0 main_call1.v2 (broadcastInDim S4x256x8x64x64 ![] bcast_S_S4x256x8x64x64),
    TRef.ternary main_call1.v1 main_call1.v2 (.of main_v20 : TRef sig ⟨S4x256x8x64x64, .f32⟩) main_call1.v3 select,
    nullary main_cst_1 (constant S_ .f32 0xFF800000#32),
    binary main_v23 main_cst_1 main_v24 ((fun x v => Host.reduce FloatOps.maximumf x v reducesTo_S4x256x8x64x64_S4x256x8x64_d4 h_S_) : (⟨S4x256x8x64x64, .f32⟩ : BufTy).Contents (Elt F) → (⟨S_, .f32⟩ : BufTy).Contents (Elt F) → (⟨S4x256x8x64, .f32⟩ : BufTy).Contents (Elt F)),
    nullary main_cst_2 (constant S_ .f32 0xFF800000#32),
    unary main_cst_2 main_v25 (broadcastInDim S4x256x8x64 ![] bcast_S_S4x256x8x64 : (⟨S_, .f32⟩ : BufTy).Contents (Elt F) → (⟨S4x256x8x64, .f32⟩ : BufTy).Contents (Elt F)),
    binary main_v25 main_v24 main_v26 (maximumf : (⟨S4x256x8x64, .f32⟩ : BufTy).Contents (Elt F) → (⟨S4x256x8x64, .f32⟩ : BufTy).Contents (Elt F) → (⟨S4x256x8x64, .f32⟩ : BufTy).Contents (Elt F)),
    unary main_v26 main_v27 (broadcastInDim S4x256x8x64x1 ![0, 1, 2, 3] bcast_S4x256x8x64_S4x256x8x64x1_0_1_2_3 : (⟨S4x256x8x64, .f32⟩ : BufTy).Contents (Elt F) → (⟨S4x256x8x64x1, .f32⟩ : BufTy).Contents (Elt F)),
    unary main_v27 main_v28 (broadcastInDim S4x256x8x64x64 ![0, 1, 2, 3, 4] bcast_S4x256x8x64x1_S4x256x8x64x64_0_1_2_3_4 : (⟨S4x256x8x64x1, .f32⟩ : BufTy).Contents (Elt F) → (⟨S4x256x8x64x64, .f32⟩ : BufTy).Contents (Elt F)),
    binary main_v23 main_v28 main_v29 (subf : (⟨S4x256x8x64x64, .f32⟩ : BufTy).Contents (Elt F) → (⟨S4x256x8x64x64, .f32⟩ : BufTy).Contents (Elt F) → (⟨S4x256x8x64x64, .f32⟩ : BufTy).Contents (Elt F)),
    unary main_v29 main_v30 (Host.exp : (⟨S4x256x8x64x64, .f32⟩ : BufTy).Contents (Elt F) → (⟨S4x256x8x64x64, .f32⟩ : BufTy).Contents (Elt F)),
    nullary main_cst_3 (constant S_ .f32 0x00000000#32),
    binary main_v30 main_cst_3 main_v31 ((fun x v => Host.reduceAdd x v reducesTo_S4x256x8x64x64_S4x256x8x64_d4 h_S_) : (⟨S4x256x8x64x64, .f32⟩ : BufTy).Contents (Elt F) → (⟨S_, .f32⟩ : BufTy).Contents (Elt F) → (⟨S4x256x8x64, .f32⟩ : BufTy).Contents (Elt F)),
    unary main_v31 main_v32 (broadcastInDim S4x256x8x64x1 ![0, 1, 2, 3] bcast_S4x256x8x64_S4x256x8x64x1_0_1_2_3 : (⟨S4x256x8x64, .f32⟩ : BufTy).Contents (Elt F) → (⟨S4x256x8x64x1, .f32⟩ : BufTy).Contents (Elt F)),
    unary main_v32 main_v33 (broadcastInDim S4x256x8x64x64 ![0, 1, 2, 3, 4] bcast_S4x256x8x64x1_S4x256x8x64x64_0_1_2_3_4 : (⟨S4x256x8x64x1, .f32⟩ : BufTy).Contents (Elt F) → (⟨S4x256x8x64x64, .f32⟩ : BufTy).Contents (Elt F)),
    binary main_v30 main_v33 main_v34 (Host.divf : (⟨S4x256x8x64x64, .f32⟩ : BufTy).Contents (Elt F) → (⟨S4x256x8x64x64, .f32⟩ : BufTy).Contents (Elt F) → (⟨S4x256x8x64x64, .f32⟩ : BufTy).Contents (Elt F)),
    binary main_v34 main_v17 main_v35 ((fun l r => Host.dotGeneral dot_S4x256x8x64x64_S4x256x8x64x64_S4x256x8x64x64_4_3_3_4_012_012 none l r) : (⟨S4x256x8x64x64, .f32⟩ : BufTy).Contents (Elt F) → (⟨S4x256x8x64x64, .f32⟩ : BufTy).Contents (Elt F) → (⟨S4x256x8x64x64, .f32⟩ : BufTy).Contents (Elt F)),
    unary main_v35 main_v36 ((transpose S4x64x256x8x64 [0, 3, 1, 2, 4] · transposes_S4x256x8x64x64_S4x64x256x8x64_0_3_1_2_4) : (⟨S4x256x8x64x64, .f32⟩ : BufTy).Contents (Elt F) → (⟨S4x64x256x8x64, .f32⟩ : BufTy).Contents (Elt F)),
    reshape main_v36 main_v37 rfl shapeCasts_S4x64x256x8x64_S4x64x256x512,
    binary main_v37 main_arg7 main_v38 ((fun l r => Host.dotGeneral dot_S4x64x256x512_S512x512_S4x64x256x512_3_1_012_0_n_n none l r) : (⟨S4x64x256x512, .f32⟩ : BufTy).Contents (Elt F) → (⟨S512x512, .f32⟩ : BufTy).Contents (Elt F) → (⟨S4x64x256x512, .f32⟩ : BufTy).Contents (Elt F)),
    unary main_arg8 main_v39 (broadcastInDim S1x1x1x512 ![3] bcast_S512_S1x1x1x512_3 : (⟨S512, .f32⟩ : BufTy).Contents (Elt F) → (⟨S1x1x1x512, .f32⟩ : BufTy).Contents (Elt F)),
    unary main_v39 main_v40 (broadcastInDim S4x64x256x512 ![0, 1, 2, 3] bcast_S1x1x1x512_S4x64x256x512_0_1_2_3 : (⟨S1x1x1x512, .f32⟩ : BufTy).Contents (Elt F) → (⟨S4x64x256x512, .f32⟩ : BufTy).Contents (Elt F)),
    binary main_v38 main_v40 main_v41 (addf : (⟨S4x64x256x512, .f32⟩ : BufTy).Contents (Elt F) → (⟨S4x64x256x512, .f32⟩ : BufTy).Contents (Elt F) → (⟨S4x64x256x512, .f32⟩ : BufTy).Contents (Elt F)),
    binary main_arg0 main_v41 main_v42 (addf : (⟨S4x64x256x512, .f32⟩ : BufTy).Contents (Elt F) → (⟨S4x64x256x512, .f32⟩ : BufTy).Contents (Elt F) → (⟨S4x64x256x512, .f32⟩ : BufTy).Contents (Elt F)),
    nullary main_cst_4 (constant S_ .f32 0x00000000#32),
    binary main_v42 main_cst_4 main_v43 ((fun x v => Host.reduceAdd x v reducesTo_S4x64x256x512_S4x64x256_d3 h_S_) : (⟨S4x64x256x512, .f32⟩ : BufTy).Contents (Elt F) → (⟨S_, .f32⟩ : BufTy).Contents (Elt F) → (⟨S4x64x256, .f32⟩ : BufTy).Contents (Elt F)),
    unary main_v43 main_v44 (broadcastInDim S4x64x256x1 ![0, 1, 2] bcast_S4x64x256_S4x64x256x1_0_1_2 : (⟨S4x64x256, .f32⟩ : BufTy).Contents (Elt F) → (⟨S4x64x256x1, .f32⟩ : BufTy).Contents (Elt F)),
    nullary main_cst_5 (constant S_ .f32 0x44000000#32),
    unary main_cst_5 main_v45 (broadcastInDim S4x64x256x1 ![] bcast_S_S4x64x256x1 : (⟨S_, .f32⟩ : BufTy).Contents (Elt F) → (⟨S4x64x256x1, .f32⟩ : BufTy).Contents (Elt F)),
    binary main_v44 main_v45 main_v46 (Host.divf : (⟨S4x64x256x1, .f32⟩ : BufTy).Contents (Elt F) → (⟨S4x64x256x1, .f32⟩ : BufTy).Contents (Elt F) → (⟨S4x64x256x1, .f32⟩ : BufTy).Contents (Elt F)),
    nullary main_c_6 (constantI S_ 32 0#32),
    TRef.nullary main_call2.cst (constant S_ .f32 0x00000000#32),
    TRef.binary (.of main_v42 : TRef sig ⟨S4x64x256x512, .f32⟩) main_call2.cst main_call2.v0 (fun x v => Host.reduceAdd x v reducesTo_S4x64x256x512_S4x64x256_d3 h_S_),
    TRef.unary main_call2.v0 main_call2.v1 (broadcastInDim S4x64x256x1 ![0, 1, 2] bcast_S4x64x256_S4x64x256x1_0_1_2),
    TRef.nullary main_call2.cst_0 (constant S_ .f32 0x44000000#32),
    TRef.unary main_call2.cst_0 main_call2.v2 (broadcastInDim S4x64x256x1 ![] bcast_S_S4x64x256x1),
    TRef.binary main_call2.v1 main_call2.v2 main_call2.v3 Host.divf,
    TRef.unary main_call2.v3 main_call2.v4 (broadcastInDim S4x64x256x512 ![0, 1, 2, 3] bcast_S4x64x256x1_S4x64x256x512_0_1_2_3),
    TRef.binary (.of main_v42 : TRef sig ⟨S4x64x256x512, .f32⟩) main_call2.v4 main_call2.v5 subf,
    TRef.binary main_call2.v5 main_call2.v5 main_call2.v6 mulf,
    TRef.unary (.of main_c_6 : TRef sig ⟨S_, .i32⟩) main_call2.v7 (sitofp .f32),
    TRef.nullary main_call2.cst_1 (constant S_ .f32 0x44000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S4x64x256x512_S4x64x256_d3 h_S_),
    TRef.unary main_call2.v9 main_call2.v10 (broadcastInDim S4x64x256x1 ![0, 1, 2] bcast_S4x64x256_S4x64x256x1_0_1_2),
    TRef.unary main_call2.v8 main_call2.v11 (broadcastInDim S4x64x256x1 ![] bcast_S_S4x64x256x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2_call0.v0 id,
    TRef.unary main_call2_call0.v0 main_call2_call0.v1 (broadcastInDim S4x64x256x1 ![] bcast_S_S4x64x256x1),
    TRef.ternary main_call2.v13 main_call2.v12 main_call2_call0.v1 main_call2_call0.v2 (fun p a b => select (broadcastInDim S4x64x256x1 ![] bcast_S_S4x64x256x1 p) a b),
    unary main_v46 main_v48 (broadcastInDim S4x64x256x512 ![0, 1, 2, 3] bcast_S4x64x256x1_S4x64x256x512_0_1_2_3 : (⟨S4x64x256x1, .f32⟩ : BufTy).Contents (Elt F) → (⟨S4x64x256x512, .f32⟩ : BufTy).Contents (Elt F)),
    binary main_v42 main_v48 main_v49 (subf : (⟨S4x64x256x512, .f32⟩ : BufTy).Contents (Elt F) → (⟨S4x64x256x512, .f32⟩ : BufTy).Contents (Elt F) → (⟨S4x64x256x512, .f32⟩ : BufTy).Contents (Elt F)),
    nullary main_cst_7 (constant S_ .f32 0x3727C5AC#32),
    unary main_cst_7 main_v50 (broadcastInDim S4x64x256x1 ![] bcast_S_S4x64x256x1 : (⟨S_, .f32⟩ : BufTy).Contents (Elt F) → (⟨S4x64x256x1, .f32⟩ : BufTy).Contents (Elt F)),
    binary main_v47 main_v50 main_v51 (addf : (⟨S4x64x256x1, .f32⟩ : BufTy).Contents (Elt F) → (⟨S4x64x256x1, .f32⟩ : BufTy).Contents (Elt F) → (⟨S4x64x256x1, .f32⟩ : BufTy).Contents (Elt F)),
    unary main_v51 main_v52 (Host.rsqrt : (⟨S4x64x256x1, .f32⟩ : BufTy).Contents (Elt F) → (⟨S4x64x256x1, .f32⟩ : BufTy).Contents (Elt F)),
    unary main_v52 main_v53 (broadcastInDim S4x64x256x512 ![0, 1, 2, 3] bcast_S4x64x256x1_S4x64x256x512_0_1_2_3 : (⟨S4x64x256x1, .f32⟩ : BufTy).Contents (Elt F) → (⟨S4x64x256x512, .f32⟩ : BufTy).Contents (Elt F)),
    binary main_v49 main_v53 main_v54 (mulf : (⟨S4x64x256x512, .f32⟩ : BufTy).Contents (Elt F) → (⟨S4x64x256x512, .f32⟩ : BufTy).Contents (Elt F) → (⟨S4x64x256x512, .f32⟩ : BufTy).Contents (Elt F)),
    unary main_arg9 main_v55 (broadcastInDim S1x1x1x512 ![3] bcast_S512_S1x1x1x512_3 : (⟨S512, .f32⟩ : BufTy).Contents (Elt F) → (⟨S1x1x1x512, .f32⟩ : BufTy).Contents (Elt F)),
    unary main_v55 main_v56 (broadcastInDim S4x64x256x512 ![0, 1, 2, 3] bcast_S1x1x1x512_S4x64x256x512_0_1_2_3 : (⟨S1x1x1x512, .f32⟩ : BufTy).Contents (Elt F) → (⟨S4x64x256x512, .f32⟩ : BufTy).Contents (Elt F)),
    binary main_v54 main_v56 main_v57 (mulf : (⟨S4x64x256x512, .f32⟩ : BufTy).Contents (Elt F) → (⟨S4x64x256x512, .f32⟩ : BufTy).Contents (Elt F) → (⟨S4x64x256x512, .f32⟩ : BufTy).Contents (Elt F)),
    unary main_arg10 main_v58 (broadcastInDim S1x1x1x512 ![3] bcast_S512_S1x1x1x512_3 : (⟨S512, .f32⟩ : BufTy).Contents (Elt F) → (⟨S1x1x1x512, .f32⟩ : BufTy).Contents (Elt F)),
    unary main_v58 main_v59 (broadcastInDim S4x64x256x512 ![0, 1, 2, 3] bcast_S1x1x1x512_S4x64x256x512_0_1_2_3 : (⟨S1x1x1x512, .f32⟩ : BufTy).Contents (Elt F) → (⟨S4x64x256x512, .f32⟩ : BufTy).Contents (Elt F)),
    binary main_v57 main_v59 main_v60 (addf : (⟨S4x64x256x512, .f32⟩ : BufTy).Contents (Elt F) → (⟨S4x64x256x512, .f32⟩ : BufTy).Contents (Elt F) → (⟨S4x64x256x512, .f32⟩ : BufTy).Contents (Elt F)) ]

set_option maxRecDepth 8192 in
set_option maxHeartbeats 4000000 in
/-- The main function is that straight line: the helpers' definitions unfolded at their calls, both sides are one
    chain of steps once sequencing is reassociated. -/
theorem main_eq (c : Dev nD) : main (F := F) c = seq ops := by
  simp only [main, main_part0, main_part1, fn_triu.body, fn_where.body, fn_var.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub .., binary_bufs_sub .., reshape_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., unary_bufs_sub .., binary_bufs_sub .., nullary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

end Cert.ReferenceIdeal.Hand

end
-- ==== Proof.RefRunOut.lean ====
/-
  What the result buffer holds after the reference's line of operations: each operation's result at its own
  buffer is its function of its operands' contents, at any other buffer what was there; read back from the
  result buffer to the arguments this is the composition `out`.
-/
import proofs.«145929_j58798102282423_2_alg».proof.Proof.RefStages
import proofs.«145929_j58798102282423_2_alg».proof.Proof.RefRunOps

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

set_option maxRecDepth 8192 in
set_option maxHeartbeats 4000000 in
/-- The fold at the result buffer is `out` of the arguments' contents. -/
theorem out_eq (V : Valuation τ sig (Elt Ideal)) :
    after (ops (F := Ideal)) V (main_v60 : DevRef τ sig)
      = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  after_results_simp
  rfl

end Cert.ReferenceIdeal.Hand

end
-- ==== Proof.RefRunArgs.lean ====
/-
  No operation of the reference's line writes an argument buffer: after the line each holds what it held.
-/
import proofs.«145929_j58798102282423_2_alg».proof.Proof.RefRunOps

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

theorem arg0_eq (V : Valuation τ sig (Elt F)) :
    after (ops (F := F)) V (main_arg0 : DevRef τ sig) = V (main_arg0 : DevRef τ sig) := by
  after_results_simp

theorem arg1_eq (V : Valuation τ sig (Elt F)) :
    after (ops (F := F)) V (main_arg1 : DevRef τ sig) = V (main_arg1 : DevRef τ sig) := by
  after_results_simp

theorem arg2_eq (V : Valuation τ sig (Elt F)) :
    after (ops (F := F)) V (main_arg2 : DevRef τ sig) = V (main_arg2 : DevRef τ sig) := by
  after_results_simp

theorem arg3_eq (V : Valuation τ sig (Elt F)) :
    after (ops (F := F)) V (main_arg3 : DevRef τ sig) = V (main_arg3 : DevRef τ sig) := by
  after_results_simp

theorem arg4_eq (V : Valuation τ sig (Elt F)) :
    after (ops (F := F)) V (main_arg4 : DevRef τ sig) = V (main_arg4 : DevRef τ sig) := by
  after_results_simp

theorem arg5_eq (V : Valuation τ sig (Elt F)) :
    after (ops (F := F)) V (main_arg5 : DevRef τ sig) = V (main_arg5 : DevRef τ sig) := by
  after_results_simp

theorem arg6_eq (V : Valuation τ sig (Elt F)) :
    after (ops (F := F)) V (main_arg6 : DevRef τ sig) = V (main_arg6 : DevRef τ sig) := by
  after_results_simp

theorem arg7_eq (V : Valuation τ sig (Elt F)) :
    after (ops (F := F)) V (main_arg7 : DevRef τ sig) = V (main_arg7 : DevRef τ sig) := by
  after_results_simp

theorem arg8_eq (V : Valuation τ sig (Elt F)) :
    after (ops (F := F)) V (main_arg8 : DevRef τ sig) = V (main_arg8 : DevRef τ sig) := by
  after_results_simp

theorem arg9_eq (V : Valuation τ sig (Elt F)) :
    after (ops (F := F)) V (main_arg9 : DevRef τ sig) = V (main_arg9 : DevRef τ sig) := by
  after_results_simp

theorem arg10_eq (V : Valuation τ sig (Elt F)) :
    after (ops (F := F)) V (main_arg10 : DevRef τ sig) = V (main_arg10 : DevRef τ sig) := by
  after_results_simp

end Cert.ReferenceIdeal.Hand

end
-- ==== Proof.RefRun.lean ====
/-
  The reference program's run: its main function is a straight line of host operations, so every weakly fair
  execution terminates with each buffer at the fold of the operations' results over the launch contents; at the
  result buffer that fold is `out` of the arguments, and the arguments are unchanged.
-/
import proofs.«145929_j58798102282423_2_alg».proof.Proof.RefRunOut
import proofs.«145929_j58798102282423_2_alg».proof.Proof.RefRunArgs

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- On every device, from any memory with zero counters: every weakly fair execution of the main function
    terminates with the result buffer at `out` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v60) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v60).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_seq scopedRefs_eq scopedSems_eq defs main (fun _ => ops) main_eq (fun _ => ops_sub) m ρ)

end Cert.ReferenceIdeal.Hand

end
-- ==== Proof.RefLayout.lean ====
/-
  Layout operations of the reference read at an index given by coordinates: a feature vector broadcast over every
  position, the split of the 512 features into 8 heads of 64 lanes and its inverse, the two five-axis transposes,
  the keep-dimension broadcasts of a row statistic, a scalar splat, and the causal mask broadcast over the batch,
  column and head axes.
-/
import proofs.«145929_j58798102282423_2_alg».proof.Proof.RefStages
import proofs.«145929_j58798102282423_2_alg».proof.Proof.SpecIdx
import Idealize.ShloMosaic.Lib.ValueLayout
import Idealize.ShloMosaic.Lib.IdealHost

set_option pp.maxSteps 5000
set_option pp.deepTerms false

noncomputable section

namespace Cert.ReferenceIdeal.HandValue

open Idealize.ShloMosaic Idealize.ShloMosaic.ValueIdx Cert.ReferenceIdeal Cert.ReferenceIdeal.Hand

variable {α : Type}

/-- A vector over the 512 features, broadcast to [1,1,1,512] and then over every (b, t, p), reads its entry at f. -/
theorem bcastRow_apply (h1 : S512.BroadcastsInDim S1x1x1x512 (![3] : Fin 1 → Fin S1x1x1x512.rank))
    (h2 : S1x1x1x512.BroadcastsInDim S4x64x256x512 (![0, 1, 2, 3] : Fin 4 → Fin S4x64x256x512.rank))
    (a : S512.Idx → α) (b : Fin 4) (t : Fin 64) (p : Fin 256) (f : Fin 512) :
    broadcastInDim S4x64x256x512 ![0, 1, 2, 3] h2 (broadcastInDim S1x1x1x512 ![3] h1 a) (ix4 b t p f) = a (ix1 f) := by
  refine (broadcastInDim_apply _ h2 _ (ix4 b t p f) (ix4 (0 : Fin 1) (0 : Fin 1) (0 : Fin 1) f) fun ax => ?_).trans ?_
  · match ax with
    | ⟨0, _⟩ => rfl
    | ⟨1, _⟩ => rfl
    | ⟨2, _⟩ => rfl
    | ⟨3, _⟩ => rfl
  · refine broadcastInDim_apply _ h1 a _ (ix1 f) fun ax => ?_
    match ax with
    | ⟨0, _⟩ => rfl

/-- The 512 features split into 8 heads of 64 lanes: entry (b, t, p, h, d) is the operand's at feature h·64 + d. -/
theorem split_apply (h : S4x64x256x512.ShapeCasts S4x64x256x8x64) (a : S4x64x256x512.Idx → α)
    (b : Fin 4) (t : Fin 64) (p : Fin 256) (hh : Fin 8) (d : Fin 64) :
    shapeCast S4x64x256x8x64 a h (ix5 b t p hh d) = a (ix4 b t p (Cert.Spec.hd hh d)) :=
  shapeCast_apply a h _ _ (by
    rw [Shape.rowMajor_val_four, Shape.rowMajor_val_five]
    show ((b.val * 64 + t.val) * 256 + p.val) * 512 + (hh.val * 64 + d.val)
      = (((b.val * 64 + t.val) * 256 + p.val) * 8 + hh.val) * 64 + d.val
    omega)

/-- The heads laid side by side again: entry (b, t, p, e) is the operand's at head e / 64, lane e % 64. -/
theorem merge_apply (h : S4x64x256x8x64.ShapeCasts S4x64x256x512) (a : S4x64x256x8x64.Idx → α)
    (b : Fin 4) (t : Fin 64) (p : Fin 256) (e : Fin 512) :
    shapeCast S4x64x256x512 a h (ix4 b t p e) = a (ix5 b t p (Cert.Spec.hOf e) (Cert.Spec.dOf e)) :=
  shapeCast_apply a h _ _ (by
    rw [Shape.rowMajor_val_four, Shape.rowMajor_val_five]
    show (((b.val * 64 + t.val) * 256 + p.val) * 8 + e.val / 64) * 64 + e.val % 64
      = ((b.val * 64 + t.val) * 256 + p.val) * 512 + e.val
    omega)

/-- Positions moved inside the (batch, column, head) axes: entry (b, p, h, t, d) is the operand's at (b, t, p, h, d). -/
theorem toHeads_apply (h : S4x64x256x8x64.Transposes [0, 2, 3, 1, 4] S4x256x8x64x64) (a : S4x64x256x8x64.Idx → α)
    (b : Fin 4) (p : Fin 256) (hh : Fin 8) (t : Fin 64) (d : Fin 64) :
    transpose S4x256x8x64x64 [0, 2, 3, 1, 4] a h (ix5 b p hh t d) = a (ix5 b t p hh d) :=
  transpose_apply _ a h _ _ fun c => match c with
    | ⟨0, _⟩ => rfl | ⟨1, _⟩ => rfl | ⟨2, _⟩ => rfl | ⟨3, _⟩ => rfl | ⟨4, _⟩ => rfl

/-- And moved back: entry (b, t, p, h, d) is the operand's at (b, p, h, t, d). -/
theorem fromHeads_apply (h : S4x256x8x64x64.Transposes [0, 3, 1, 2, 4] S4x64x256x8x64) (a : S4x256x8x64x64.Idx → α)
    (b : Fin 4) (t : Fin 64) (p : Fin 256) (hh : Fin 8) (d : Fin 64) :
    transpose S4x64x256x8x64 [0, 3, 1, 2, 4] a h (ix5 b t p hh d) = a (ix5 b p hh t d) :=
  transpose_apply _ a h _ _ fun c => match c with
    | ⟨0, _⟩ => rfl | ⟨1, _⟩ => rfl | ⟨2, _⟩ => rfl | ⟨3, _⟩ => rfl | ⟨4, _⟩ => rfl

/-- A statistic of each score row, given a unit last axis and broadcast along the row, reads the row's statistic. -/
theorem keepRow_apply (h1 : S4x256x8x64.BroadcastsInDim S4x256x8x64x1 (![0, 1, 2, 3] : Fin 4 → Fin S4x256x8x64x1.rank))
    (h2 : S4x256x8x64x1.BroadcastsInDim S4x256x8x64x64 (![0, 1, 2, 3, 4] : Fin 5 → Fin S4x256x8x64x64.rank))
    (a : S4x256x8x64.Idx → α) (b : Fin 4) (p : Fin 256) (hh : Fin 8) (t s : Fin 64) :
    broadcastInDim S4x256x8x64x64 ![0, 1, 2, 3, 4] h2 (broadcastInDim S4x256x8x64x1 ![0, 1, 2, 3] h1 a) (ix5 b p hh t s)
      = a (ix4 b p hh t) := by
  refine (broadcastInDim_apply _ h2 _ (ix5 b p hh t s) (ix5 b p hh t (0 : Fin 1)) fun ax => ?_).trans ?_
  · match ax with
    | ⟨0, _⟩ => rfl
    | ⟨1, _⟩ => rfl
    | ⟨2, _⟩ => rfl
    | ⟨3, _⟩ => rfl
    | ⟨4, _⟩ => rfl
  · refine broadcastInDim_apply _ h1 a _ (ix4 b p hh t) fun ax => ?_
    match ax with
    | ⟨0, _⟩ => rfl
    | ⟨1, _⟩ => rfl
    | ⟨2, _⟩ => rfl
    | ⟨3, _⟩ => rfl

/-- A statistic of each feature row given a unit last axis: entry (b, t, p, u) is the statistic at (b, t, p). -/
theorem keepFeat_apply (h : S4x64x256.BroadcastsInDim S4x64x256x1 (![0, 1, 2] : Fin 3 → Fin S4x64x256x1.rank))
    (a : S4x64x256.Idx → α) (b : Fin 4) (t : Fin 64) (p : Fin 256) (u : Fin 1) :
    broadcastInDim S4x64x256x1 ![0, 1, 2] h a (ix4 b t p u) = a (ix3 b t p) := by
  refine broadcastInDim_apply _ h a _ (ix3 b t p) fun ax => ?_
  match ax with
  | ⟨0, _⟩ => rfl
  | ⟨1, _⟩ => rfl
  | ⟨2, _⟩ => rfl

/-- A [4,64,256,1] array broadcast along the features: entry (b, t, p, f) is the operand's at (b, t, p, 0). -/
theorem alongFeat_apply (h : S4x64x256x1.BroadcastsInDim S4x64x256x512 (![0, 1, 2, 3] : Fin 4 → Fin S4x64x256x512.rank))
    (a : S4x64x256x1.Idx → α) (b : Fin 4) (t : Fin 64) (p : Fin 256) (f : Fin 512) :
    broadcastInDim S4x64x256x512 ![0, 1, 2, 3] h a (ix4 b t p f) = a (ix4 b t p (0 : Fin 1)) := by
  refine broadcastInDim_apply _ h a _ (ix4 b t p (0 : Fin 1)) fun ax => ?_
  match ax with
  | ⟨0, _⟩ => rfl
  | ⟨1, _⟩ => rfl
  | ⟨2, _⟩ => rfl
  | ⟨3, _⟩ => rfl

/-- The [64,64] mask broadcast over batch, column and head: entry (b, p, h, t, s) is the mask's at (t, s). -/
theorem maskBcast_apply (h : S64x64.BroadcastsInDim S4x256x8x64x64 (![3, 4] : Fin 2 → Fin S4x256x8x64x64.rank))
    (a : S64x64.Idx → α) (b : Fin 4) (p : Fin 256) (hh : Fin 8) (t s : Fin 64) :
    broadcastInDim S4x256x8x64x64 ![3, 4] h a (ix5 b p hh t s) = a (ix2 t s) := by
  refine broadcastInDim_apply _ h a _ (ix2 t s) fun ax => ?_
  match ax with
  | ⟨0, _⟩ => rfl
  | ⟨1, _⟩ => rfl

end Cert.ReferenceIdeal.HandValue

end
-- ==== Proof.RefDot.lean ====
/-
  The reference's three contractions read at an index: a projection of the features by a square matrix, the scores
  of a head (queries against keys over the 64 lanes), and a head's output (weights against values over the 64 key
  positions). Each is the sum over the one contracted coordinate of the products, left factor first.
-/
import proofs.«145929_j58798102282423_2_alg».proof.Proof.RefStages
import proofs.«145929_j58798102282423_2_alg».proof.Proof.SpecIdx
import Idealize.ShloMosaic.Lib.ValueLayout
import Idealize.ShloMosaic.Lib.IdealHost

set_option pp.maxSteps 5000
set_option pp.deepTerms false

noncomputable section

namespace Cert.ReferenceIdeal.HandValue

open Idealize.ShloMosaic Idealize.ShloMosaic.ValueIdx Cert.ReferenceIdeal Cert.ReferenceIdeal.Hand

open scoped BigOperators

/-- x[b,t,p,·] against W[f,·]: the sum over the features e of x[b,t,p,e] · W[f,e]. -/
theorem projDot_apply (l : FVec Ideal S4x64x256x512 .f32) (r : FVec Ideal S512x512 .f32)
    (b : Fin 4) (t : Fin 64) (p : Fin 256) (f : Fin 512) :
    Host.dotGeneral (F := Ideal) dot_S4x64x256x512_S512x512_S4x64x256x512_3_1_012_0_n_n none l r (ix4 b t p f)
      = ∑ e : Fin 512, l (ix4 b t p e) * r (ix2 f e) := by
  rw [Host.dotGeneral, Ideal.dotGeneral_apply,
    ← Equiv.sum_comp (contrEquiv1 dot_S4x64x256x512_S512x512_S4x64x256x512_3_1_012_0_n_n 512 rfl rfl).symm]
  refine Finset.sum_congr rfl fun e _ => ?_
  congr 2
  · funext ax
    match ax with
    | ⟨0, _⟩ => rfl
    | ⟨1, _⟩ => rfl
    | ⟨2, _⟩ => rfl
    | ⟨3, _⟩ => rfl
  · funext ax
    match ax with
    | ⟨0, _⟩ => rfl
    | ⟨1, _⟩ => rfl

/-- Queries against keys in one head: the sum over the lanes d of q[b,p,h,t,d] · k[b,p,h,s,d]. -/
theorem scoreDot_apply (l r : FVec Ideal S4x256x8x64x64 .f32)
    (b : Fin 4) (p : Fin 256) (hh : Fin 8) (t s : Fin 64) :
    Host.dotGeneral (F := Ideal) dot_S4x256x8x64x64_S4x256x8x64x64_S4x256x8x64x64_4_4_3_3_012_012 none l r (ix5 b p hh t s)
      = ∑ d : Fin 64, l (ix5 b p hh t d) * r (ix5 b p hh s d) := by
  rw [Host.dotGeneral, Ideal.dotGeneral_apply,
    ← Equiv.sum_comp (contrEquiv1 dot_S4x256x8x64x64_S4x256x8x64x64_S4x256x8x64x64_4_4_3_3_012_012 64 rfl rfl).symm]
  refine Finset.sum_congr rfl fun d _ => ?_
  congr 2
  · funext ax
    match ax with
    | ⟨0, _⟩ => rfl
    | ⟨1, _⟩ => rfl
    | ⟨2, _⟩ => rfl
    | ⟨3, _⟩ => rfl
    | ⟨4, _⟩ => rfl
  · funext ax
    match ax with
    | ⟨0, _⟩ => rfl
    | ⟨1, _⟩ => rfl
    | ⟨2, _⟩ => rfl
    | ⟨3, _⟩ => rfl
    | ⟨4, _⟩ => rfl

/-- Weights against values in one head: the sum over the key positions s of a[b,p,h,t,s] · v[b,p,h,s,d]. -/
theorem outDot_apply (l r : FVec Ideal S4x256x8x64x64 .f32)
    (b : Fin 4) (p : Fin 256) (hh : Fin 8) (t d : Fin 64) :
    Host.dotGeneral (F := Ideal) dot_S4x256x8x64x64_S4x256x8x64x64_S4x256x8x64x64_4_3_3_4_012_012 none l r (ix5 b p hh t d)
      = ∑ s : Fin 64, l (ix5 b p hh t s) * r (ix5 b p hh s d) := by
  rw [Host.dotGeneral, Ideal.dotGeneral_apply,
    ← Equiv.sum_comp (contrEquiv1 dot_S4x256x8x64x64_S4x256x8x64x64_S4x256x8x64x64_4_3_3_4_012_012 64 rfl rfl).symm]
  refine Finset.sum_congr rfl fun s _ => ?_
  congr 2
  · funext ax
    match ax with
    | ⟨0, _⟩ => rfl
    | ⟨1, _⟩ => rfl
    | ⟨2, _⟩ => rfl
    | ⟨3, _⟩ => rfl
    | ⟨4, _⟩ => rfl
  · funext ax
    match ax with
    | ⟨0, _⟩ => rfl
    | ⟨1, _⟩ => rfl
    | ⟨2, _⟩ => rfl
    | ⟨3, _⟩ => rfl
    | ⟨4, _⟩ => rfl

end Cert.ReferenceIdeal.HandValue

end
-- ==== Proof.RefReduce.lean ====
/-
  The reference's reductions over one axis read at an index: a score row's maximum (a fold of max from the initial
  value over the 64 key positions), a score row's sum, and a feature row's sum (the initial value plus the sum over
  the reduced coordinate).
-/
import proofs.«145929_j58798102282423_2_alg».proof.Proof.RefStages
import proofs.«145929_j58798102282423_2_alg».proof.Proof.SpecIdx
import Idealize.ShloMosaic.Lib.ValueLayout
import Idealize.ShloMosaic.Lib.IdealHost

set_option pp.maxSteps 5000
set_option pp.deepTerms false

noncomputable section

namespace Cert.ReferenceIdeal.HandValue

open Idealize.ShloMosaic Idealize.ShloMosaic.ValueIdx Cert.ReferenceIdeal Cert.ReferenceIdeal.Hand

open scoped BigOperators

/-- The one index of the scalar shape. -/
theorem first_eq_ix0 (hu : 0 < S_.numel) : Shape.Idx.first hu = (ix0 : S_.Idx) := eq_ix0 _

/-- A score row's maximum: the fold of max, from the initial value, over the key positions. -/
theorem rowMaxRed_apply (x : FVec Ideal S4x256x8x64x64 .f32) (v : FVec Ideal S_ .f32)
    (h' : S4x256x8x64x64.ReducesTo [4] S4x256x8x64) (hu : 0 < S_.numel)
    (b : Fin 4) (p : Fin 256) (hh : Fin 8) (t : Fin 64) :
    Host.reduce (FloatOps.maximumf (F := Ideal) (φ := .f32)) x v h' hu (ix4 b p hh t)
      = (Finset.univ : Finset (Fin 64)).fold max (v ix0) (fun s => x (ix5 b p hh t s)) := by
  have hR : S4x256x8x64x64.Reduces [4] S4x256x8x64 := by decide
  rw [Host.reduce_eq_fold_single (FloatOps.maximumf (F := Ideal) (φ := .f32)) x v h' hR hu, first_eq_ix0]
  show (Finset.univ : Finset (Fin 64)).fold max (v ix0) (fun s => x (hR.lift (ix4 b p hh t) s)) = _
  congr 1
  funext s
  refine congrArg x (funext fun ax => ?_)
  match ax with
  | ⟨0, _⟩ => rfl
  | ⟨1, _⟩ => rfl
  | ⟨2, _⟩ => rfl
  | ⟨3, _⟩ => rfl
  | ⟨4, _⟩ => rfl

/-- A score row's sum: the initial value plus the sum over the key positions. -/
theorem rowSumRed_apply (x : FVec Ideal S4x256x8x64x64 .f32) (v : FVec Ideal S_ .f32)
    (h' : S4x256x8x64x64.ReducesTo [4] S4x256x8x64) (hu : 0 < S_.numel)
    (b : Fin 4) (p : Fin 256) (hh : Fin 8) (t : Fin 64) :
    Host.reduceAdd (F := Ideal) x v h' hu (ix4 b p hh t) = v ix0 + ∑ s : Fin 64, x (ix5 b p hh t s) := by
  have hR : S4x256x8x64x64.Reduces [4] S4x256x8x64 := by decide
  show Ideal.hostReduceAdd h' x (v (Shape.Idx.first hu)) (ix4 b p hh t) = _
  rw [Ideal.hostReduceAdd_single h' hR, first_eq_ix0]
  congr 1
  refine Finset.sum_congr rfl fun s _ => congrArg x (funext fun ax => ?_)
  match ax with
  | ⟨0, _⟩ => rfl
  | ⟨1, _⟩ => rfl
  | ⟨2, _⟩ => rfl
  | ⟨3, _⟩ => rfl
  | ⟨4, _⟩ => rfl

/-- A feature row's sum: the initial value plus the sum over the 512 features. -/
theorem featSumRed_apply (x : FVec Ideal S4x64x256x512 .f32) (v : FVec Ideal S_ .f32)
    (h' : S4x64x256x512.ReducesTo [3] S4x64x256) (hu : 0 < S_.numel)
    (b : Fin 4) (t : Fin 64) (p : Fin 256) :
    Host.reduceAdd (F := Ideal) x v h' hu (ix3 b t p) = v ix0 + ∑ e : Fin 512, x (ix4 b t p e) := by
  have hR : S4x64x256x512.Reduces [3] S4x64x256 := by decide
  show Ideal.hostReduceAdd h' x (v (Shape.Idx.first hu)) (ix3 b t p) = _
  rw [Ideal.hostReduceAdd_single h' hR, first_eq_ix0]
  congr 1
  refine Finset.sum_congr rfl fun e _ => congrArg x (funext fun ax => ?_)
  match ax with
  | ⟨0, _⟩ => rfl
  | ⟨1, _⟩ => rfl
  | ⟨2, _⟩ => rfl
  | ⟨3, _⟩ => rfl

end Cert.ReferenceIdeal.HandValue

end
-- ==== Proof.RefMask.lean ====
/-
  The causal mask read at (t, s): the reference compares the row number (plus the offset 0) with the column number
  and clears the entry where row ≥ column, so the entry is set exactly when the key position s comes after the
  query position t.
-/
import proofs.«145929_j58798102282423_2_alg».proof.Proof.RefStages
import proofs.«145929_j58798102282423_2_alg».proof.Proof.SpecIdx
import Idealize.ShloMosaic.Lib.ValueLayout
import Idealize.ShloMosaic.Lib.IdealHost
import Idealize.ShloMosaic.Lib.Affine
set_option pp.maxSteps 5000
set_option pp.deepTerms false

noncomputable section

namespace Cert.ReferenceIdeal.HandValue

open Idealize.ShloMosaic Idealize.ShloMosaic.ValueIdx Cert.ReferenceIdeal Cert.ReferenceIdeal.Hand

/-- The mask's entry at (t, s) is 1 when t < s and 0 otherwise. -/
theorem mask_apply (hb : S_.BroadcastsInDim S64x64 (![] : Fin 0 → Fin S64x64.rank)) (t s : Fin 64) :
    select (cmpi .sge (addi (iotaInDim S64x64 32 0) (broadcastInDim S64x64 ![] hb (constantI S_ 32 0#32)))
        (iotaInDim S64x64 32 1))
      (broadcastInDim S64x64 ![] hb (constantI S_ 1 0#1)) (broadcastInDim S64x64 ![] hb (constantI S_ 1 1#1)) (ix2 t s)
      = if t < s then 1#1 else 0#1 := by
  have ht : Affine.IsInt (Scalar.addi (BitVec.ofNat 32 t.val) 0#32) (t.val : Int) :=
    Affine.addi (Affine.ofNat t.val ⟨rfl, by have := t.isLt; omega⟩) (Affine.ofNat 0 ⟨rfl, by norm_num⟩)
      ⟨by simp, by omega, by have := t.isLt; omega⟩
  have hs : Affine.IsInt (BitVec.ofNat 32 s.val) (s.val : Int) := Affine.ofNat s.val ⟨rfl, by have := s.isLt; omega⟩
  show Scalar.select (Scalar.cmpi .sge (Scalar.addi (BitVec.ofNat 32 t.val) 0#32) (BitVec.ofNat 32 s.val)) 0#1 1#1 = _
  by_cases h : t < s
  · rw [if_pos h]
    have hf := Affine.sge_fails ht hs (by have : t.val < s.val := h; omega)
    rw [eq_zero_of_ne_one hf, select_zero]
  · rw [if_neg h]
    have hh := Affine.sge_holds ht hs (by have : ¬ t.val < s.val := h; omega)
    rw [hh, select_one]

end Cert.ReferenceIdeal.HandValue

end
-- ==== Proof.RefConsts.lean ====
/-
  The host's elementwise quotient, exponential and reciprocal root read at an index, and
  the float words the reference spells whose values this proof needs: −∞, 0, and 512 (as the real it denotes, once,
  for the variance's guard), and the guard itself: 512 − 0 > 0 holds.
-/
import Idealize.ShloMosaic.PureOps.Ideal.Laws

noncomputable section

namespace Cert.ReferenceIdeal.HandValue

open Idealize.ShloMosaic

section Elementwise
variable {s : Shape} {φ : FTy}

/-- The host's quotient, exponential and reciprocal root at an index are the extended reals'. -/
theorem hostDivf_apply (a b : FVec Ideal s φ) (i : s.Idx) : Host.divf a b i = Ideal.div (a i) (b i) := rfl
theorem hostExp_apply (a : FVec Ideal s φ) (i : s.Idx) : Host.exp a i = Ideal.exp (a i) := rfl
theorem hostRsqrt_apply (a : FVec Ideal s φ) (i : s.Idx) : Host.rsqrt a i = Ideal.rsqrt (a i) := rfl

end Elementwise

/-- The word 0xFF800000 denotes −∞. -/
theorem ofBits_negInf : Ideal.ofBits .f32 0xFF800000#32 = (⊥ : EReal) := by
  simp [Ideal.ofBits, Ideal.ieee]

/-- The word 0x44000000 denotes the real 512. -/
theorem ofBits_512 : Ideal.ofBits .f32 0x44000000#32 = ((512 : ℝ) : EReal) := by
  simp [Ideal.ofBits, Ideal.ieee, -EReal.coe_mul]; norm_num

/-- The integer word 0 converts to the real 0. -/
theorem sitofp_zero : ((((0#32 : BitVec 32).toInt : ℤ) : ℝ) : EReal) = 0 := by
  simp

/-- 512 less the converted integer 0 is 512 again. -/
theorem c512_sub_zero :
    Ideal.ofBits .f32 0x44000000#32 - ((((0#32 : BitVec 32).toInt : ℤ) : ℝ) : EReal) = Ideal.ofBits .f32 0x44000000#32 := by
  rw [sitofp_zero, sub_zero]

/-- The variance's guard: 512 > 0. -/
theorem guard_holds : Ideal.cmp .ogt (Ideal.ofBits .f32 0x44000000#32) (Ideal.ofBits .f32 0x00000000#32) = 1#1 := by
  rw [ofBits_512, Ideal.ofBits_zero_f32]
  have h : (0 : EReal) < ((512 : ℝ) : EReal) := by exact_mod_cast (by norm_num : (0 : ℝ) < 512)
  simp [Ideal.cmp, h]

end Cert.ReferenceIdeal.HandValue

end
-- ==== Proof.RefAttn.lean ====
/-
  The attention half of the reference, read at an index. The three projections in head layout read as the
  specification's projections of one column; the masked, scaled scores as a masked row; the exponentials of the
  scores less the row's maximum, normalised by their sum, as the reference's weights; and the weighted values, with
  the heads laid side by side again, as the merged head outputs.
-/
import proofs.«145929_j58798102282423_2_alg».proof.Proof.RefStages
import proofs.«145929_j58798102282423_2_alg».proof.Proof.SpecIdx
import Idealize.ShloMosaic.Lib.ValueLayout
import Idealize.ShloMosaic.Lib.IdealHost
import proofs.«145929_j58798102282423_2_alg».proof.Proof.RefLayout
import proofs.«145929_j58798102282423_2_alg».proof.Proof.RefDot
import proofs.«145929_j58798102282423_2_alg».proof.Proof.RefReduce
import proofs.«145929_j58798102282423_2_alg».proof.Proof.RefMask
import proofs.«145929_j58798102282423_2_alg».proof.Proof.RefConsts
set_option pp.maxSteps 5000
set_option pp.deepTerms false

noncomputable section

namespace Cert.ReferenceIdeal.HandValue

open Idealize.ShloMosaic Idealize.ShloMosaic.ValueIdx Cert.ReferenceIdeal Cert.ReferenceIdeal.Hand

open Cert.Spec
open scoped BigOperators

/-- A projection of the activations, plus its bias, in head layout [4, 256, 8, 64, 64]. -/
def headProj (x : FVec Ideal S4x64x256x512 .f32) (W : FVec Ideal S512x512 .f32) (bias : FVec Ideal S512 .f32) :
    FVec Ideal S4x256x8x64x64 .f32 :=
  s_v5 (s_v4 (s_v3 (s_v0 x W) (s_v2 (s_v1 bias))))

/-- Its entry (b, p, h, t, d) is the projection of column (b, p) at position t, feature h·64 + d. -/
theorem headProj_apply (x : FVec Ideal S4x64x256x512 .f32) (W : FVec Ideal S512x512 .f32) (bias : FVec Ideal S512 .f32)
    (b : Fin 4) (p : Fin 256) (hh : Fin 8) (t d : Fin 64) :
    headProj x W bias (ix5 b p hh t d) = proj (fun t' e => actOf x b t' p e) (matOf W) (rowOf bias) t (hd hh d) := by
  unfold headProj s_v5 s_v4 s_v3 s_v2 s_v1 s_v0
  rw [toHeads_apply, split_apply, addf_apply, projDot_apply, bcastRow_apply]
  rfl

/-- The causal mask as the reference builds it. -/
def maskV : IVec S64x64 1 :=
  s_v22 (s_call0_v4 (s_call0_v2 s_call0_v0 (s_call0_v1 s_call0_c)) s_call0_v3) (s_call0_v5 s_call0_c_0) (s_v21 s_c)

theorem maskV_apply (t s : Fin 64) : maskV (ix2 t s) = if t < s then 1#1 else 0#1 := by
  unfold maskV s_v22 s_call0_v4 s_call0_v2 s_call0_v0 s_call0_v1 s_call0_c s_call0_v3 s_call0_v5 s_call0_c_0 s_v21 s_c
  exact mask_apply _ t s

/-- The scores of queries against keys, divided by 8, with −∞ at the masked entries. -/
def maskedScores (Q K : FVec Ideal S4x256x8x64x64 .f32) : FVec Ideal S4x256x8x64x64 .f32 :=
  s_v23 (s_call1_v1 maskV) (s_call1_v2 (s_call1_v0 s_cst_0)) (s_v20 (s_v18 Q K) (s_v19 s_cst))

theorem maskedScores_apply (Q K : FVec Ideal S4x256x8x64x64 .f32) (b : Fin 4) (p : Fin 256) (hh : Fin 8) (t s : Fin 64) :
    maskedScores Q K (ix5 b p hh t s)
      = maskRow (fun s' => scaleR (∑ d : Fin 64, Q (ix5 b p hh t d) * K (ix5 b p hh s' d))) t s := by
  unfold maskedScores s_v23 s_call1_v1 s_call1_v2 s_call1_v0 s_cst_0 s_v20 s_v18 s_v19 s_cst
  rw [select_apply, maskBcast_apply, maskV_apply, hostDivf_apply, scoreDot_apply, broadcastInDim_scalar_apply,
    broadcastInDim_scalar_apply]
  show Scalar.select (if t < s then 1#1 else 0#1) (Ideal.ofBits .f32 0xFF800000#32)
      (Ideal.div (∑ d : Fin 64, Q (ix5 b p hh t d) * K (ix5 b p hh s d)) cEight)
    = if t < s then ⊥ else Ideal.div (∑ d : Fin 64, Q (ix5 b p hh t d) * K (ix5 b p hh s d)) cEight
  rw [ofBits_negInf]
  by_cases h : t < s
  · rw [if_pos h, if_pos h, select_one]
  · rw [if_neg h, if_neg h, select_zero]

/-- The exponentials of the entries less their row's maximum (joined once more with −∞). -/
def expV (S : FVec Ideal S4x256x8x64x64 .f32) : FVec Ideal S4x256x8x64x64 .f32 :=
  s_v30 (s_v29 S (s_v28 (s_v27 (s_v26 (s_v25 s_cst_2) (s_v24 S s_cst_1)))))

theorem expV_apply (S : FVec Ideal S4x256x8x64x64 .f32) (b : Fin 4) (p : Fin 256) (hh : Fin 8) (t s : Fin 64) :
    expV S (ix5 b p hh t s)
      = Ideal.exp (S (ix5 b p hh t s)
          - max ⊥ ((Finset.univ : Finset (Fin 64)).fold max ⊥ (fun s' => S (ix5 b p hh t s')))) := by
  unfold expV s_v30 s_v29 s_v28 s_v27 s_v26 s_v25 s_cst_2 s_v24 s_cst_1
  rw [hostExp_apply, subf_apply, keepRow_apply, maximumf_apply, broadcastInDim_scalar_apply, rowMaxRed_apply,
    constant_apply, ofBits_negInf]

/-- Those exponentials divided by their row's sum. -/
def softmaxV (S : FVec Ideal S4x256x8x64x64 .f32) : FVec Ideal S4x256x8x64x64 .f32 :=
  s_v34 (expV S) (s_v33 (s_v32 (s_v31 (expV S) s_cst_3)))

/-- On a row that reads as a masked row of scores these are the reference's normalised weights. -/
theorem softmaxV_apply_of (S : FVec Ideal S4x256x8x64x64 .f32) (b : Fin 4) (p : Fin 256) (hh : Fin 8) (t : Fin 64)
    (sc : Fin 64 → EReal) (hS : ∀ s, S (ix5 b p hh t s) = maskRow sc t s) (s : Fin 64) :
    softmaxV S (ix5 b p hh t s) = nrmR (wgtR sc t s) (∑ s'' : Fin 64, wgtR sc t s'') := by
  have hE : ∀ s, expV S (ix5 b p hh t s) = wgtR sc t s := fun s => by
    rw [expV_apply, hS, show (fun s' => S (ix5 b p hh t s')) = maskRow sc t from funext hS]
    rfl
  unfold softmaxV s_v34 s_v33 s_v32 s_v31 s_cst_3
  rw [hostDivf_apply, keepRow_apply, rowSumRed_apply, constant_apply, Ideal.ofBits_zero_f32, zero_add]
  simp only [hE]
  rfl

/-- The weights against the values: one head's output, in head layout. -/
def attnCore (Q K V : FVec Ideal S4x256x8x64x64 .f32) : FVec Ideal S4x256x8x64x64 .f32 :=
  s_v35 (softmaxV (maskedScores Q K)) V

theorem attnCore_apply_of (Q K V : FVec Ideal S4x256x8x64x64 .f32) (b : Fin 4) (p : Fin 256) (qc kc vc : Col)
    (hq : ∀ h t d, Q (ix5 b p h t d) = qc t (hd h d)) (hk : ∀ h t d, K (ix5 b p h t d) = kc t (hd h d))
    (hv : ∀ h t d, V (ix5 b p h t d) = vc t (hd h d)) (hh : Fin 8) (t d : Fin 64) :
    attnCore Q K V (ix5 b p hh t d) = headOut scaleR wgtR nrmR qc kc vc hh t d := by
  have hS : ∀ s, maskedScores Q K (ix5 b p hh t s) = maskRow (fun s' => scaleR (qk qc kc hh t s')) t s := fun s => by
    rw [maskedScores_apply]
    simp only [hq, hk]
    rfl
  unfold attnCore s_v35
  rw [outDot_apply]
  unfold headOut
  refine Finset.sum_congr rfl fun s _ => ?_
  rw [hv, softmaxV_apply_of (maskedScores Q K) b p hh t _ hS]

/-- The heads laid side by side again: the attention's output, [4, 64, 256, 512]. -/
def attnOut (Q K V : FVec Ideal S4x256x8x64x64 .f32) : FVec Ideal S4x64x256x512 .f32 :=
  s_v37 (s_v36 (attnCore Q K V))

theorem attnOut_apply_of (Q K V : FVec Ideal S4x256x8x64x64 .f32) (b : Fin 4) (p : Fin 256) (qc kc vc : Col)
    (hq : ∀ h t d, Q (ix5 b p h t d) = qc t (hd h d)) (hk : ∀ h t d, K (ix5 b p h t d) = kc t (hd h d))
    (hv : ∀ h t d, V (ix5 b p h t d) = vc t (hd h d)) (t : Fin 64) (e : Fin 512) :
    attnOut Q K V (ix4 b t p e) = merged (headOut scaleR wgtR nrmR qc kc vc) t e := by
  unfold attnOut s_v37 s_v36
  rw [merge_apply, fromHeads_apply, attnCore_apply_of Q K V b p qc kc vc hq hk hv]
  rfl

/-- The output projection, its bias, and the residual. -/
def residV (x A : FVec Ideal S4x64x256x512 .f32) (Wo : FVec Ideal S512x512 .f32) (bo : FVec Ideal S512 .f32) :
    FVec Ideal S4x64x256x512 .f32 :=
  s_v42 x (s_v41 (s_v38 A Wo) (s_v40 (s_v39 bo)))

theorem residV_apply_of (x A : FVec Ideal S4x64x256x512 .f32) (Wo : FVec Ideal S512x512 .f32) (bo : FVec Ideal S512 .f32)
    (b : Fin 4) (t : Fin 64) (p : Fin 256) (o : Col) (hA : ∀ e, A (ix4 b t p e) = o t e) (f : Fin 512) :
    residV x A Wo bo (ix4 b t p f) = resid (fun t' e => actOf x b t' p e) o (matOf Wo) (rowOf bo) t f := by
  unfold residV s_v42 s_v41 s_v38 s_v40 s_v39
  rw [addf_apply, addf_apply, projDot_apply, bcastRow_apply]
  simp only [hA]
  rfl

end Cert.ReferenceIdeal.HandValue

end
-- ==== Proof.RefNorm.lean ====
/-
  The normalisation half of the reference, read at an index, as a function of the array y it normalises: each row's
  mean, its variance (the guarded quotient, whose guard 512 − 0 > 0 holds), and the row centred, scaled by the
  reciprocal root of the variance plus the offset, then by g, and shifted by β.
-/
import proofs.«145929_j58798102282423_2_alg».proof.Proof.RefStages
import proofs.«145929_j58798102282423_2_alg».proof.Proof.SpecIdx
import Idealize.ShloMosaic.Lib.ValueLayout
import Idealize.ShloMosaic.Lib.IdealHost
import proofs.«145929_j58798102282423_2_alg».proof.Proof.RefLayout
import proofs.«145929_j58798102282423_2_alg».proof.Proof.RefReduce
import proofs.«145929_j58798102282423_2_alg».proof.Proof.RefConsts
set_option pp.maxSteps 5000
set_option pp.deepTerms false

noncomputable section

namespace Cert.ReferenceIdeal.HandValue

open Idealize.ShloMosaic Idealize.ShloMosaic.ValueIdx Cert.ReferenceIdeal Cert.ReferenceIdeal.Hand

open Cert.Spec
open scoped BigOperators

/-- The row means, with a unit last axis. -/
def meanV (y : FVec Ideal S4x64x256x512 .f32) : FVec Ideal S4x64x256x1 .f32 :=
  s_v46 (s_v44 (s_v43 y s_cst_4)) (s_v45 s_cst_5)

theorem meanV_apply (y : FVec Ideal S4x64x256x512 .f32) (b : Fin 4) (t : Fin 64) (p : Fin 256) (u : Fin 1) :
    meanV y (ix4 b t p u) = Ideal.div (∑ e : Fin 512, y (ix4 b t p e)) c512 := by
  unfold meanV s_v46 s_v44 s_v43 s_cst_4 s_v45 s_cst_5
  rw [hostDivf_apply, keepFeat_apply, featSumRed_apply, constant_apply, Ideal.ofBits_zero_f32, zero_add,
    broadcastInDim_scalar_apply]
  rfl

/-- The row variances, with a unit last axis: the mean of the squared deviations, selected under the guard. -/
def varV (y : FVec Ideal S4x64x256x512 .f32) : FVec Ideal S4x64x256x1 .f32 :=
  s_v47 (s_call2_v13 (s_call2_v8 s_call2_cst_1 (s_call2_v7 s_c_6)) s_call2_cst_3)
    (s_call2_v12
      (s_call2_v10 (s_call2_v9 (s_call2_v6 (s_call2_v5 y (s_call2_v4 (meanV y))) (s_call2_v5 y (s_call2_v4 (meanV y))))
        s_call2_cst_2))
      (s_call2_v11 (s_call2_v8 s_call2_cst_1 (s_call2_v7 s_c_6))))
    (s_call2_call0_v1 (s_call2_call0_v0 s_call2_cst_4))

/-- The divisor 512 − 0, and the guard on it. -/
theorem divisor_eq : s_call2_v8 s_call2_cst_1 (s_call2_v7 s_c_6) ix0 = c512 := by
  show Ideal.ofBits .f32 0x44000000#32 - ((((0#32 : BitVec 32).toInt : ℤ) : ℝ) : EReal) = Ideal.ofBits .f32 0x44000000#32
  exact c512_sub_zero

theorem guard_eq : s_call2_v13 (s_call2_v8 s_call2_cst_1 (s_call2_v7 s_c_6)) s_call2_cst_3 ix0 = 1#1 := by
  show Ideal.cmp .ogt (s_call2_v8 s_call2_cst_1 (s_call2_v7 s_c_6) ix0) (Ideal.ofBits .f32 0x00000000#32) = 1#1
  rw [divisor_eq]
  exact guard_holds

theorem varV_apply (y : FVec Ideal S4x64x256x512 .f32) (b : Fin 4) (t : Fin 64) (p : Fin 256) (u : Fin 1) :
    varV y (ix4 b t p u)
      = Ideal.div (∑ e : Fin 512, (y (ix4 b t p e) - Ideal.div (∑ e' : Fin 512, y (ix4 b t p e')) c512)
          * (y (ix4 b t p e) - Ideal.div (∑ e' : Fin 512, y (ix4 b t p e')) c512)) c512 := by
  unfold varV s_v47
  rw [select_apply, broadcastInDim_scalar_apply, guard_eq, select_one]
  unfold s_call2_v12 s_call2_v10 s_call2_v9 s_call2_v11 s_call2_cst_2
  rw [hostDivf_apply, keepFeat_apply, featSumRed_apply, constant_apply, Ideal.ofBits_zero_f32, zero_add,
    broadcastInDim_scalar_apply, divisor_eq]
  congr 1
  refine Finset.sum_congr rfl fun e _ => ?_
  unfold s_call2_v6 s_call2_v5 s_call2_v4
  rw [mulf_apply, subf_apply, alongFeat_apply, meanV_apply]

/-- The normalised array. -/
def lnOut (y : FVec Ideal S4x64x256x512 .f32) (g beta : FVec Ideal S512 .f32) : FVec Ideal S4x64x256x512 .f32 :=
  s_v60 (s_v57 (s_v54 (s_v49 y (s_v48 (meanV y))) (s_v53 (s_v52 (s_v51 (varV y) (s_v50 s_cst_7))))) (s_v56 (s_v55 g)))
    (s_v59 (s_v58 beta))

/-- Where row (b, t, p) of y reads as the row yr, entry (b, t, p, f) is the layer normalisation of yr at f. -/
theorem lnOut_apply_of (y : FVec Ideal S4x64x256x512 .f32) (g beta : FVec Ideal S512 .f32)
    (b : Fin 4) (t : Fin 64) (p : Fin 256) (yr : Row) (hy : ∀ e, y (ix4 b t p e) = yr e) (f : Fin 512) :
    lnOut y g beta (ix4 b t p f) = lnRow (rowOf g) (rowOf beta) yr f := by
  unfold lnOut s_v60 s_v57 s_v54 s_v49 s_v48 s_v53 s_v52 s_v51 s_v50 s_cst_7 s_v56 s_v55 s_v59 s_v58
  rw [addf_apply, mulf_apply, mulf_apply, subf_apply, alongFeat_apply, meanV_apply, alongFeat_apply, hostRsqrt_apply,
    addf_apply, varV_apply, broadcastInDim_scalar_apply, bcastRow_apply, bcastRow_apply]
  simp only [hy]
  rfl

end Cert.ReferenceIdeal.HandValue

end
-- ==== Proof.RefValue.lean ====
/-
  The reference's result read at an index: entry (b, t, p, f) of its output is the specification's value there, at
  the reference's own spellings of the score scale, the masked weight and the normalisation. The program is the
  normalisation of the residual of the attention of the three projections; each part is read at an index in its own
  module, and here they are chained.
-/
import proofs.«145929_j58798102282423_2_alg».proof.Proof.RefStages
import proofs.«145929_j58798102282423_2_alg».proof.Proof.SpecIdx
import Idealize.ShloMosaic.Lib.ValueLayout
import Idealize.ShloMosaic.Lib.IdealHost
import proofs.«145929_j58798102282423_2_alg».proof.Proof.RefAttn
import proofs.«145929_j58798102282423_2_alg».proof.Proof.RefNorm
set_option pp.maxSteps 5000
set_option pp.deepTerms false

noncomputable section

namespace Cert.ReferenceIdeal.HandValue

open Idealize.ShloMosaic Idealize.ShloMosaic.ValueIdx Cert.ReferenceIdeal Cert.ReferenceIdeal.Hand

open Cert.Spec

/-- The program as the composition of its parts. -/
theorem out_eq (x : FVec Ideal S4x64x256x512 .f32) (Wq : FVec Ideal S512x512 .f32) (bq : FVec Ideal S512 .f32)
    (Wk : FVec Ideal S512x512 .f32) (bk : FVec Ideal S512 .f32) (Wv : FVec Ideal S512x512 .f32) (bv : FVec Ideal S512 .f32)
    (Wo : FVec Ideal S512x512 .f32) (bo : FVec Ideal S512 .f32) (g : FVec Ideal S512 .f32) (beta : FVec Ideal S512 .f32) :
    out x Wq bq Wk bk Wv bv Wo bo g beta
      = lnOut (residV x (attnOut (headProj x Wq bq) (headProj x Wk bk) (headProj x Wv bv)) Wo bo) g beta := rfl

/-- Entry (b, t, p, f) of the reference's result is `Gref` of the arguments, read as functions of coordinates. -/
theorem out_apply (x : FVec Ideal S4x64x256x512 .f32) (Wq : FVec Ideal S512x512 .f32) (bq : FVec Ideal S512 .f32)
    (Wk : FVec Ideal S512x512 .f32) (bk : FVec Ideal S512 .f32) (Wv : FVec Ideal S512x512 .f32) (bv : FVec Ideal S512 .f32)
    (Wo : FVec Ideal S512x512 .f32) (bo : FVec Ideal S512 .f32) (g : FVec Ideal S512 .f32) (beta : FVec Ideal S512 .f32)
    (b : Fin 4) (t : Fin 64) (p : Fin 256) (f : Fin 512) :
    Cert.ReferenceIdeal.Hand.out x Wq bq Wk bk Wv bv Wo bo g beta (ValueIdx.ix4 b t p f)
      = Cert.Spec.Gref (Cert.Spec.actOf x) (Cert.Spec.matOf Wq) (Cert.Spec.rowOf bq) (Cert.Spec.matOf Wk) (Cert.Spec.rowOf bk)
          (Cert.Spec.matOf Wv) (Cert.Spec.rowOf bv) (Cert.Spec.matOf Wo) (Cert.Spec.rowOf bo) (Cert.Spec.rowOf g)
          (Cert.Spec.rowOf beta) b t p f := by
  rw [out_eq]
  exact lnOut_apply_of _ g beta b t p _
    (fun e => residV_apply_of x _ Wo bo b t p _
      (fun e' => attnOut_apply_of _ _ _ b p _ _ _ (headProj_apply x Wq bq b p) (headProj_apply x Wk bk b p)
        (headProj_apply x Wv bv b p) t e') e) f

end Cert.ReferenceIdeal.HandValue

end
-- ==== Proof.Laws.lean ====
/-
  The laws that join the two programs' spellings.

  Scaling: 8 and 1/8 are exact, and on every extended real the quotient by a nonzero real is the product with its
  reciprocal, so  a / 8 = a · (1/8).
  Masking: −∞ less anything is −∞ and its exponential is 0, and joining a maximum once more with −∞ changes nothing,
  so the exponential of the MASKED score less the maximum is the kernel's "zero at a masked key, else the exponential
  of the unmasked score less the maximum" — for every row, finite or not.
  Normalising: for l ≠ 0 the quotient w / l is w · l⁻¹ and 1 / l is l⁻¹, so  w / l = w · (1 / l).  At l = 0 the two
  differ (0 · ⊤ = 0 against the quotient 0 / 0), which is where finiteness is used: when the scores of a row are real
  numbers the maximum over the unmasked keys is a real number, attained at or above the query's own key (never
  masked), so that key's weight is the exponential of a real number, positive, every weight is ≥ 0, and the sum is
  not zero. Scores are real when the query and key projections are, and those are finite sums of products of reals
  when x, W_q, b_q, W_k, b_k are finite.
-/
import proofs.«145929_j58798102282423_2_alg».proof.Proof.Spec

noncomputable section

namespace Cert.Spec

open Idealize.ShloMosaic

/-! ## Real entries -/

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem IsReal.ne_top {a : EReal} (h : IsReal a) : a ≠ ⊤ := by obtain ⟨r, rfl⟩ := h; exact EReal.coe_ne_top r
theorem IsReal.ne_bot {a : EReal} (h : IsReal a) : a ≠ ⊥ := by obtain ⟨r, rfl⟩ := h; exact EReal.coe_ne_bot r
theorem isReal_of_ne {a : EReal} (h1 : a ≠ ⊤) (h2 : a ≠ ⊥) : IsReal a := ⟨a.toReal, (EReal.coe_toReal h1 h2).symm⟩

/-! ## The constants -/

theorem cEight_eq : cEight = ((8 : ℝ) : EReal) := by
  unfold cEight; simp [Ideal.ofBits, Ideal.ieee, -EReal.coe_mul]; norm_num

theorem cEighth_eq : cEighth = ((1 / 8 : ℝ) : EReal) := by
  unfold cEighth; simp [Ideal.ofBits, Ideal.ieee, -EReal.coe_mul]; norm_num

/-! ## The three spellings -/

/-- a / 8 = a · (1/8), on every extended real. -/
theorem scale_eq (a : EReal) : scaleR a = scaleK a := by
  unfold scaleR scaleK
  rw [cEight_eq, cEighth_eq, Ideal.div_coe (by norm_num : (8 : ℝ) ≠ 0)]

/-- The exponential of the masked score less the maximum is zero at a masked key and the exponential of the unmasked
    score less the maximum elsewhere — for every row of extended reals. -/
theorem wgt_eq (sc : Fin 64 → EReal) (t s : Fin 64) : wgtR sc t s = wgtK sc t s := by
  unfold wgtR wgtK maskRow
  rw [max_eq_right bot_le]
  by_cases h : t < s
  · rw [if_pos h, if_pos h, sub_eq_add_neg, EReal.bot_add, Ideal.exp_bot]
  · rw [if_neg h, if_neg h]

/-- w / l = w · (1 / l) for l ≠ 0. -/
theorem nrm_eq (w l : EReal) (hl : l ≠ 0) : nrmR w l = nrmK w l := by
  unfold nrmR nrmK Ideal.div
  rw [if_neg hl, if_neg hl, one_mul]

/-! ## The sum of a real row's weights is not zero -/

theorem exp_nonneg (a : EReal) : 0 ≤ Ideal.exp a := by
  induction a using EReal.rec with
  | bot => exact le_of_eq Ideal.exp_bot.symm
  | top => exact le_top
  | coe r => rw [Ideal.exp_coe]; exact_mod_cast (Real.exp_pos r).le

theorem wgtK_nonneg (sc : Fin 64 → EReal) (t s : Fin 64) : 0 ≤ wgtK sc t s := by
  unfold wgtK; split_ifs
  · exact le_refl 0
  · exact exp_nonneg _

/-- The maximum over the unmasked keys of a real row is a real number. -/
theorem rowMax_real (sc : Fin 64 → EReal) (hsc : ∀ s, IsReal (sc s)) (t : Fin 64) : IsReal (rowMax sc t) := by
  refine isReal_of_ne ?_ ?_
  · refine ne_of_lt ?_
    unfold rowMax
    rw [Finset.fold_max_lt]
    refine ⟨bot_lt_top, fun s _ => ?_⟩
    unfold maskRow
    split_ifs
    · exact bot_lt_top
    · exact lt_top_iff_ne_top.mpr (hsc s).ne_top
  · have h : sc t ≤ rowMax sc t := by
      unfold rowMax
      rw [Finset.le_fold_max]
      refine Or.inr ⟨t, Finset.mem_univ t, ?_⟩
      unfold maskRow
      rw [if_neg (lt_irrefl t)]
    intro hb
    rw [hb] at h
    exact (hsc t).ne_bot (le_bot_iff.mp h)

/-- The query's own key has a positive weight. -/
theorem wgtK_self_pos (sc : Fin 64 → EReal) (hsc : ∀ s, IsReal (sc s)) (t : Fin 64) : 0 < wgtK sc t t := by
  unfold wgtK
  rw [if_neg (lt_irrefl t)]
  obtain ⟨a, ha⟩ := hsc t
  obtain ⟨m, hm⟩ := rowMax_real sc hsc t
  rw [ha, hm, ← EReal.coe_sub, Ideal.exp_coe]
  exact_mod_cast Real.exp_pos _

theorem den_ne_zero (sc : Fin 64 → EReal) (hsc : ∀ s, IsReal (sc s)) (t : Fin 64) :
    (∑ s : Fin 64, wgtK sc t s) ≠ 0 := by
  have h1 : wgtK sc t t ≤ ∑ s : Fin 64, wgtK sc t s :=
    Finset.single_le_sum (f := fun s => wgtK sc t s) (fun s _ => wgtK_nonneg sc t s) (Finset.mem_univ t)
  exact (lt_of_lt_of_le (wgtK_self_pos sc hsc t) h1).ne'

/-! ## The two programs' results agree on finite inputs -/

theorem proj_real (xc : Col) (W : Mat) (bias : Row) (hx : ∀ t e, IsReal (xc t e)) (hW : ∀ f e, IsReal (W f e))
    (hb : ∀ f, IsReal (bias f)) (t : Fin 64) (f : Fin 512) : IsReal (proj xc W bias t f) := by
  unfold proj
  exact (IsReal.sum _ _ fun e _ => (hx t e).mul (hW f e)).add (hb f)

theorem scaleK_qk_real (q k : Col) (hq : ∀ t e, IsReal (q t e)) (hk : ∀ t e, IsReal (k t e)) (h : Fin 8) (t s : Fin 64) :
    IsReal (scaleK (qk q k h t s)) := by
  unfold scaleK qk
  rw [cEighth_eq]
  exact (IsReal.sum _ _ fun d _ => (hq t _).mul (hk s _)).mul ⟨_, rfl⟩

/-- One head: the reference's spellings give the kernel's, when the query and key projections are real. -/
theorem headOut_eq (q k v : Col) (hq : ∀ t e, IsReal (q t e)) (hk : ∀ t e, IsReal (k t e)) :
    headOut scaleR wgtR nrmR q k v = headOut scaleK wgtK nrmK q k v := by
  have h1 : scaleR = scaleK := funext scale_eq
  have h2 : wgtR = wgtK := funext fun sc => funext fun t => funext fun s => wgt_eq sc t s
  rw [h1, h2]
  funext h t d
  unfold headOut
  refine Finset.sum_congr rfl fun s _ => ?_
  rw [nrm_eq _ _ (den_ne_zero _ (fun s' => scaleK_qk_real q k hq hk h t s') t)]

theorem colRun_eq (xc : Col) (Wq : Mat) (bq : Row) (Wk : Mat) (bk : Row) (Wv : Mat) (bv : Row) (Wo : Mat) (bo : Row)
    (g beta : Row) (hx : ∀ t e, IsReal (xc t e)) (hWq : ∀ f e, IsReal (Wq f e)) (hbq : ∀ f, IsReal (bq f))
    (hWk : ∀ f e, IsReal (Wk f e)) (hbk : ∀ f, IsReal (bk f)) :
    colRun scaleR wgtR nrmR xc Wq bq Wk bk Wv bv Wo bo g beta
      = colRun scaleK wgtK nrmK xc Wq bq Wk bk Wv bv Wo bo g beta := by
  unfold colRun
  rw [headOut_eq _ _ _ (proj_real xc Wq bq hx hWq hbq) (proj_real xc Wk bk hx hWk hbk)]

/-- The reference's result is the kernel's, for finite x, W_q, b_q, W_k, b_k. -/
theorem Gref_eq_G (x : Act) (Wq : Mat) (bq : Row) (Wk : Mat) (bk : Row) (Wv : Mat) (bv : Row) (Wo : Mat) (bo : Row)
    (g beta : Row) (hx : ∀ b t p e, IsReal (x b t p e)) (hWq : ∀ f e, IsReal (Wq f e)) (hbq : ∀ f, IsReal (bq f))
    (hWk : ∀ f e, IsReal (Wk f e)) (hbk : ∀ f, IsReal (bk f)) :
    Gref x Wq bq Wk bk Wv bv Wo bo g beta = G x Wq bq Wk bk Wv bv Wo bo g beta := by
  unfold Gref G run
  funext b t p f
  rw [colRun_eq _ _ _ _ _ _ _ _ _ _ _ (fun t' e => hx b t' p e) hWq hbq hWk hbk]

end Cert.Spec

end
-- ==== Proof.Finite.lean ====
/-
  The precondition read back at the ideal values. The printed predicate is, for each float argument x, the reduction
  by "and" over all indices of the comparison max x (-x) < +infinity, and the eleven results are joined by "and".
  If the whole is 1 then each reduction is 1, so each comparison is 1 at every index, and an extended real whose
  absolute value lies strictly below the top element is neither top nor bottom: it is a real number.
-/
import proofs.«145929_j58798102282423_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Hand

open Idealize.ShloMosaic Cert.Pre_finite_inputs

/-- The shape of rank zero has one index. -/
instance subsingleton_S_ : Subsingleton S_.Idx := ⟨fun a b => funext fun d => d.elim0⟩

/-- The pattern 0x7F800000 denotes the top element. -/
theorem inf_pattern : Ideal.ofBits .f32 0x7F800000#32 = ⊤ := by
  simp [Ideal.ofBits, Ideal.ieee]

/-- An extended real with max x (-x) strictly below the top element is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One element: the comparison |x| < +infinity being 1 makes x real. -/
theorem real_of_elem (x : Ideal .f32)
    (h : FloatOps.cmpf .olt (FloatOps.hostAbsf x) (FloatOps.ofBits (F := Ideal) .f32 0x7F800000#32) = 1#1) :
    ∃ r : ℝ, x = (r : EReal) := by
  have hs : FloatOps.ofBits (F := Ideal) .f32 0x7F800000#32 = Ideal.ofBits .f32 0x7F800000#32 := rfl
  rw [Ideal.hostAbsf_def, Ideal.cmpf_def, Ideal.absf_def, hs, inf_pattern] at h
  apply real_of_abs_lt_top
  by_contra hn
  simp [Ideal.cmp, hn] at h

/-- One argument: the reduction by "and" of the comparison over every index being 1 makes every element real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
          (constantI S_ 1 1#1) hr hu ValueIdx.ix0 = 1#1) :
    ∀ i, ∃ r : ℝ, a i = (r : EReal) := by
  intro i
  exact real_of_elem (a i) (Host.reduce_andi_all _ _ hr hu ValueIdx.ix0 e i)

theorem real_of_pre (a0 : FVec Ideal S4x64x256x512 .f32) (a1 : FVec Ideal S512x512 .f32) (a2 : FVec Ideal S512 .f32) (a3 : FVec Ideal S512x512 .f32) (a4 : FVec Ideal S512 .f32) (a5 : FVec Ideal S512x512 .f32) (a6 : FVec Ideal S512 .f32) (a7 : FVec Ideal S512x512 .f32) (a8 : FVec Ideal S512 .f32) (a9 : FVec Ideal S512 .f32) (a10 : FVec Ideal S512 .f32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) := by
  have e := congrFun h ValueIdx.ix0
  dsimp only [fn, fn_part1, fn_part2, fn_part3] at e
  simp only [andi, IntOp.andi_eq_one] at e
  obtain ⟨⟨⟨⟨⟨⟨⟨⟨⟨⟨e0, e1⟩, e2⟩, e3⟩, e4⟩, -⟩, -⟩, -⟩, -⟩, -⟩, -⟩ := e
  exact ⟨real_of_all a0 _ _ _ e0, real_of_all a1 _ _ _ e1, real_of_all a2 _ _ _ e2, real_of_all a3 _ _ _ e3,
    real_of_all a4 _ _ _ e4⟩

end Cert.Pre_finite_inputs.Hand

end
-- ==== Proof.lean ====
/-
  The certificate of the fused attention + layer-normalisation kernel against its reference.

  Frames. The kernel program is eight host operations (three weight matrices transposed and laid side by side, their
  biases end to end, the output projection transposed, two changes of format) and one region of 4 × 32 grid points;
  each point loads its seven input blocks whole, computes, and stores one block, so each run terminates without a
  fault and only ever writes the result array: the arguments end as they began. The reference is straight-line host
  code; its run names every intermediate, and dropping the result from its post is its frame.

  The idealization names one literal, the finite fill −0.7·(largest float) of masked scores, as −∞: the ledger's eight
  entries (one per head) are that statement.

  Values. At the exact extended reals both programs compute, column by column of the activations, the same function:
  the kernel's block-wise body read at an index is the specification at the kernel's spellings, the blocks tile the
  result array, the reference's composed term read at an index is the specification at the reference's spellings, and
  the two spellings agree for finite inputs (a quotient by 8 is a product with 1/8; the exponential of −∞ is 0; a
  quotient by a sum of weights that is not zero — it contains the query's own key's positive weight — is a product
  with its reciprocal).
-/
import proofs.«145929_j58798102282423_2_alg».proof.Defs
import proofs.«145929_j58798102282423_2_alg».proof.Proof.Gen.Kernel
import proofs.«145929_j58798102282423_2_alg».proof.Proof.Gen.KernelIdeal
import proofs.«145929_j58798102282423_2_alg».proof.Proof.Gen.ReferenceIdeal
import proofs.«145929_j58798102282423_2_alg».proof.Proof.Gen.Pre_finite_inputs
import proofs.«145929_j58798102282423_2_alg».proof.Proof.FrameBits
import proofs.«145929_j58798102282423_2_alg».proof.Proof.KernelRun
import proofs.«145929_j58798102282423_2_alg».proof.Proof.BodyValue
import proofs.«145929_j58798102282423_2_alg».proof.Proof.RefRun
import proofs.«145929_j58798102282423_2_alg».proof.Proof.RefValue
import proofs.«145929_j58798102282423_2_alg».proof.Proof.Laws
import proofs.«145929_j58798102282423_2_alg».proof.Proof.Finite

noncomputable section

namespace Cert.Proof

open Idealize.ShloMosaic Idealize.SL.Sem Idealize.ShloMosaic.ValueIdx

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Hand.run m ρ)

/-- The certificate's table gives the masked scores' fill the value −∞, and the printed constant is that value at the
    exact instance: the ledger's entry, once per head. -/
theorem preserves : Cert.preserves_Kernel_KernelIdeal :=
  have s := IdealRules.named_const.statement Cert.KernelIdeal.κ "neg_big" .f32 0xFF333332#32 ⊥ rfl
  ⟨s, s, s, s, s, s, s, s⟩

/-- The reference's result of arrays that agree with the kernel's arguments is the kernel's result. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Hand.out
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
      = Cert.KernelIdeal.HandValue.Gm m c := by
  obtain ⟨h0, h1, h2, h3, h4⟩ := Cert.Pre_finite_inputs.Hand.real_of_pre _ _ _ _ _ _ _ _ _ _ _ (hpre c)
  funext i
  obtain ⟨b, t, p, f, rfl⟩ : ∃ (b : Fin 4) (t : Fin 64) (p : Fin 256) (f : Fin 512), i = ix4 b t p f :=
    ⟨i 0, i 1, i 2, i 3, eq_ix4 i⟩
  rw [Cert.ReferenceIdeal.HandValue.out_apply]
  refine (congrFun (congrFun (congrFun (congrFun
    (Cert.Spec.Gref_eq_G _ _ _ _ _ _ _ _ _ _ _ ?_ ?_ ?_ ?_ ?_) b) t) p) f).trans ?_
  · exact fun b t p e => h0 (ix4 b t p e)
  · exact fun f e => h1 (ix2 f e)
  · exact fun f => h2 (ix1 f)
  · exact fun f e => h3 (ix2 f e)
  · exact fun f => h4 (ix1 f)
  · rfl

theorem algebraic : Cert.algebraic_KernelIdeal_ReferenceIdeal := by
  intro m ρ m' ρ' hpre hagree
  refine ⟨fun c => Cert.KernelIdeal.HandValue.Gm m c,
    Cert.KernelIdeal.HandValue.run m ρ Cert.KernelIdeal.Hand.body_apply, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]
  exact result_eq m hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
